-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S32x128 : Shape := ⟨2, ![32, 128]⟩
abbrev S128 : Shape := ⟨1, ![128]⟩
abbrev S128x128 : Shape := ⟨2, ![128, 128]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128 .f32) (main_arg12 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x32 .f32) (main_arg1 : IVec S1600000 32) (main_arg2 : IVec S1600000 32) (main_arg3 : FVec F S32x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x128 .f32 := Host.absf main_arg3
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S100000x32 : Shape := ⟨2, ![100000, 32]⟩
abbrev S1600000 : Shape := ⟨1, ![1600000]⟩
abbrev S32x128 : Shape := ⟨2, ![32, 128]⟩
abbrev S128 : Shape := ⟨1, ![128]⟩
abbrev S128x128 : Shape := ⟨2, ![128, 128]⟩
abbrev S_ : Shape := ⟨0, ![]⟩
abbrev S1600000x1 : Shape := ⟨2, ![1600000, 1]⟩
abbrev S1600000x32 : Shape := ⟨2, ![1600000, 32]⟩
abbrev S1x128 : Shape := ⟨2, ![1, 128]⟩
abbrev S100000x128 : Shape := ⟨2, ![100000, 128]⟩
abbrev S160x128 : Shape := ⟨2, ![160, 128]⟩
abbrev S5000x32 : Shape := ⟨2, ![5000, 32]⟩
abbrev S5000x128 : Shape := ⟨2, ![5000, 128]⟩
abbrev S8x128 : Shape := ⟨2, ![8, 128]⟩

abbrev nBuf : Space → Nat
  | .hbm => 96
  | .vmem => 48
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x32, .f32⟩
  | .hbm, ⟨22, _⟩ => ⟨S_, .f32⟩
  | .hbm, ⟨23, _⟩ => ⟨S100000x32, .f32⟩
  | .hbm, ⟨24, _⟩ => ⟨S1600000x1, .i32⟩
  | .hbm, ⟨25, _⟩ => ⟨S100000x32, .f32⟩
  | .hbm, ⟨26, _⟩ => ⟨S1x128, .f32⟩
  | .hbm, ⟨27, _⟩ => ⟨S100000x128, .f32⟩
  | .hbm, ⟨28, _⟩ => ⟨S160x128, .f32⟩
  | .hbm, ⟨29, _⟩ => ⟨S160x128, .f32⟩
  | .hbm, ⟨30, _⟩ => ⟨S_, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S100000x128, .f32⟩
  | .hbm, ⟨51, _⟩ => ⟨S160x128, .f32⟩
  | .hbm, ⟨52, _⟩ => ⟨S160x128, .f32⟩
  | .hbm, ⟨53, _⟩ => ⟨S_, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S160x128, .f32⟩
  | .hbm, ⟨73, _⟩ => ⟨S160x128, .f32⟩
  | .hbm, ⟨74, _⟩ => ⟨S_, .f32⟩
  | .hbm, ⟨75, _⟩ => ⟨S128, .f32⟩
  | .hbm, ⟨76, _⟩ => ⟨S_, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S100000x128, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S8x128, .f32⟩
  | .local _ .vmem, ⟨23, _⟩ => ⟨S8x128, .f32⟩
  | .local _ .vmem, ⟨24, _⟩ => ⟨S8x128, .f32⟩
  | .local _ .vmem, ⟨25, _⟩ => ⟨S8x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S8x128, .f32⟩
  | .local _ .vmem, ⟨33, _⟩ => ⟨S8x128, .f32⟩
  | .local _ .vmem, ⟨34, _⟩ => ⟨S8x128, .f32⟩
  | .local _ .vmem, ⟨35, _⟩ => ⟨S8x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_cst_1 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27_0 : Ref sig .tc := ⟨.hbm, 50, rfl⟩
abbrev main_v27_1 : Ref sig .tc := ⟨.hbm, 51, rfl⟩
abbrev main_v27_2 : Ref sig .tc := ⟨.hbm, 52, rfl⟩
abbrev main_cst_6 : Ref sig .tc := ⟨.hbm, 53, rfl⟩
abbrev main_v28 : Ref sig .tc := ⟨.hbm, 54, rfl⟩
abbrev main_cst_7 : Ref sig .tc := ⟨.hbm, 55, rfl⟩
abbrev main_v29 : Ref sig .tc := ⟨.hbm, 56, rfl⟩
abbrev main_cst_8 : Ref sig .tc := ⟨.hbm, 57, rfl⟩
abbrev main_v30 : Ref sig .tc := ⟨.hbm, 58, rfl⟩
abbrev main_v31 : Ref sig .tc := ⟨.hbm, 59, rfl⟩
abbrev main_cst_9 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_10 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42_0 : Ref sig .tc := ⟨.hbm, 72, rfl⟩
abbrev main_v42_1 : Ref sig .tc := ⟨.hbm, 73, rfl⟩
abbrev main_cst_11 : Ref sig .tc := ⟨.hbm, 74, rfl⟩
abbrev main_v43 : Ref sig .tc := ⟨.hbm, 75, rfl⟩
abbrev main_cst_12 : Ref sig .tc := ⟨.hbm, 76, rfl⟩
abbrev main_v44 : Ref sig .tc := ⟨.hbm, 77, rfl⟩
abbrev main_cst_13 : Ref sig .tc := ⟨.hbm, 78, rfl⟩
abbrev main_v45 : Ref sig .tc := ⟨.hbm, 79, rfl⟩
abbrev main_v46 : Ref sig .tc := ⟨.hbm, 80, rfl⟩
abbrev main_cst_14 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_15 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg8_0 : Ref sig .tc := ⟨.vmem, 45, rfl⟩
abbrev cc3_stg9_0 : Ref sig .tc := ⟨.vmem, 46, rfl⟩
abbrev cc3_stg9_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem8_0 : DmaSem sig := 45
abbrev cc3_sem9_0 : DmaSem sig := 46
abbrev cc3_sem9_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  shapeCasts_S128_S1x128 : S128.ShapeCasts S1x128
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  iota_S8x128_d0_w32 : S8x128.Iotas .tc 32 [0]
  broadcasts_S1x128_S8x128 : S1x128.Broadcasts S8x128
  inb_S8x128_S8x128_0_0 : ∀ a, (![0, 0] : Fin 2 → Nat) a + S8x128.size a ≤ S8x128.size a
  h_S8x128 : 0 < S8x128.numel
  reducesTo_S160x128_S128_d0 : S160x128.ReducesTo [0] S128
  h_S_ : 0 < S_.numel
  bcast_S_S128 : S_.BroadcastsInDim S128 (![] : Fin 0 → Fin S128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x128_S5000x128_1_0_0_1_n_n_wf : DotDims.WF S5000x32 S32x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S160x128.size a
  hwx0_5 : ∀ i : grid0.Coords, EltTy.bits .f32 = 32 ∨ (Rect.block (s := S160x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S160x128.size a
  hwx0_6 : ∀ i : grid0.Coords, EltTy.bits .f32 = 32 ∨ (Rect.block (s := S160x128) S8x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8x128.size a ≤ S160x128.size a
  hwx1_8 : ∀ i : grid1.Coords, EltTy.bits .f32 = 32 ∨ (Rect.block (s := S160x128) S8x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8x128.size a ≤ S160x128.size a
  hwx1_9 : ∀ i : grid1.Coords, EltTy.bits .f32 = 32 ∨ (Rect.block (s := S160x128) S8x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8x128.size a ≤ S160x128.size a
  hwx2_5 : ∀ i : grid2.Coords, EltTy.bits .f32 = 32 ∨ (Rect.block (s := S160x128) S8x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x128.size a ≤ S160x128.size a
  hwx2_6 : ∀ i : grid2.Coords, EltTy.bits .f32 = 32 ∨ (Rect.block (s := S160x128) S8x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S100000x128.size a
  hwx3_9 : ∀ i : grid3.Coords, EltTy.bits .f32 = 32 ∨ (Rect.block (s := S100000x128) S5000x128.size (cc3_transform_9 i) (hinb3_9 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_2) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v11_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v27_1) S8x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v27_2) S8x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v27_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42_0) S8x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v42_1) S8x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v27_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v54) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v57) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v58) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v59) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S100000x32 : Shape := ⟨2, ![100000, 32]⟩
abbrev S1600000 : Shape := ⟨1, ![1600000]⟩
abbrev S32x128 : Shape := ⟨2, ![32, 128]⟩
abbrev S128 : Shape := ⟨1, ![128]⟩
abbrev S128x128 : Shape := ⟨2, ![128, 128]⟩
abbrev S_ : Shape := ⟨0, ![]⟩
abbrev S1600000x1 : Shape := ⟨2, ![1600000, 1]⟩
abbrev S1600000x32 : Shape := ⟨2, ![1600000, 32]⟩
abbrev S100000x128 : Shape := ⟨2, ![100000, 128]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S100000x32, .f32⟩
  | 1 => ⟨S1600000, .i32⟩
  | 2 => ⟨S1600000, .i32⟩
  | 3 => ⟨S32x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x32, .f32⟩
  | 22 => ⟨S_, .f32⟩
  | 23 => ⟨S100000x32, .f32⟩
  | 24 => ⟨S1600000x1, .i32⟩
  | 25 => ⟨S100000x32, .f32⟩
  | 26 => ⟨S100000x32, .f32⟩
  | 27 => ⟨S100000x128, .f32⟩
  | 28 => ⟨S1x128, .f32⟩
  | 29 => ⟨S100000x128, .f32⟩
  | 30 => ⟨S100000x128, .f32⟩
  | 31 => ⟨S_, .f32⟩
  | 32 => ⟨S128, .f32⟩
  | 33 => ⟨S_, .f32⟩
  | 34 => ⟨S128, .f32⟩
  | 35 => ⟨S128, .f32⟩
  | 36 => ⟨S1x128, .f32⟩
  | 37 => ⟨S100000x128, .f32⟩
  | 38 => ⟨S100000x128, .f32⟩
  | 39 => ⟨S100000x128, .f32⟩
  | 40 => ⟨S_, .f32⟩
  | 41 => ⟨S128, .f32⟩
  | 42 => ⟨S_, .f32⟩
  | 43 => ⟨S128, .f32⟩
  | 44 => ⟨S128, .f32⟩
  | 45 => ⟨S1x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S_, .f32⟩
  | 52 => ⟨S128, .f32⟩
  | 53 => ⟨S128, .f32⟩
  | 54 => ⟨S128, .f32⟩
  | 55 => ⟨S1x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S128, .f32⟩
  | 70 => ⟨S_, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S100000x128, .f32⟩
  | 77 => ⟨S_, .f32⟩
  | 78 => ⟨S128, .f32⟩
  | 79 => ⟨S_, .f32⟩
  | 80 => ⟨S128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S128, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S_, .f32⟩
  | 102 => ⟨S128, .f32⟩
  | 103 => ⟨S_, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S100000x128, .f32⟩
  | 110 => ⟨S_, .f32⟩
  | 111 => ⟨S128, .f32⟩
  | 112 => ⟨S_, .f32⟩
  | 113 => ⟨S128, .f32⟩
  | 114 => ⟨S128, .f32⟩
  | 115 => ⟨S1x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S128, .f32⟩
  | 123 => ⟨S128, .f32⟩
  | 124 => ⟨S128, .f32⟩
  | 125 => ⟨S1x128, .f32⟩
  | 126 => ⟨S100000x128, .f32⟩
  | 127 => ⟨S100000x128, .f32⟩
  | _ => ⟨S100000x32, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call0_cst : Ref sig .tc := ⟨.hbm, 61, rfl⟩
abbrev main_call0_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_8 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_10 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call1_cst : Ref sig .tc := ⟨.hbm, 98, rfl⟩
abbrev main_call1_v0 : Ref sig .tc := ⟨.hbm, 99, rfl⟩
abbrev main_v70 : Ref sig .tc := ⟨.hbm, 100, rfl⟩
abbrev main_cst_11 : Ref sig .tc := ⟨.hbm, 101, rfl⟩
abbrev main_v71 : Ref sig .tc := ⟨.hbm, 102, rfl⟩
abbrev main_cst_12 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_13 : Ref sig .tc := ⟨.hbm, 110, rfl⟩
abbrev main_v78 : Ref sig .tc := ⟨.hbm, 111, rfl⟩
abbrev main_cst_14 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_15 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_call2_cst : Ref sig .tc := ⟨.hbm, 131, rfl⟩
abbrev main_call2_v0 : Ref sig .tc := ⟨.hbm, 132, rfl⟩
abbrev main_v96 : Ref sig .tc := ⟨.hbm, 133, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S100000x128 : S_.BroadcastsInDim S100000x128 (![] : Fin 0 → Fin S100000x128.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x128_S100000x128_1_0_0_1_n_n_wf : DotDims.WF S100000x32 S32x128 S100000x128 [1] [0] [0] [1] [] []
  dot_S100000x128_S128x128_S100000x128_1_0_0_1_n_n_wf : DotDims.WF S100000x128 S128x128 S100000x128 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.GinKernelRun.lean ====
/-
  The idealized kernel program's run with EVERY unscoped buffer's final contents named.

  The program is four kernel regions among stretches of host operations. Its generated frame proves termination
  and that the argument arrays end as launched, and forgets everything else about the final memory. The same
  launch, with the last thread state read out whole, says that every buffer the thread state holds ends at the
  last boundary's contents (the fold `W8` of the launch memory through the stretches and the regions): that is the
  statement the value of the result array is read from.
-/
import proofs.«166857_j49581102465153_2_alg».proof.Proof.Gen.KernelIdeal.Frame

set_option maxRecDepth 16384

noncomputable section

namespace Cert.Gin.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every buffer of the final memory that
    the thread state holds is at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run, read at the result array and at the thirteen arguments. -/
theorem run_result : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun s h c =>
      ⟨h c _ (mem_uc main_v59 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)
    (run_all m ρ)

end Cert.Gin.KernelRun

end
-- ==== Proof.GinKernelFold.lean ====
/-
  What each kernel region finds in its input arrays when it is entered, in the idealized kernel program.

  The program's buffer contents at the eight boundaries between host stretches and kernel regions are a fold of
  the launch memory. Read at a region's input array, the fold is: an argument array as launched; a reshaped
  argument; an earlier region's output array; or a statistics row computed by the host stretch before the region
  from an earlier region's partial-sum arrays.
-/
import proofs.«166857_j49581102465153_2_alg».proof.Proof.Gen.KernelIdeal.Frame
import Idealize.ShloMosaic.Lib.StableHlo.Run

set_option maxRecDepth 16384

noncomputable section

namespace Cert.Gin.Fold

open Idealize.ShloMosaic Idealize.ShloMosaic.TcCoe Idealize.ShloMosaic.Tactic Idealize.ShloMosaic.StableHlo
open Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- A host stretch leaves a buffer it does not write as it found it. -/
macro "host_untouched" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-! ## The host stretches' statistics, as functions of the partial-sum arrays -/

/-- A 128-vector as a 1×128 row. -/
def rowOf (v : (⟨S128, .f32⟩ : BufTy).Contents (Elt F)) : (⟨S1x128, .f32⟩ : BufTy).Contents (Elt F) :=
  shapeCast S1x128 v shapeCasts_S128_S1x128

/-- The column means from the per-tile column sums: the 160 rows added up, divided by the row count. -/
def meanVec (ps : (⟨S160x128, .f32⟩ : BufTy).Contents (Elt F)) : (⟨S128, .f32⟩ : BufTy).Contents (Elt F) :=
  Host.divf (Host.reduceAdd ps (constant S_ .f32 0x00000000#32) reducesTo_S160x128_S128_d0 h_S_)
    (broadcastInDim S128 ![] bcast_S_S128 (constant S_ .f32 0x47C35000#32))

/-- The column variances from the per-tile sums and sums of squares: the mean of the squares minus the square of the
    mean, clamped at zero. -/
def varVec (ps pss : (⟨S160x128, .f32⟩ : BufTy).Contents (Elt F)) : (⟨S128, .f32⟩ : BufTy).Contents (Elt F) :=
  maximumf (subf (meanVec pss) (mulf (meanVec ps) (meanVec ps)))
    (broadcastInDim S128 ![] bcast_S_S128 (constant S_ .f32 0x00000000#32))

/-- The neighbourhood sums: rows of `x` picked by the (wrapped) source indices, added into the rows the destination
    indices name, from zero. -/
def aggKer (x : (⟨S100000x32, .f32⟩ : BufTy).Contents (Elt F)) (src dst : (⟨S1600000, .i32⟩ : BufTy).Contents (Elt F)) :
    (⟨S100000x32, .f32⟩ : BufTy).Contents (Elt F) :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 dst)
    (Host.gather gather_S100000x32_S1600000x1_S1600000x32_1_0_n_n_0_1_132 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-! ## An argument array at the later boundaries: nothing before has written it -/

theorem W2_arg5 (c : Dev nD) : W2 m ρ c (Proc.devRef .tc main_arg5) = m ((c : Thread nD τ).loc main_arg5) := by
  refine (W2_of_ne m ρ c main_arg5 (by decide)).trans ?_
  show W1 m ρ c (Proc.devRef .tc main_arg5) = W0 m ρ c (Proc.devRef .tc main_arg5)
  host_untouched hostOps0

theorem W2_arg6 (c : Dev nD) : W2 m ρ c (Proc.devRef .tc main_arg6) = m ((c : Thread nD τ).loc main_arg6) := by
  refine (W2_of_ne m ρ c main_arg6 (by decide)).trans ?_
  show W1 m ρ c (Proc.devRef .tc main_arg6) = W0 m ρ c (Proc.devRef .tc main_arg6)
  host_untouched hostOps0

theorem W2_arg7 (c : Dev nD) : W2 m ρ c (Proc.devRef .tc main_arg7) = m ((c : Thread nD τ).loc main_arg7) := by
  refine (W2_of_ne m ρ c main_arg7 (by decide)).trans ?_
  show W1 m ρ c (Proc.devRef .tc main_arg7) = W0 m ρ c (Proc.devRef .tc main_arg7)
  host_untouched hostOps0

theorem W2_arg8 (c : Dev nD) : W2 m ρ c (Proc.devRef .tc main_arg8) = m ((c : Thread nD τ).loc main_arg8) := by
  refine (W2_of_ne m ρ c main_arg8 (by decide)).trans ?_
  show W1 m ρ c (Proc.devRef .tc main_arg8) = W0 m ρ c (Proc.devRef .tc main_arg8)
  host_untouched hostOps0

theorem W2_arg9 (c : Dev nD) : W2 m ρ c (Proc.devRef .tc main_arg9) = m ((c : Thread nD τ).loc main_arg9) := by
  refine (W2_of_ne m ρ c main_arg9 (by decide)).trans ?_
  show W1 m ρ c (Proc.devRef .tc main_arg9) = W0 m ρ c (Proc.devRef .tc main_arg9)
  host_untouched hostOps0

theorem W2_arg10 (c : Dev nD) : W2 m ρ c (Proc.devRef .tc main_arg10) = m ((c : Thread nD τ).loc main_arg10) := by
  refine (W2_of_ne m ρ c main_arg10 (by decide)).trans ?_
  show W1 m ρ c (Proc.devRef .tc main_arg10) = W0 m ρ c (Proc.devRef .tc main_arg10)
  host_untouched hostOps0

theorem W2_arg11 (c : Dev nD) : W2 m ρ c (Proc.devRef .tc main_arg11) = m ((c : Thread nD τ).loc main_arg11) := by
  refine (W2_of_ne m ρ c main_arg11 (by decide)).trans ?_
  show W1 m ρ c (Proc.devRef .tc main_arg11) = W0 m ρ c (Proc.devRef .tc main_arg11)
  host_untouched hostOps0

theorem W2_arg12 (c : Dev nD) : W2 m ρ c (Proc.devRef .tc main_arg12) = m ((c : Thread nD τ).loc main_arg12) := by
  refine (W2_of_ne m ρ c main_arg12 (by decide)).trans ?_
  show W1 m ρ c (Proc.devRef .tc main_arg12) = W0 m ρ c (Proc.devRef .tc main_arg12)
  host_untouched hostOps0

theorem W4_arg9 (c : Dev nD) : W4 m ρ c (Proc.devRef .tc main_arg9) = m ((c : Thread nD τ).loc main_arg9) := by
  refine (W4_of_ne m ρ c main_arg9 (by decide)).trans ?_
  refine Eq.trans (?_ : W3 m ρ c (Proc.devRef .tc main_arg9) = W2 m ρ c (Proc.devRef .tc main_arg9)) (W2_arg9 m ρ c)
  host_untouched hostOps1

theorem W4_arg10 (c : Dev nD) : W4 m ρ c (Proc.devRef .tc main_arg10) = m ((c : Thread nD τ).loc main_arg10) := by
  refine (W4_of_ne m ρ c main_arg10 (by decide)).trans ?_
  refine Eq.trans (?_ : W3 m ρ c (Proc.devRef .tc main_arg10) = W2 m ρ c (Proc.devRef .tc main_arg10)) (W2_arg10 m ρ c)
  host_untouched hostOps1

theorem W4_arg11 (c : Dev nD) : W4 m ρ c (Proc.devRef .tc main_arg11) = m ((c : Thread nD τ).loc main_arg11) := by
  refine (W4_of_ne m ρ c main_arg11 (by decide)).trans ?_
  refine Eq.trans (?_ : W3 m ρ c (Proc.devRef .tc main_arg11) = W2 m ρ c (Proc.devRef .tc main_arg11)) (W2_arg11 m ρ c)
  host_untouched hostOps1

theorem W4_arg12 (c : Dev nD) : W4 m ρ c (Proc.devRef .tc main_arg12) = m ((c : Thread nD τ).loc main_arg12) := by
  refine (W4_of_ne m ρ c main_arg12 (by decide)).trans ?_
  refine Eq.trans (?_ : W3 m ρ c (Proc.devRef .tc main_arg12) = W2 m ρ c (Proc.devRef .tc main_arg12)) (W2_arg12 m ρ c)
  host_untouched hostOps1

theorem W6_arg9 (c : Dev nD) : W6 m ρ c (Proc.devRef .tc main_arg9) = m ((c : Thread nD τ).loc main_arg9) := by
  refine (W6_of_ne m ρ c main_arg9 (by decide)).trans ?_
  refine Eq.trans (?_ : W5 m ρ c (Proc.devRef .tc main_arg9) = W4 m ρ c (Proc.devRef .tc main_arg9)) (W4_arg9 m ρ c)
  host_untouched hostOps2

theorem W6_arg10 (c : Dev nD) : W6 m ρ c (Proc.devRef .tc main_arg10) = m ((c : Thread nD τ).loc main_arg10) := by
  refine (W6_of_ne m ρ c main_arg10 (by decide)).trans ?_
  refine Eq.trans (?_ : W5 m ρ c (Proc.devRef .tc main_arg10) = W4 m ρ c (Proc.devRef .tc main_arg10)) (W4_arg10 m ρ c)
  host_untouched hostOps2

theorem W6_arg11 (c : Dev nD) : W6 m ρ c (Proc.devRef .tc main_arg11) = m ((c : Thread nD τ).loc main_arg11) := by
  refine (W6_of_ne m ρ c main_arg11 (by decide)).trans ?_
  refine Eq.trans (?_ : W5 m ρ c (Proc.devRef .tc main_arg11) = W4 m ρ c (Proc.devRef .tc main_arg11)) (W4_arg11 m ρ c)
  host_untouched hostOps2

theorem W6_arg12 (c : Dev nD) : W6 m ρ c (Proc.devRef .tc main_arg12) = m ((c : Thread nD τ).loc main_arg12) := by
  refine (W6_of_ne m ρ c main_arg12 (by decide)).trans ?_
  refine Eq.trans (?_ : W5 m ρ c (Proc.devRef .tc main_arg12) = W4 m ρ c (Proc.devRef .tc main_arg12)) (W4_arg12 m ρ c)
  host_untouched hostOps2

/-! ## Region A's entry -/

theorem entryA_x (c : Dev nD) : V1 m ρ c main_arg0 = m ((c : Thread nD τ).loc main_arg0) := by
  show W1 m ρ c (Proc.devRef .tc main_arg0) = W0 m ρ c (Proc.devRef .tc main_arg0)
  host_untouched hostOps0

theorem entryA_w (c : Dev nD) : V1 m ρ c main_arg3 = m ((c : Thread nD τ).loc main_arg3) := by
  show W1 m ρ c (Proc.devRef .tc main_arg3) = W0 m ρ c (Proc.devRef .tc main_arg3)
  host_untouched hostOps0

theorem entryA_b (c : Dev nD) : V1 m ρ c main_v10 = rowOf (m ((c : Thread nD τ).loc main_arg4)) := by
  show StableHlo.after hostOps0 (W0 m ρ c) (Proc.devRef .tc main_v10) = _
  after_results
  rfl

theorem entryA_agg (c : Dev nD) : V1 m ρ c main_v9
    = aggKer (m ((c : Thread nD τ).loc main_arg0)) (m ((c : Thread nD τ).loc main_arg1)) (m ((c : Thread nD τ).loc main_arg2)) := by
  show StableHlo.after hostOps0 (W0 m ρ c) (Proc.devRef .tc main_v9) = _
  after_results
  rfl

/-! ## Region B's entry -/

theorem entryB_z (c : Dev nD) : V3 m ρ c main_v11_0 = (dat0 (V1 m ρ) c).arrAt 4 cfg0.N := by
  refine Eq.trans (?_ : W3 m ρ c (Proc.devRef .tc main_v11_0) = W2 m ρ c (Proc.devRef .tc main_v11_0)) (W2_arr m ρ c 4)
  host_untouched hostOps1

theorem entryB_mean (c : Dev nD) : V3 m ρ c main_v22 = rowOf (meanVec ((dat0 (V1 m ρ) c).arrAt 5 cfg0.N)) := by
  show StableHlo.after hostOps1 (W2 m ρ c) (Proc.devRef .tc main_v22) = _
  after_results
  rw [show W2 m ρ c (Proc.devRef .tc main_v11_1) = _ from W2_arr m ρ c 5]
  rfl

theorem entryB_var (c : Dev nD) : V3 m ρ c main_v23
    = rowOf (varVec ((dat0 (V1 m ρ) c).arrAt 5 cfg0.N) ((dat0 (V1 m ρ) c).arrAt 6 cfg0.N)) := by
  show StableHlo.after hostOps1 (W2 m ρ c) (Proc.devRef .tc main_v23) = _
  after_results_simp
  rw [show W2 m ρ c (Proc.devRef .tc main_v11_1) = _ from W2_arr m ρ c 5, show W2 m ρ c (Proc.devRef .tc main_v11_2) = _ from W2_arr m ρ c 6]
  rfl

theorem entryB_g (c : Dev nD) : V3 m ρ c main_v24 = rowOf (m ((c : Thread nD τ).loc main_arg5)) := by
  show StableHlo.after hostOps1 (W2 m ρ c) (Proc.devRef .tc main_v24) = _
  after_results
  rw [W2_arg5 m ρ c]
  rfl

theorem entryB_be (c : Dev nD) : V3 m ρ c main_v25 = rowOf (m ((c : Thread nD τ).loc main_arg6)) := by
  show StableHlo.after hostOps1 (W2 m ρ c) (Proc.devRef .tc main_v25) = _
  after_results
  rw [W2_arg6 m ρ c]
  rfl

theorem entryB_w (c : Dev nD) : V3 m ρ c main_arg7 = m ((c : Thread nD τ).loc main_arg7) := by
  refine Eq.trans (?_ : W3 m ρ c (Proc.devRef .tc main_arg7) = W2 m ρ c (Proc.devRef .tc main_arg7)) (W2_arg7 m ρ c)
  host_untouched hostOps1

theorem entryB_b (c : Dev nD) : V3 m ρ c main_v26 = rowOf (m ((c : Thread nD τ).loc main_arg8)) := by
  show StableHlo.after hostOps1 (W2 m ρ c) (Proc.devRef .tc main_v26) = _
  after_results
  rw [W2_arg8 m ρ c]
  rfl

/-! ## Region C's entry -/

theorem entryC_z (c : Dev nD) : V5 m ρ c main_v27_0 = (dat1 (V3 m ρ) c).arrAt 7 cfg1.N := by
  refine Eq.trans (?_ : W5 m ρ c (Proc.devRef .tc main_v27_0) = W4 m ρ c (Proc.devRef .tc main_v27_0)) (W4_arr m ρ c 7)
  host_untouched hostOps2

theorem entryC_mean (c : Dev nD) : V5 m ρ c main_v38 = rowOf (meanVec ((dat1 (V3 m ρ) c).arrAt 8 cfg1.N)) := by
  show StableHlo.after hostOps2 (W4 m ρ c) (Proc.devRef .tc main_v38) = _
  after_results
  rw [show W4 m ρ c (Proc.devRef .tc main_v27_1) = _ from W4_arr m ρ c 8]
  rfl

theorem entryC_var (c : Dev nD) : V5 m ρ c main_v39
    = rowOf (varVec ((dat1 (V3 m ρ) c).arrAt 8 cfg1.N) ((dat1 (V3 m ρ) c).arrAt 9 cfg1.N)) := by
  show StableHlo.after hostOps2 (W4 m ρ c) (Proc.devRef .tc main_v39) = _
  after_results_simp
  rw [show W4 m ρ c (Proc.devRef .tc main_v27_1) = _ from W4_arr m ρ c 8, show W4 m ρ c (Proc.devRef .tc main_v27_2) = _ from W4_arr m ρ c 9]
  rfl

theorem entryC_g (c : Dev nD) : V5 m ρ c main_v40 = rowOf (m ((c : Thread nD τ).loc main_arg9)) := by
  show StableHlo.after hostOps2 (W4 m ρ c) (Proc.devRef .tc main_v40) = _
  after_results
  rw [W4_arg9 m ρ c]
  rfl

theorem entryC_be (c : Dev nD) : V5 m ρ c main_v41 = rowOf (m ((c : Thread nD τ).loc main_arg10)) := by
  show StableHlo.after hostOps2 (W4 m ρ c) (Proc.devRef .tc main_v41) = _
  after_results
  rw [W4_arg10 m ρ c]
  rfl

/-! ## Region D's entry -/

/-- An input array of region C is, at region D's entry, what region C found there. -/
theorem W7_of_inC (c : Dev nD) (w : Fin cfg2.W) (hin : (cfg2.win w).isOut = false)
    (hu : W7 m ρ c (Proc.devRef .tc (Pipeline.arrRef spec2 w)) = W6 m ρ c (Proc.devRef .tc (Pipeline.arrRef spec2 w))) :
    W7 m ρ c (Proc.devRef .tc (Pipeline.arrRef spec2 w)) = V5 m ρ c (Pipeline.arrRef spec2 w) :=
  hu.trans ((W6_arr m ρ c w).trans (((dat2 (V5 m ρ) c).arrAt_in w hin _).trans (A_eq2 (V5 m ρ) c w)))

theorem entryD_z (c : Dev nD) : V7 m ρ c main_v27_0 = (dat1 (V3 m ρ) c).arrAt 7 cfg1.N :=
  (W7_of_inC m ρ c 0 rfl (by
    show W7 m ρ c (Proc.devRef .tc main_v27_0) = W6 m ρ c (Proc.devRef .tc main_v27_0)
    host_untouched hostOps3)).trans (entryC_z m ρ c)

theorem entryD_mean2 (c : Dev nD) : V7 m ρ c main_v38 = rowOf (meanVec ((dat1 (V3 m ρ) c).arrAt 8 cfg1.N)) :=
  (W7_of_inC m ρ c 1 rfl (by
    show W7 m ρ c (Proc.devRef .tc main_v38) = W6 m ρ c (Proc.devRef .tc main_v38)
    host_untouched hostOps3)).trans (entryC_mean m ρ c)

theorem entryD_var2 (c : Dev nD) : V7 m ρ c main_v39
    = rowOf (varVec ((dat1 (V3 m ρ) c).arrAt 8 cfg1.N) ((dat1 (V3 m ρ) c).arrAt 9 cfg1.N)) :=
  (W7_of_inC m ρ c 2 rfl (by
    show W7 m ρ c (Proc.devRef .tc main_v39) = W6 m ρ c (Proc.devRef .tc main_v39)
    host_untouched hostOps3)).trans (entryC_var m ρ c)

theorem entryD_g2 (c : Dev nD) : V7 m ρ c main_v55 = rowOf (m ((c : Thread nD τ).loc main_arg9)) := by
  show StableHlo.after hostOps3 (W6 m ρ c) (Proc.devRef .tc main_v55) = _
  after_results
  rw [W6_arg9 m ρ c]
  rfl

theorem entryD_be2 (c : Dev nD) : V7 m ρ c main_v56 = rowOf (m ((c : Thread nD τ).loc main_arg10)) := by
  show StableHlo.after hostOps3 (W6 m ρ c) (Proc.devRef .tc main_v56) = _
  after_results
  rw [W6_arg10 m ρ c]
  rfl

theorem entryD_mean3 (c : Dev nD) : V7 m ρ c main_v53 = rowOf (meanVec ((dat2 (V5 m ρ) c).arrAt 5 cfg2.N)) := by
  show StableHlo.after hostOps3 (W6 m ρ c) (Proc.devRef .tc main_v53) = _
  after_results
  rw [show W6 m ρ c (Proc.devRef .tc main_v42_0) = _ from W6_arr m ρ c 5]
  rfl

theorem entryD_var3 (c : Dev nD) : V7 m ρ c main_v54
    = rowOf (varVec ((dat2 (V5 m ρ) c).arrAt 5 cfg2.N) ((dat2 (V5 m ρ) c).arrAt 6 cfg2.N)) := by
  show StableHlo.after hostOps3 (W6 m ρ c) (Proc.devRef .tc main_v54) = _
  after_results_simp
  rw [show W6 m ρ c (Proc.devRef .tc main_v42_0) = _ from W6_arr m ρ c 5, show W6 m ρ c (Proc.devRef .tc main_v42_1) = _ from W6_arr m ρ c 6]
  rfl

theorem entryD_g3 (c : Dev nD) : V7 m ρ c main_v57 = rowOf (m ((c : Thread nD τ).loc main_arg11)) := by
  show StableHlo.after hostOps3 (W6 m ρ c) (Proc.devRef .tc main_v57) = _
  after_results
  rw [W6_arg11 m ρ c]
  rfl

theorem entryD_be3 (c : Dev nD) : V7 m ρ c main_v58 = rowOf (m ((c : Thread nD τ).loc main_arg12)) := by
  show StableHlo.after hostOps3 (W6 m ρ c) (Proc.devRef .tc main_v58) = _
  after_results
  rw [W6_arg12 m ρ c]
  rfl

/-! ## The result array -/

theorem result_array (c : Dev nD) : W8 m ρ c (Proc.devRef .tc main_v59) = (dat3 (V7 m ρ) c).arrAt 9 cfg3.N :=
  W8_arr m ρ c 9

end Cert.Gin.Fold

end
-- ==== Proof.GinArrays.lean ====
/-
  Each kernel region's output arrays as whole-array functions of its input arrays, over the extended reals.

  Region A maps `x`, the neighbourhood sums, a weight matrix and a bias row to the first affine layer `z`, and
  writes, per tile of 5000 rows, the column sums of `z` and of its squares into row 0 of an 8-row group (rows 1–7
  zero). Regions B and C normalise with given column statistics and clamp; B follows with the second affine layer,
  C only with the partial sums; region D normalises twice.
-/
import Idealize.ShloMosaic.PureOps.Ideal
import Idealize.ShloMosaic.Lib.ValueIdx

noncomputable section

namespace Cert.Gin

open Idealize.ShloMosaic Idealize.ShloMosaic.ValueIdx

/-- The rows-by-128 matrices, the statistics rows, and the 160-row partial-sum arrays, as index types. -/
abbrev Mat (r c : Nat) := (⟨2, ![r, c]⟩ : Shape).Idx → EReal

/-- The affine layer: row `i` of `h` against column `j` of `w`, plus entry `j` of the bias row. -/
def affine {K : Nat} (h : Mat 100000 K) (w : Mat K 128) (b : Mat 1 128) : Mat 100000 128 :=
  fun idx => (∑ k : Fin K, h (ix2 (idx 0) k) * w (ix2 k (idx 1))) + b (ix2 0 (idx 1))

/-- Entrywise sum of two matrices. -/
def addMat {r c : Nat} (x a : Mat r c) : Mat r c := fun idx => x idx + a idx

/-- Normalise with given statistics rows (mean `mn`, variance `vr`), scale by row `g`, shift by row `be`, clamp at zero. -/
def normClamp (z : Mat 100000 128) (mn vr g be : Mat 1 128) : Mat 100000 128 :=
  fun idx => max (g (ix2 0 (idx 1)) * (z idx - mn (ix2 0 (idx 1)))
      * Ideal.rsqrt (vr (ix2 0 (idx 1)) + Ideal.ofBits .f32 0x3727C5AC#32) + be (ix2 0 (idx 1))) 0

/-- Entrywise square. -/
def sqMat {r c : Nat} (z : Mat r c) : Mat r c := fun idx => z idx * z idx

/-- The 160-row array of per-tile column sums: row `8·t` holds the sum of column `j` over the 5000 rows of tile `t`,
    every other row is zero. -/
def tileSums (f : Mat 100000 128) : Mat 160 128 :=
  fun idx => if (idx 0).val % 8 = 0 then
      ∑ p : Fin 5000, f (ix2 (⟨5000 * ((idx 0).val / 8) + p.val, by have := (idx 0).isLt; have := p.isLt; simp only [Matrix.cons_val_zero] at *; omega⟩ : Fin 100000) (idx 1))
    else 0

end Cert.Gin

end
-- ==== Proof.GinSpec.lean ====
/-
  The network both programs compute, as ONE function of the argument arrays over the extended reals.

  A node feature matrix `x` (100000 × 32) and its neighbourhood sums `agg` are added; the result goes through two
  layers "affine map, batch normalisation over the 100000 rows, clamp at zero" and a third batch normalisation
  and clamp. Batch normalisation of a column subtracts the column's mean and scales by the reciprocal square root
  of the column's variance plus a small constant.

  The variance of a column is written in two forms: the mean of the squared deviations from the mean
  (`colVar`), and the mean of the squares minus the square of the mean, clamped at zero (`colVarOnePass`).
  On real numbers they are one number; on the extended reals they differ at infinite entries, so their
  equality is stated (in the module that proves it) for columns of real entries only.
-/
import Idealize.ShloMosaic.PureOps.Ideal

noncomputable section

namespace Cert.Gin

open Idealize.ShloMosaic

/-- The number of rows, 100000, as the single-precision literal both programs divide by. -/
def nodeCount : EReal := Ideal.ofBits .f32 0x47C35000#32

/-- The constant added to a variance before the reciprocal square root (the single-precision number nearest 1e-5). -/
def varEps : EReal := Ideal.ofBits .f32 0x3727C5AC#32

/-- The mean of column `j`: the sum over the 100000 rows, divided by the row count. -/
def colMean (z : Fin 100000 → Fin 128 → EReal) (j : Fin 128) : EReal :=
  Ideal.div (∑ i, z i j) nodeCount

/-- The variance of column `j` as the mean of the squared deviations from the column's mean. -/
def colVar (z : Fin 100000 → Fin 128 → EReal) (j : Fin 128) : EReal :=
  Ideal.div (∑ i, (z i j - colMean z j) * (z i j - colMean z j)) nodeCount

/-- The variance of column `j` as the mean of the squares minus the square of the mean, clamped at zero. -/
def colVarOnePass (z : Fin 100000 → Fin 128 → EReal) (j : Fin 128) : EReal :=
  max (Ideal.div (∑ i, z i j * z i j) nodeCount - colMean z j * colMean z j) 0

/-- Normalise with GIVEN column statistics, scale by `g`, shift by `be`, clamp at zero. -/
def normRelu (mean var g be : Fin 128 → EReal) (z : Fin 100000 → Fin 128 → EReal) (i : Fin 100000) (j : Fin 128) : EReal :=
  max (g j * (z i j - mean j) * Ideal.rsqrt (var j + varEps) + be j) 0

/-- Batch normalisation and clamp, the variance as the mean squared deviation. -/
def bnRelu (g be : Fin 128 → EReal) (z : Fin 100000 → Fin 128 → EReal) : Fin 100000 → Fin 128 → EReal :=
  normRelu (colMean z) (colVar z) g be z

/-- Batch normalisation and clamp, the variance in its one-pass form. -/
def bnReluOnePass (g be : Fin 128 → EReal) (z : Fin 100000 → Fin 128 → EReal) : Fin 100000 → Fin 128 → EReal :=
  normRelu (colMean z) (colVarOnePass z) g be z

/-- The affine map of a layer: row `i` of `h` against column `j` of `W`, plus the bias. -/
def linear {K : Nat} (h : Fin 100000 → Fin K → EReal) (W : Fin K → Fin 128 → EReal) (b : Fin 128 → EReal)
    (i : Fin 100000) (j : Fin 128) : EReal :=
  (∑ k, h i k * W k j) + b j

/-- The whole network, variances as mean squared deviations. -/
def gin (x agg : Fin 100000 → Fin 32 → EReal) (W1 : Fin 32 → Fin 128 → EReal) (b1 g1 be1 : Fin 128 → EReal)
    (W2 : Fin 128 → Fin 128 → EReal) (b2 g2 be2 g3 be3 : Fin 128 → EReal) : Fin 100000 → Fin 128 → EReal :=
  bnRelu g3 be3 (bnRelu g2 be2 (linear (bnRelu g1 be1 (linear (fun i k => x i k + agg i k) W1 b1)) W2 b2))

/-- The whole network, variances in the one-pass form. -/
def ginOnePass (x agg : Fin 100000 → Fin 32 → EReal) (W1 : Fin 32 → Fin 128 → EReal) (b1 g1 be1 : Fin 128 → EReal)
    (W2 : Fin 128 → Fin 128 → EReal) (b2 g2 be2 g3 be3 : Fin 128 → EReal) : Fin 100000 → Fin 128 → EReal :=
  bnReluOnePass g3 be3 (bnReluOnePass g2 be2 (linear (bnReluOnePass g1 be1 (linear (fun i k => x i k + agg i k) W1 b1)) W2 b2))

/-- An extended real that is a real number. -/
def IsReal (a : EReal) : Prop := ∃ r : ℝ, a = (r : EReal)

end Cert.Gin

end
-- ==== Proof.LibRealSums.lean ====
/-
  Real numbers inside the extended reals: finite sums, closure of "is a real number" under the
  arithmetic a normalisation layer uses, and the identity between the two forms of a variance.

  An extended real is "a real" when it is the image of some real number. Sums, differences, products, maxima,
  finite sums, quotients by a nonzero real and reciprocal square roots of positive reals keep that property,
  and on such values every operation is the image of the operation on real numbers. The variance law

      (∑ z²)/c − ((∑ z)/c)²  =  (∑ (z − (∑ z)/c)²)/c          (c the number of terms)

  holds for real numbers; its right-hand side is a mean of squares, so it is nonnegative and clamping the
  left-hand side at zero changes nothing. Carried to the extended reals it holds for columns of real entries.
-/
import Idealize.ShloMosaic.PureOps.Ideal
import Mathlib.Tactic

noncomputable section

namespace Cert.RealSums

open Idealize.ShloMosaic

/-- A finite sum of real numbers, taken in the extended reals, is the image of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals, is the image of the real maximum. -/
theorem coe_max (r s : ℝ) : max (r : EReal) (s : EReal) = ((max r s : ℝ) : EReal) := by
  rcases le_total r s with h | h
  · rw [max_eq_right h, max_eq_right (EReal.coe_le_coe_iff.mpr h)]
  · rw [max_eq_left h, max_eq_left (EReal.coe_le_coe_iff.mpr h)]

/-- The sum of two reals is a real. -/
theorem isReal_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

/-- The difference of two reals is a real. -/
theorem isReal_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

/-- The product of two reals is a real. -/
theorem isReal_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The larger of two reals is a real. -/
theorem isReal_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- Zero is a real. -/
theorem isReal_zero : ∃ r : ℝ, (0 : EReal) = (r : EReal) := ⟨0, EReal.coe_zero.symm⟩

/-- A finite sum of reals is a real. -/
theorem isReal_sum {ι : Type*} (s : Finset ι) {f : ι → EReal} (hf : ∀ i, ∃ r : ℝ, f i = (r : EReal)) :
    ∃ r : ℝ, ∑ i ∈ s, f i = (r : EReal) := by
  choose g hg using hf
  exact ⟨∑ i ∈ s, g i, by rw [← coe_finset_sum]; exact Finset.sum_congr rfl (fun i _ => hg i)⟩

/-- The quotient of a real by a nonzero real is a real: the product with the reciprocal. -/
theorem div_coe_coe (r : ℝ) {c : ℝ} (hc : c ≠ 0) : Ideal.div (r : EReal) (c : EReal) = ((r / c : ℝ) : EReal) := by
  rw [Ideal.div_coe hc, ← EReal.coe_mul, mul_one_div]

/-- The quotient of a real by a nonzero real is a real. -/
theorem isReal_div {a : EReal} {c : ℝ} (ha : ∃ r : ℝ, a = (r : EReal)) (hc : c ≠ 0) :
    ∃ r : ℝ, Ideal.div a (c : EReal) = (r : EReal) := by
  obtain ⟨r, rfl⟩ := ha; exact ⟨r / c, div_coe_coe r hc⟩

/-- The reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is a real. -/
theorem isReal_rsqrt {a : EReal} (ha : ∃ r : ℝ, 0 < r ∧ a = (r : EReal)) : ∃ s : ℝ, Ideal.rsqrt a = (s : EReal) := by
  obtain ⟨r, hr, rfl⟩ := ha; exact ⟨(Real.sqrt r)⁻¹, rsqrt_coe_pos hr⟩

/-- The variance law on real numbers: with `c` the number of terms, the mean of the squares minus the square of
    the mean is the mean of the squared deviations from the mean. -/
theorem real_var_law {ι : Type*} [Fintype ι] (z : ι → ℝ) (c : ℝ) (hc : (Fintype.card ι : ℝ) = c) (hc0 : c ≠ 0) :
    (∑ i, z i * z i) / c - (∑ i, z i) / c * ((∑ i, z i) / c)
      = (∑ i, (z i - (∑ i, z i) / c) * (z i - (∑ i, z i) / c)) / c := by
  set μ : ℝ := (∑ i, z i) / c with hμ
  have hs : ∑ i, z i = c * μ := by rw [hμ]; field_simp
  have hdev : ∑ i, (z i - μ) * (z i - μ) = ∑ i, z i * z i - 2 * μ * ∑ i, z i + c * (μ * μ) := by
    have h : ∀ i, (z i - μ) * (z i - μ) = z i * z i - 2 * μ * z i + μ * μ := fun i => by ring
    simp only [h, Finset.sum_add_distrib, Finset.sum_sub_distrib, ← Finset.mul_sum, Finset.sum_const,
      Finset.card_univ, nsmul_eq_mul, hc]
    ring
  rw [hdev, hs]
  field_simp
  ring

/-- The mean of the squared deviations of real numbers is nonnegative (`c` positive). -/
theorem real_var_nonneg {ι : Type*} [Fintype ι] (z : ι → ℝ) (m c : ℝ) (hc : 0 < c) :
    0 ≤ (∑ i, (z i - m) * (z i - m)) / c :=
  div_nonneg (Finset.sum_nonneg (fun i _ => mul_self_nonneg (z i - m))) hc.le

/-- The variance law on the extended reals, for real entries: the mean of the squares minus the square of the
    mean, clamped at zero, is the mean of the squared deviations from the mean. `c` is the number of terms. -/
theorem var_law {ι : Type*} [Fintype ι] (z : ι → EReal) (hz : ∀ i, ∃ r : ℝ, z i = (r : EReal))
    (c : ℝ) (hc : (Fintype.card ι : ℝ) = c) (hpos : 0 < c) :
    max (Ideal.div (∑ i, z i * z i) (c : EReal)
          - Ideal.div (∑ i, z i) (c : EReal) * Ideal.div (∑ i, z i) (c : EReal)) 0
      = Ideal.div (∑ i, (z i - Ideal.div (∑ i, z i) (c : EReal)) * (z i - Ideal.div (∑ i, z i) (c : EReal)))
          (c : EReal) := by
  choose w hw using hz
  obtain rfl : z = fun i => (w i : EReal) := funext hw
  have hc0 : c ≠ 0 := hpos.ne'
  simp only [← EReal.coe_mul, coe_finset_sum, div_coe_coe _ hc0, ← EReal.coe_sub]
  rw [← EReal.coe_zero, coe_max, real_var_law w c hc hc0, max_eq_left (real_var_nonneg w _ c hpos)]

/-- The mean of the squared deviations of real entries is a nonnegative real. -/
theorem var_isReal_nonneg {ι : Type*} [Fintype ι] (z : ι → EReal) (hz : ∀ i, ∃ r : ℝ, z i = (r : EReal))
    (c : ℝ) (hpos : 0 < c) :
    ∃ v : ℝ, 0 ≤ v ∧
      Ideal.div (∑ i, (z i - Ideal.div (∑ i, z i) (c : EReal)) * (z i - Ideal.div (∑ i, z i) (c : EReal)))
          (c : EReal) = (v : EReal) := by
  choose w hw using hz
  obtain rfl : z = fun i => (w i : EReal) := funext hw
  have hc0 : c ≠ 0 := hpos.ne'
  simp only [← EReal.coe_mul, coe_finset_sum, div_coe_coe _ hc0, ← EReal.coe_sub]
  exact ⟨_, real_var_nonneg w _ c hpos, rfl⟩

/-- Regrouping a sum by tiles. The index range `T * B` is cut into `T` tiles of `B` consecutive terms; a second
    family `g` over `T * R` indices (`T` groups of `R`) carries, at the first index of group `t`, the sum of
    tile `t`, and zero elsewhere. Then `g` and `f` have the same total: addition on the extended reals is
    commutative and associative, so no finiteness is needed. -/
theorem sum_tilePartials_of (T B R : ℕ) (hR : 0 < R) (f : Fin (T * B) → EReal) (g : Fin (T * R) → EReal)
    (hb : ∀ (r : Fin (T * R)) (p : Fin B), B * (r.val / R) + p.val < T * B)
    (hg : ∀ r : Fin (T * R), g r
      = if r.val % R = 0 then ∑ p : Fin B, f ⟨B * (r.val / R) + p.val, hb r p⟩ else 0) :
    ∑ r, g r = ∑ i, f i := by
  classical
  rw [← (finProdFinEquiv : Fin T × Fin R ≃ Fin (T * R)).sum_comp g,
    ← (finProdFinEquiv : Fin T × Fin B ≃ Fin (T * B)).sum_comp f, Fintype.sum_prod_type, Fintype.sum_prod_type]
  refine Finset.sum_congr rfl (fun t _ => ?_)
  rw [Finset.sum_eq_single (⟨0, hR⟩ : Fin R)]
  · rw [hg]
    have h0 : (finProdFinEquiv (t, (⟨0, hR⟩ : Fin R))).val = R * t := by
      rw [finProdFinEquiv_apply_val]; simp
    rw [if_pos (by rw [h0]; exact Nat.mul_mod_right R t)]
    refine Finset.sum_congr rfl (fun p _ => ?_)
    congr 1
    apply Fin.ext
    simp only [finProdFinEquiv_apply_val]
    rw [Nat.zero_add, Nat.mul_div_cancel_left _ hR, Nat.add_comm]
  · intro k _ hk
    rw [hg, if_neg]
    simp only [finProdFinEquiv_apply_val]
    rw [Nat.add_mul_mod_self_left, Nat.mod_eq_of_lt k.isLt]
    intro h
    exact hk (Fin.ext h)
  · intro h
    exact absurd (Finset.mem_univ _) h

/-- The regrouping for 100000 terms in 20 tiles of 5000, the partial sums sitting at every eighth of 160 indices. -/
theorem sum_tilePartials (f : Fin 100000 → EReal) (g : Fin 160 → EReal)
    (hg : ∀ r : Fin 160, g r = if r.val % 8 = 0 then ∑ p : Fin 5000, f ⟨5000 * (r.val / 8) + p.val, by have := r.isLt; have := p.isLt; omega⟩ else 0) :
    ∑ r, g r = ∑ i, f i :=
  sum_tilePartials_of 20 5000 8 (by norm_num) f g (fun r p => by have := r.isLt; have := p.isLt; omega) hg

end Cert.RealSums

end
-- ==== Proof.GinKernelAlgebra.lean ====
/-
  The kernel's whole-array closed form is the network of `GinSpec` with one-pass variances.

  The kernel computes each layer's column statistics from per-tile partial sums: 20 tiles of 5000 rows each leave
  their column sums (and sums of squares) in every eighth row of a 160-row array, the rest zero. Adding up the
  160 rows gives the sum over all 100000 rows, because addition of extended reals is commutative and associative.
  Hence the mean row is the column mean, and "mean of squares minus square of mean, clamped at zero" is the one-pass
  variance. With these statistics each normalisation stage is `bnReluOnePass`, each affine stage is `linear`, and
  the composition is `ginOnePass`.
-/
import proofs.«166857_j49581102465153_2_alg».proof.Proof.GinKernelFold
import proofs.«166857_j49581102465153_2_alg».proof.Proof.GinArrays
import proofs.«166857_j49581102465153_2_alg».proof.Proof.GinSpec
import proofs.«166857_j49581102465153_2_alg».proof.Proof.LibRealSums
import Idealize.ShloMosaic.PureOps.Ideal.Laws
import Idealize.ShloMosaic.Lib.ValueIdx
import Idealize.ShloMosaic.Lib.ValueLayout
import Idealize.ShloMosaic.Lib.Pipeline.Value

noncomputable section

namespace Cert.Gin.KernelNet

open Idealize.ShloMosaic Idealize.ShloMosaic.TcCoe Idealize.ShloMosaic.StableHlo Idealize.ShloMosaic.ValueIdx
open Idealize.SL.Sem
open Cert.KernelIdeal Cert.KernelIdeal.Gen Cert.Gin Cert.Gin.Fold

/-- A 100000 × 32 array of extended reals. -/
abbrev A32 := (⟨S100000x32, .f32⟩ : BufTy).Contents (Elt Ideal)
/-- A vector of 1600000 integers (edge endpoints). -/
abbrev E := (⟨S1600000, .i32⟩ : BufTy).Contents (Elt Ideal)
/-- A 32 × 128 weight matrix. -/
abbrev W32 := (⟨S32x128, .f32⟩ : BufTy).Contents (Elt Ideal)
/-- A 128 × 128 weight matrix. -/
abbrev W128 := (⟨S128x128, .f32⟩ : BufTy).Contents (Elt Ideal)
/-- A vector of 128 extended reals. -/
abbrev V128 := (⟨S128, .f32⟩ : BufTy).Contents (Elt Ideal)

/-! ### The statistics rows -/

/-- A vector laid out as a one-row matrix reads, in column `j`, the vector's entry `j`. -/
theorem rowOf_at (v : V128) (j : Fin 128) : rowOf (F := Ideal) v (ix2 (0 : Fin 1) j) = v (ix1 j) :=
  shapeCast_a_1a_apply v shapeCasts_S128_S1x128 0 j

/-- Adding up the 160 rows of a partial-sum array, column `j`. -/
theorem reduce160_at (ps : Mat 160 128) (j : Fin 128) :
    Host.reduceAdd (F := Ideal) ps (constant S_ .f32 0x00000000#32) reducesTo_S160x128_S128_d0 h_S_ (ix1 j)
      = ∑ r : Fin 160, ps (ix2 r j) := by
  simp only [Host.reduceAdd, Ideal.hostReduceAdd_def]
  rw [Ideal.hostReduceAdd_single reducesTo_S160x128_S128_d0 (by decide)]
  rw [show (constant (F := Ideal) S_ .f32 0x00000000#32) (Shape.Idx.first h_S_) = 0 from Ideal.ofBits_zero_f32, zero_add]
  refine Finset.sum_congr rfl fun k _ => ?_
  exact congrArg ps (funext fun a => Fin.ext (by match a with | ⟨0, _⟩ => rfl | ⟨1, _⟩ => rfl))

/-- The per-tile column sums of `f` add up to the column sums of `f`. -/
theorem sum_tileSums (f : Mat 100000 128) (j : Fin 128) :
    ∑ r : Fin 160, tileSums f (ix2 r j) = ∑ i : Fin 100000, f (ix2 i j) :=
  Cert.RealSums.sum_tilePartials (fun i => f (ix2 i j)) (fun r => tileSums f (ix2 r j)) (fun r => rfl)

/-- The mean row computed from the per-tile sums is the column mean. -/
theorem meanVec_tileSums (f : Mat 100000 128) (j : Fin 128) :
    meanVec (F := Ideal) (tileSums f) (ix1 j) = colMean (fun i j => f (ix2 i j)) j := by
  show Ideal.div (Host.reduceAdd (F := Ideal) (tileSums f) (constant S_ .f32 0x00000000#32) reducesTo_S160x128_S128_d0 h_S_ (ix1 j))
      (broadcastInDim S128 ![] bcast_S_S128 (constant (F := Ideal) S_ .f32 0x47C35000#32) (ix1 j)) = _
  rw [reduce160_at, sum_tileSums,
    broadcastInDim_apply _ bcast_S_S128 (constant (F := Ideal) S_ .f32 0x47C35000#32) (ix1 j) (fun a => a.elim0) (fun a => a.elim0)]
  rfl

/-- The variance row computed from the per-tile sums and sums of squares is the one-pass column variance. -/
theorem varVec_tileSums (f : Mat 100000 128) (j : Fin 128) :
    varVec (F := Ideal) (tileSums f) (tileSums (sqMat f)) (ix1 j) = colVarOnePass (fun i j => f (ix2 i j)) j := by
  show max (meanVec (F := Ideal) (tileSums (sqMat f)) (ix1 j) - meanVec (F := Ideal) (tileSums f) (ix1 j) * meanVec (F := Ideal) (tileSums f) (ix1 j))
      (broadcastInDim S128 ![] bcast_S_S128 (constant (F := Ideal) S_ .f32 0x00000000#32) (ix1 j)) = _
  rw [meanVec_tileSums, meanVec_tileSums,
    broadcastInDim_apply _ bcast_S_S128 (constant (F := Ideal) S_ .f32 0x00000000#32) (ix1 j) (fun a => a.elim0) (fun a => a.elim0),
    show (constant (F := Ideal) S_ .f32 0x00000000#32) (fun a => a.elim0) = 0 from Ideal.ofBits_zero_f32]
  rfl

/-! ### The stages -/

/-- Batch normalisation and clamp with the statistics recovered from per-tile partial sums. -/
def bnTiles (z : Mat 100000 128) (g be : V128) : Mat 100000 128 :=
  normClamp z (rowOf (F := Ideal) (meanVec (F := Ideal) (tileSums z)))
    (rowOf (F := Ideal) (varVec (F := Ideal) (tileSums z) (tileSums (sqMat z)))) (rowOf (F := Ideal) g) (rowOf (F := Ideal) be)

/-- A normalisation stage is the one-pass batch normalisation of the specification. -/
theorem bnTiles_at (z : Mat 100000 128) (g be : V128) (i : Fin 100000) (j : Fin 128) :
    bnTiles z g be (ix2 i j) = bnReluOnePass (fun j => g (ix1 j)) (fun j => be (ix1 j)) (fun i j => z (ix2 i j)) i j := by
  show max (rowOf (F := Ideal) g (ix2 0 j) * (z (ix2 i j) - rowOf (F := Ideal) (meanVec (F := Ideal) (tileSums z)) (ix2 0 j))
      * Ideal.rsqrt (rowOf (F := Ideal) (varVec (F := Ideal) (tileSums z) (tileSums (sqMat z))) (ix2 0 j) + Ideal.ofBits .f32 0x3727C5AC#32)
      + rowOf (F := Ideal) be (ix2 0 j)) 0 = _
  rw [rowOf_at, rowOf_at, rowOf_at, rowOf_at, meanVec_tileSums, varVec_tileSums]
  rfl

theorem bnTiles_fn (z : Mat 100000 128) (g be : V128) :
    (fun i j => bnTiles z g be (ix2 i j)) = bnReluOnePass (fun j => g (ix1 j)) (fun j => be (ix1 j)) (fun i j => z (ix2 i j)) :=
  funext fun i => funext fun j => bnTiles_at z g be i j

/-- An affine stage is the affine map of the specification. -/
theorem affine_at {K : Nat} (h : Mat 100000 K) (w : Mat K 128) (b : V128) (i : Fin 100000) (j : Fin 128) :
    affine h w (rowOf (F := Ideal) b) (ix2 i j)
      = linear (fun i k => h (ix2 i k)) (fun k j => w (ix2 k j)) (fun j => b (ix1 j)) i j := by
  show (∑ k : Fin K, h (ix2 i k) * w (ix2 k j)) + rowOf (F := Ideal) b (ix2 0 j) = _
  rw [rowOf_at]
  rfl

theorem affine_fn {K : Nat} (h : Mat 100000 K) (w : Mat K 128) (b : V128) :
    (fun i j => affine h w (rowOf (F := Ideal) b) (ix2 i j))
      = linear (fun i k => h (ix2 i k)) (fun k j => w (ix2 k j)) (fun j => b (ix1 j)) :=
  funext fun i => funext fun j => affine_at h w b i j

/-! ### The network -/

/-- The kernel's result as one function of its argument arrays: two layers "affine map, batch normalisation from
    per-tile partial sums, clamp" and a third normalisation and clamp. -/
def kernelNet (a0 : A32) (a1 a2 : E) (a3 : W32) (a4 a5 a6 : V128) (a7 : W128) (a8 a9 a10 a11 a12 : V128) : Mat 100000 128 :=
  let Z1 : Mat 100000 128 := affine (addMat a0 (aggKer (F := Ideal) a0 a1 a2)) a3 (rowOf (F := Ideal) a4)
  let H1 : Mat 100000 128 := normClamp Z1 (rowOf (F := Ideal) (meanVec (F := Ideal) (tileSums Z1)))
    (rowOf (F := Ideal) (varVec (F := Ideal) (tileSums Z1) (tileSums (sqMat Z1)))) (rowOf (F := Ideal) a5) (rowOf (F := Ideal) a6)
  let Z2 : Mat 100000 128 := affine H1 a7 (rowOf (F := Ideal) a8)
  let H2 : Mat 100000 128 := normClamp Z2 (rowOf (F := Ideal) (meanVec (F := Ideal) (tileSums Z2)))
    (rowOf (F := Ideal) (varVec (F := Ideal) (tileSums Z2) (tileSums (sqMat Z2)))) (rowOf (F := Ideal) a9) (rowOf (F := Ideal) a10)
  normClamp H2 (rowOf (F := Ideal) (meanVec (F := Ideal) (tileSums H2)))
    (rowOf (F := Ideal) (varVec (F := Ideal) (tileSums H2) (tileSums (sqMat H2)))) (rowOf (F := Ideal) a11) (rowOf (F := Ideal) a12)

/-- The same, stage by stage. -/
theorem kernelNet_stages (a0 : A32) (a1 a2 : E) (a3 : W32) (a4 a5 a6 : V128) (a7 : W128) (a8 a9 a10 a11 a12 : V128) :
    kernelNet a0 a1 a2 a3 a4 a5 a6 a7 a8 a9 a10 a11 a12
      = bnTiles (bnTiles (affine (bnTiles (affine (addMat a0 (aggKer (F := Ideal) a0 a1 a2)) a3 (rowOf (F := Ideal) a4)) a5 a6)
          a7 (rowOf (F := Ideal) a8)) a9 a10) a11 a12 := rfl

/-- The kernel's closed form is the network with one-pass variances. -/
theorem kernelNet_eq (a0 : A32) (a1 a2 : E) (a3 : W32) (a4 a5 a6 : V128) (a7 : W128) (a8 a9 a10 a11 a12 : V128) :
    kernelNet a0 a1 a2 a3 a4 a5 a6 a7 a8 a9 a10 a11 a12
      = fun idx => Cert.Gin.ginOnePass (fun i k => a0 (ix2 i k)) (fun i k => aggKer (F := Ideal) a0 a1 a2 (ix2 i k))
          (fun k j => a3 (ix2 k j)) (fun j => a4 (ix1 j)) (fun j => a5 (ix1 j)) (fun j => a6 (ix1 j))
          (fun k j => a7 (ix2 k j)) (fun j => a8 (ix1 j)) (fun j => a9 (ix1 j)) (fun j => a10 (ix1 j))
          (fun j => a11 (ix1 j)) (fun j => a12 (ix1 j)) (idx 0) (idx 1) := by
  funext idx
  obtain ⟨i, j, rfl⟩ : ∃ i j, idx = ix2 i j := ⟨idx 0, idx 1, eq_ix2 idx⟩
  rw [kernelNet_stages, bnTiles_at, bnTiles_fn, affine_fn, bnTiles_fn, affine_fn]
  rfl

end Cert.Gin.KernelNet

end
-- ==== Proof.GinPayloads.lean ====
/-
  The arithmetic of the four kernel bodies, read at one coordinate pair, over the extended reals.

  Each body's stored value is a composition of pointwise operations, row broadcasts, one matrix product into a zero
  accumulator and column sums over the block's 5000 rows. Read at row p and column q these are: the pointwise
  operation on the entries, the row vector's entry at q, the sum over the contracted coordinate, and the sum over the
  rows. A partial-sum block holds the column sums in its row 0 and zero in rows 1 to 7.
-/
import proofs.«166857_j49581102465153_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Gin.Payload

open Idealize.ShloMosaic Idealize.ShloMosaic.ValueIdx Cert.KernelIdeal Cert.KernelIdeal.Gen

/-- The left operand's index at contraction coordinate k keeps the output row … -/
theorem matmul32_lhs0 (i : S5000x128.Idx) (c : dot_S5000x32_S32x128_S5000x128_1_0_0_1_n_n.contr.Idx) : (dot_S5000x32_S32x128_S5000x128_1_0_0_1_n_n.lhsIdx i c 0).val = (i 0).val := by
  unfold DotDims.lhsIdx
  rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
  rfl
/-- … and takes the contraction coordinate as its column; -/
theorem matmul32_lhs1 (i : S5000x128.Idx) (c : dot_S5000x32_S32x128_S5000x128_1_0_0_1_n_n.contr.Idx) : (dot_S5000x32_S32x128_S5000x128_1_0_0_1_n_n.lhsIdx i c 1).val = (c ⟨0, by decide⟩).val :=
  dot_S5000x32_S32x128_S5000x128_1_0_0_1_n_n.lhsIdx_val_of_single rfl i c
/-- the right operand's index takes the contraction coordinate as its row … -/
theorem matmul32_rhs0 (i : S5000x128.Idx) (c : dot_S5000x32_S32x128_S5000x128_1_0_0_1_n_n.contr.Idx) : (dot_S5000x32_S32x128_S5000x128_1_0_0_1_n_n.rhsIdx i c 0).val = (c ⟨0, by decide⟩).val :=
  dot_S5000x32_S32x128_S5000x128_1_0_0_1_n_n.rhsIdx_val_of_single rfl i c
/-- … and keeps the output column. -/
theorem matmul32_rhs1 (i : S5000x128.Idx) (c : dot_S5000x32_S32x128_S5000x128_1_0_0_1_n_n.contr.Idx) : (dot_S5000x32_S32x128_S5000x128_1_0_0_1_n_n.rhsIdx i c 1).val = (i 1).val := by
  unfold DotDims.rhsIdx
  rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
  rfl

/-- A [5000,32] block times a [32,128] matrix into the zero accumulator, at (p,q): the sum over the 32 contracted
    coordinates of the products of row p's and column q's entries. -/
theorem matmul32_apply (L : FVec Ideal S5000x32 .bf16) (R : FVec Ideal S32x128 .bf16) (p : Fin 5000) (q : Fin 128) :
    matmul dot_S5000x32_S32x128_S5000x128_1_0_0_1_n_n none L R (constant (F := Ideal) S5000x128 .f32 0x00000000#32) (ix2 p q)
      = ∑ k : Fin 32, L (ix2 p k) * R (ix2 k q) := by
  refine (Ideal.matmul_constant_zero_apply dot_S5000x32_S32x128_S5000x128_1_0_0_1_n_n none L R (ix2 p q)).trans ?_
  rw [← Equiv.sum_comp (contrEquiv1 dot_S5000x32_S32x128_S5000x128_1_0_0_1_n_n 32 rfl rfl).symm]
  refine Finset.sum_congr rfl fun k _ => ?_
  have hk := contrEquiv1_symm_val dot_S5000x32_S32x128_S5000x128_1_0_0_1_n_n 32 rfl rfl k
  have el : dot_S5000x32_S32x128_S5000x128_1_0_0_1_n_n.lhsIdx (ix2 p q) ((contrEquiv1 dot_S5000x32_S32x128_S5000x128_1_0_0_1_n_n 32 rfl rfl).symm k) = ix2 p k :=
    funext fun a => Fin.ext (by
      match a with
      | ⟨0, _⟩ => exact matmul32_lhs0 _ _
      | ⟨1, _⟩ => exact (matmul32_lhs1 _ _).trans hk)
  have er : dot_S5000x32_S32x128_S5000x128_1_0_0_1_n_n.rhsIdx (ix2 p q) ((contrEquiv1 dot_S5000x32_S32x128_S5000x128_1_0_0_1_n_n 32 rfl rfl).symm k) = ix2 k q :=
    funext fun a => Fin.ext (by
      match a with
      | ⟨0, _⟩ => exact (matmul32_rhs0 _ _).trans hk
      | ⟨1, _⟩ => exact matmul32_rhs1 _ _)
  rw [el, er]

/-- The first affine map at (p,q): row p of x + agg against column q of W, plus the bias at q. -/
theorem k0_pay1_apply (x a : Vec Ideal S5000x32 .f32) (w : Vec Ideal S32x128 .f32) (b : Vec Ideal S1x128 .f32)
    (p : Fin 5000) (q : Fin 128) :
    k0_pay1 (F := Ideal) x a w b (ix2 p q)
      = (∑ k : Fin 32, (x (ix2 p k) + a (ix2 p k)) * w (ix2 k q)) + b (ix2 0 q) := by
  unfold k0_pay1
  show (matmul _ none (truncf .bf16 (addf x (shapeCast S5000x32 a _)) _) (truncf .bf16 w _)
      (constant (F := Ideal) S5000x128 .f32 0x00000000#32) (ix2 p q))
    + (broadcastTo S5000x128 (shapeCast S1x128 b _) _ (ix2 p q)) = _
  rw [matmul32_apply, broadcastTo_1b_ab_apply, shapeCast_self, shapeCast_self]
  rfl

/-- The column sums of a [5000,128] block, kept as a [1,128] row: at column q, the sum over the 5000 rows. -/
theorem colSum_apply (src : FVec Ideal S5000x128 .f32) (u : Fin 1) (q : Fin 128) :
    shapeCast S1x128 (multiReduction (F := Ideal) .add [0] S128 src 0x00000000#32 reduces_S5000x128_S128 (.inl rfl) rfl)
      shapeCasts_S128_S1x128 (ix2 u q) = ∑ p : Fin 5000, src (ix2 p q) := by
  refine (shapeCast_a_1a_apply _ _ u q).trans ?_
  refine (Ideal.multiReduction_add_single src _ reduces_S5000x128_S128 (.inl rfl) rfl (ix1 q)).trans ?_
  refine Finset.sum_congr rfl fun p _ => congrArg src ?_
  funext c
  match c with
  | ⟨0, _⟩ => rfl
  | ⟨1, _⟩ => rfl

/-- A select on "the row number is 0", for a row number below 8, is the `if` on the row. -/
theorem select_row0 {α : Type} (r : Fin 8) (A B : α) :
    Scalar.select (IntOp.cmpi .eq (BitVec.ofNat 32 r.val) 0#32) A B = if r = 0 then A else B := by
  fin_cases r <;> rfl

/-- A row placed in row 0 of an 8-row block, zero in the other rows. -/
theorem k1_pay1_apply (v : FVec Ideal S1x128 .f32) (r : Fin 8) (q : Fin 128) :
    k1_pay1 (F := Ideal) v (ix2 r q) = if r = 0 then v (ix2 0 q) else 0 := by
  unfold k1_pay1
  show Scalar.select (IntOp.cmpi .eq (iota .tc S8x128 32 [0] iota_S8x128_d0_w32 (ix2 r q)) 0#32)
      (broadcastTo S8x128 (shapeCast S1x128 v _) _ (ix2 r q)) (Ideal.ofBits .f32 0x00000000#32) = _
  rw [iota_single_apply, broadcastTo_1b_ab_apply, shapeCast_self, Ideal.ofBits_zero_f32]
  exact select_row0 r _ _

/-- The same for the second partial-sum block. -/
theorem k1_pay2_apply (v : FVec Ideal S1x128 .f32) (r : Fin 8) (q : Fin 128) :
    k1_pay2 (F := Ideal) v (ix2 r q) = if r = 0 then v (ix2 0 q) else 0 :=
  k1_pay1_apply v r q

/-- The block of column sums of the first affine map: row 0 holds, at q, the sum over the block's rows; rows 1 to 7
    are zero. -/
theorem k0_pay2_apply (x a : Vec Ideal S5000x32 .f32) (w : Vec Ideal S32x128 .f32) (b : Vec Ideal S1x128 .f32)
    (r : Fin 8) (q : Fin 128) :
    k0_pay2 (F := Ideal) x a w b (ix2 r q)
      = if r = 0 then ∑ p : Fin 5000, k0_pay1 (F := Ideal) x a w b (ix2 p q) else 0 := by
  refine (k1_pay1_apply (shapeCast S1x128 (multiReduction (F := Ideal) .add [0] S128 (k0_pay1 (F := Ideal) x a w b)
    0x00000000#32 reduces_S5000x128_S128 (.inl rfl) rfl) shapeCasts_S128_S1x128) r q).trans ?_
  rw [colSum_apply]

/-- The block of column sums of squares of the first affine map. -/
theorem k0_pay3_apply (x a : Vec Ideal S5000x32 .f32) (w : Vec Ideal S32x128 .f32) (b : Vec Ideal S1x128 .f32)
    (r : Fin 8) (q : Fin 128) :
    k0_pay3 (F := Ideal) x a w b (ix2 r q)
      = if r = 0 then ∑ p : Fin 5000, k0_pay1 (F := Ideal) x a w b (ix2 p q) * k0_pay1 (F := Ideal) x a w b (ix2 p q)
        else 0 := by
  refine (k1_pay1_apply (shapeCast S1x128 (multiReduction (F := Ideal) .add [0] S128
    (mulf (k0_pay1 (F := Ideal) x a w b) (k0_pay1 (F := Ideal) x a w b))
    0x00000000#32 reduces_S5000x128_S128 (.inl rfl) rfl) shapeCasts_S128_S1x128) r q).trans ?_
  rw [colSum_apply]
  rfl

end Cert.Gin.Payload

end
-- ==== Proof.GinPayloads2.lean ====
/-
  The arithmetic of the second, third and fourth kernel bodies, read at one coordinate pair, over the extended reals.

  Each of them first normalises a [5000,128] block with given column statistics: at (p,q) the entry minus the mean at q,
  times the scale at q, times the reciprocal square root of the variance at q plus a small constant, plus the shift at q,
  clamped at zero. The second body multiplies the result by a [128,128] matrix and adds a bias; the third only sums its
  columns; the fourth normalises and clamps once more with a second set of column statistics.
-/
import proofs.«166857_j49581102465153_2_alg».proof.Proof.GinPayloads

noncomputable section

namespace Cert.Gin.Payload

open Idealize.ShloMosaic Idealize.ShloMosaic.ValueIdx Cert.KernelIdeal Cert.KernelIdeal.Gen

/-- The left operand's index at contraction coordinate k keeps the output row … -/
theorem matmul128_lhs0 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and takes the contraction coordinate as its column; -/
theorem matmul128_lhs1 (i : S5000x128.Idx) (c : dot_S5000x128_S128x128_S5000x128_1_0_0_1_n_n.contr.Idx) : (dot_S5000x128_S128x128_S5000x128_1_0_0_1_n_n.lhsIdx i c 1).val = (c ⟨0, by decide⟩).val :=
  dot_S5000x128_S128x128_S5000x128_1_0_0_1_n_n.lhsIdx_val_of_single rfl i c
/-- the right operand's index takes the contraction coordinate as its row … -/
theorem matmul128_rhs0 (i : S5000x128.Idx) (c : dot_S5000x128_S128x128_S5000x128_1_0_0_1_n_n.contr.Idx) : (dot_S5000x128_S128x128_S5000x128_1_0_0_1_n_n.rhsIdx i c 0).val = (c ⟨0, by decide⟩).val :=
  dot_S5000x128_S128x128_S5000x128_1_0_0_1_n_n.rhsIdx_val_of_single rfl i c
/-- … and keeps the output column. -/
theorem matmul128_rhs1 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] block times a [128,128] matrix into the zero accumulator, at (p,q): the sum over the 128 contracted
    coordinates of the products of row p's and column q's entries. -/
theorem matmul128_apply (L : FVec Ideal S5000x128 .bf16) (R : FVec Ideal S128x128 .bf16) (p : Fin 5000) (q : Fin 128) :
    matmul dot_S5000x128_S128x128_S5000x128_1_0_0_1_n_n none L R (constant (F := Ideal) S5000x128 .f32 0x00000000#32) (ix2 p q)
      = ∑ k : Fin 128, L (ix2 p k) * R (ix2 k q) := by
  refine (Ideal.matmul_constant_zero_apply dot_S5000x128_S128x128_S5000x128_1_0_0_1_n_n none L R (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact matmul128_lhs0 _ _
      | ⟨1, _⟩ => exact (matmul128_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (matmul128_rhs0 _ _).trans hk
      | ⟨1, _⟩ => exact matmul128_rhs1 _ _)
  rw [el, er]

/-- Normalise and clamp at (p,q), the column statistics given as rows. -/
theorem k2_pay2_apply (z : Vec Ideal S5000x128 .f32) (mn vr g be : Vec Ideal S1x128 .f32) (p : Fin 5000) (q : Fin 128) :
    k2_pay2 (F := Ideal) z mn vr g be (ix2 p q)
      = max (g (ix2 0 q) * (z (ix2 p q) - mn (ix2 0 q)) * Ideal.rsqrt (vr (ix2 0 q) + Ideal.ofBits .f32 0x3727C5AC#32)
          + be (ix2 0 q)) 0 := by
  unfold k2_pay2
  show max ((broadcastTo S5000x128 (shapeCast S1x128 g _) _ (ix2 p q)
        * (shapeCast S5000x128 z _ (ix2 p q) - broadcastTo S5000x128 (shapeCast S1x128 mn _) _ (ix2 p q)))
      * broadcastTo S5000x128 (rsqrt (addf (shapeCast S1x128 vr _) (broadcast S1x128 (Scalar.ofBits (F := Ideal) .f32 0x3727C5AC#32)))) _ (ix2 p q)
      + broadcastTo S5000x128 (shapeCast S1x128 be _) _ (ix2 p q)) (Ideal.ofBits .f32 0x00000000#32) = _
  rw [broadcastTo_1b_ab_apply, broadcastTo_1b_ab_apply, broadcastTo_1b_ab_apply, broadcastTo_1b_ab_apply,
    shapeCast_self, shapeCast_self, shapeCast_self, shapeCast_self, shapeCast_self, Ideal.ofBits_zero_f32]
  rfl

/-- The second affine map at (p,q): row p of the normalised and clamped block against column q of W, plus the bias at q. -/
theorem k1_pay3_apply (z : Vec Ideal S5000x128 .f32) (mn vr g be : Vec Ideal S1x128 .f32) (w : Vec Ideal S128x128 .f32)
    (b : Vec Ideal S1x128 .f32) (p : Fin 5000) (q : Fin 128) :
    k1_pay3 (F := Ideal) z mn vr g be w b (ix2 p q)
      = (∑ k : Fin 128, max (g (ix2 0 k) * (z (ix2 p k) - mn (ix2 0 k)) * Ideal.rsqrt (vr (ix2 0 k) + Ideal.ofBits .f32 0x3727C5AC#32)
          + be (ix2 0 k)) 0 * w (ix2 k q)) + b (ix2 0 q) := by
  unfold k1_pay3
  show (matmul _ none (truncf .bf16 (k2_pay2 (F := Ideal) z mn vr g be) _) (truncf .bf16 w _)
      (constant (F := Ideal) S5000x128 .f32 0x00000000#32) (ix2 p q))
    + (broadcastTo S5000x128 (shapeCast S1x128 b _) _ (ix2 p q)) = _
  rw [matmul128_apply, broadcastTo_1b_ab_apply, shapeCast_self]
  refine congrArg (· + b (ix2 0 q)) (Finset.sum_congr rfl fun k _ => ?_)
  exact congrArg (· * w (ix2 k q)) (k2_pay2_apply z mn vr g be p k)

/-- The block of column sums of the second affine map: row 0 holds, at q, the sum over the block's rows; rows 1 to 7
    are zero. -/
theorem k1_pay1_pay4_apply (z : Vec Ideal S5000x128 .f32) (mn vr g be : Vec Ideal S1x128 .f32) (w : Vec Ideal S128x128 .f32)
    (b : Vec Ideal S1x128 .f32) (r : Fin 8) (q : Fin 128) :
    k1_pay1 (F := Ideal) (k1_pay4 (F := Ideal) z mn vr g be w b) (ix2 r q)
      = if r = 0 then ∑ p : Fin 5000, k1_pay3 (F := Ideal) z mn vr g be w b (ix2 p q) else 0 := by
  refine (k1_pay1_apply _ r q).trans ?_
  unfold k1_pay4
  rw [colSum_apply]

/-- The block of column sums of squares of the second affine map. -/
theorem k1_pay2_pay5_apply (z : Vec Ideal S5000x128 .f32) (mn vr g be : Vec Ideal S1x128 .f32) (w : Vec Ideal S128x128 .f32)
    (b : Vec Ideal S1x128 .f32) (r : Fin 8) (q : Fin 128) :
    k1_pay2 (F := Ideal) (k1_pay5 (F := Ideal) z mn vr g be w b) (ix2 r q)
      = if r = 0 then ∑ p : Fin 5000, k1_pay3 (F := Ideal) z mn vr g be w b (ix2 p q) * k1_pay3 (F := Ideal) z mn vr g be w b (ix2 p q)
        else 0 := by
  refine (k1_pay2_apply _ r q).trans ?_
  unfold k1_pay5
  rw [colSum_apply]
  rfl

/-- The block of column sums of the normalised and clamped block. -/
theorem k2_pay4_apply (z : Vec Ideal S5000x128 .f32) (mn vr g be : Vec Ideal S1x128 .f32) (r : Fin 8) (q : Fin 128) :
    k2_pay4 (F := Ideal) z mn vr g be (ix2 r q)
      = if r = 0 then ∑ p : Fin 5000, k2_pay2 (F := Ideal) z mn vr g be (ix2 p q) else 0 := by
  refine (k1_pay1_apply (shapeCast S1x128 (multiReduction (F := Ideal) .add [0] S128 (k2_pay2 (F := Ideal) z mn vr g be)
    0x00000000#32 reduces_S5000x128_S128 (.inl rfl) rfl) shapeCasts_S128_S1x128) r q).trans ?_
  rw [colSum_apply]

/-- The block of column sums of squares of the normalised and clamped block. -/
theorem k2_pay1_pay3_apply (z : Vec Ideal S5000x128 .f32) (mn vr g be : Vec Ideal S1x128 .f32) (r : Fin 8) (q : Fin 128) :
    k2_pay1 (F := Ideal) (k2_pay3 (F := Ideal) z mn vr g be) (iota .tc S8x128 32 [0] iota_S8x128_d0_w32) (k2_pay5 (F := Ideal)) 0#32
        (ix2 r q)
      = if r = 0 then ∑ p : Fin 5000, k2_pay2 (F := Ideal) z mn vr g be (ix2 p q) * k2_pay2 (F := Ideal) z mn vr g be (ix2 p q)
        else 0 := by
  refine (k1_pay1_apply (k2_pay3 (F := Ideal) z mn vr g be) r q).trans ?_
  unfold k2_pay3
  rw [colSum_apply]
  rfl

/-- The fourth body's first stage at (p,q): the scale of the second normalisation times the normalised and clamped
    entry minus the second mean. -/
theorem k3_pay4_apply (z : Vec Ideal S5000x128 .f32) (mn2 vr2 g2 be2 mn3 g3 : Vec Ideal S1x128 .f32) (p : Fin 5000) (q : Fin 128) :
    k3_pay4 (F := Ideal) z mn2 vr2 g2 be2 mn3 g3 (ix2 p q)
      = g3 (ix2 0 q) * (k2_pay2 (F := Ideal) z mn2 vr2 g2 be2 (ix2 p q) - mn3 (ix2 0 q)) := by
  unfold k3_pay4
  show broadcastTo S5000x128 (shapeCast S1x128 g3 _) _ (ix2 p q)
      * (k2_pay2 (F := Ideal) z mn2 vr2 g2 be2 (ix2 p q) - broadcastTo S5000x128 (shapeCast S1x128 mn3 _) _ (ix2 p q)) = _
  rw [broadcastTo_1b_ab_apply, broadcastTo_1b_ab_apply, shapeCast_self, shapeCast_self]

/-- The fourth body's stored value at (p,q): the block normalised and clamped with the first column statistics, then
    normalised and clamped again with the second. -/
theorem k3_pay1_apply (z : Vec Ideal S5000x128 .f32) (mn2 vr2 g2 be2 mn3 g3 vr3 be3 : Vec Ideal S1x128 .f32)
    (p : Fin 5000) (q : Fin 128) :
    k3_pay1 (F := Ideal) (k3_pay2 (F := Ideal) be3) (k3_pay3 (F := Ideal) vr3) (k3_pay4 (F := Ideal) z mn2 vr2 g2 be2 mn3 g3) (ix2 p q)
      = max (g3 (ix2 0 q)
            * (max (g2 (ix2 0 q) * (z (ix2 p q) - mn2 (ix2 0 q)) * Ideal.rsqrt (vr2 (ix2 0 q) + Ideal.ofBits .f32 0x3727C5AC#32)
                + be2 (ix2 0 q)) 0 - mn3 (ix2 0 q))
            * Ideal.rsqrt (vr3 (ix2 0 q) + Ideal.ofBits .f32 0x3727C5AC#32) + be3 (ix2 0 q)) 0 := by
  unfold k3_pay1 k3_pay2 k3_pay3
  show max (k3_pay4 (F := Ideal) z mn2 vr2 g2 be2 mn3 g3 (ix2 p q)
        * broadcastTo S5000x128 (rsqrt (addf (shapeCast S1x128 vr3 _) (broadcast S1x128 (Scalar.ofBits (F := Ideal) .f32 0x3727C5AC#32)))) _ (ix2 p q)
      + broadcastTo S5000x128 (shapeCast S1x128 be3 _) _ (ix2 p q)) (Ideal.ofBits .f32 0x00000000#32) = _
  rw [broadcastTo_1b_ab_apply, broadcastTo_1b_ab_apply, shapeCast_self, shapeCast_self, Ideal.ofBits_zero_f32,
    k3_pay4_apply, k2_pay2_apply]
  rfl

end Cert.Gin.Payload

end
-- ==== Proof.GinBlocksAB.lean ====
/-
  From blocks to arrays, for the first two kernel regions, over the extended reals.

  Each region runs its body once per tile of 5000 rows (20 tiles). A row-tiled array's block at tile t is its rows
  5000 t … 5000 t + 4999; a statistics row, a weight matrix or a bias row is whole at every tile; a partial-sum array of
  160 rows is written in groups of 8 rows, group t by tile t. What a tile writes back is therefore the restriction to
  the tile's rows of ONE function of the whole input arrays, and the tiles' row ranges cover every row, so after the
  region each output array is that function:

  * the first region leaves the affine layer of the sum of the feature matrix and the neighbourhood sums, and the
    per-tile column sums of that layer and of its squares;
  * the second region leaves the affine layer of the normalised, clamped first layer, and the per-tile column sums of
    that second layer and of its squares.
-/
import proofs.«166857_j49581102465153_2_alg».proof.Proof.Gen.KernelIdeal.Frame
import proofs.«166857_j49581102465153_2_alg».proof.Proof.GinArrays
import proofs.«166857_j49581102465153_2_alg».proof.Proof.GinPayloads2
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.Gin.Blocks

open Cert.KernelIdeal Cert.KernelIdeal.Gen

variable (V : (c : Dev nD) → (b : Ref sig .tc) → Buf (Elt Ideal) ((c : Thread nD τ).loc b))

/-! # Shared facts -/

/-- The zero offset of a rank-2 rectangle, as a constant function. -/
private theorem hz : (![0, 0] : Fin 2 → Nat) = fun _ => 0 := funext fun a => by fin_cases a <;> rfl

/-! # The first region -/

/-- The printed index maps of the first region, decided over its 20 grid points: the row-tiled windows sit at block
    row `t`, block column 0; the weight matrix and the bias row are block (0, 0) at every point. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Block `t` of the feature matrix is its rows `5000 t … 5000 t + 4999`. -/
theorem iblk0_0_apply (c : Dev nD) (t : Fin cfg0.N) (y : S5000x32.Idx) (i : S100000x32.Idx)
    (h0 : (i 0).val = 5000 * t.val + (y 0).val) (h1 : (i 1).val = (y 1).val) :
    (iblk0 V c 0 t : Vec Ideal S5000x32 .f32) y = (V c main_arg0 : S100000x32.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 32 + 1 * (y 1).val = (i 1).val; rw [e1, h1]; omega

/-- Block `t` of the neighbourhood sums is its rows `5000 t … 5000 t + 4999`. -/
theorem iblk0_1_apply (c : Dev nD) (t : Fin cfg0.N) (y : S5000x32.Idx) (i : S100000x32.Idx)
    (h0 : (i 0).val = 5000 * t.val + (y 0).val) (h1 : (i 1).val = (y 1).val) :
    (iblk0 V c 1 t : Vec Ideal S5000x32 .f32) y = (V c main_v9 : S100000x32.Idx → EReal) i := by
  obtain ⟨-, -, e0, e1, -⟩ := idx_facts0 t
  unfold iblk0
  rw [View.read_apply]
  show V c main_v9 _ = V c main_v9 _
  congr 1
  funext a
  apply Fin.ext
  match a with
  | ⟨0, _⟩ => show win0_1.index t (0 : Fin 2) * 5000 + 1 * (y 0).val = (i 0).val; rw [e0, h0]; omega
  | ⟨1, _⟩ => show win0_1.index t (1 : Fin 2) * 32 + 1 * (y 1).val = (i 1).val; rw [e1, h1]; omega

/-- The weight matrix's block is the whole matrix at every point. -/
theorem iblk0_2_apply (c : Dev nD) (t : Fin cfg0.N) (y : S32x128.Idx) :
    (iblk0 V c 2 t : Vec Ideal S32x128 .f32) y = (V c main_arg3 : S32x128.Idx → EReal) y := by
  obtain ⟨-, -, -, -, e0, e1, -⟩ := idx_facts0 t
  unfold iblk0
  rw [View.read_apply]
  show V c main_arg3 _ = V c main_arg3 _
  congr 1
  funext a
  apply Fin.ext
  match a with
  | ⟨0, _⟩ => show win0_2.index t (0 : Fin 2) * 32 + 1 * (y 0).val = (y 0).val; rw [e0]; omega
  | ⟨1, _⟩ => show win0_2.index t (1 : Fin 2) * 128 + 1 * (y 1).val = (y 1).val; rw [e1]; omega

/-- The bias row's block is the whole row at every point. -/
theorem iblk0_3_apply (c : Dev nD) (t : Fin cfg0.N) (y : S1x128.Idx) :
    (iblk0 V c 3 t : Vec Ideal S1x128 .f32) y = (V c main_v10 : S1x128.Idx → EReal) y := by
  obtain ⟨-, -, -, -, -, -, e0, e1, -⟩ := idx_facts0 t
  unfold iblk0
  rw [View.read_apply]
  show V c main_v10 _ = V c main_v10 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The affine layer of a sum of two matrices, at an entry given by its coordinates. -/
private theorem affine_addMat_at (x a : Cert.Gin.Mat 100000 32) (w : Cert.Gin.Mat 32 128) (b : Cert.Gin.Mat 1 128) (i : Fin 100000) (q : Fin 128) :
    Cert.Gin.affine (Cert.Gin.addMat x a) w b (ix2 i q) = (∑ k : Fin 32, (x (ix2 i k) + a (ix2 i k)) * w (ix2 k q)) + b (ix2 0 q) := rfl

/-- THE AFFINE TILE: entry `(p, q)` of what the first region computes at point `t` is entry `(5000 t + p, q)` of the
    affine layer of the whole arrays. -/
theorem tile0 (c : Dev nD) (t : Fin cfg0.N) (p : Fin 5000) (q : Fin 128) (i : Fin 100000) (hi : i.val = 5000 * t.val + p.val) :
    k0_pay1 (iblk0 V c 0 t) (iblk0 V c 1 t) (iblk0 V c 2 t) (iblk0 V c 3 t) (ix2 p q)
      = Cert.Gin.affine (Cert.Gin.addMat (V c main_arg0) (V c main_v9)) (V c main_arg3) (V c main_v10) (ix2 i q) := by
  refine (Cert.Gin.Payload.k0_pay1_apply (iblk0 V c 0 t) (iblk0 V c 1 t) (iblk0 V c 2 t) (iblk0 V c 3 t) p q).trans ?_
  refine Eq.trans ?_ (affine_addMat_at (V c main_arg0) (V c main_v9) (V c main_arg3) (V c main_v10) i q).symm
  refine congrArg₂ (· + ·) (Finset.sum_congr rfl fun k _ => ?_) (iblk0_3_apply V c t (ix2 0 q))
  exact congrArg₂ (· * ·) (congrArg₂ (· + ·) (iblk0_0_apply V c t (ix2 p k) (ix2 i k) hi rfl) (iblk0_1_apply V c t (ix2 p k) (ix2 i k) hi rfl))
    (iblk0_2_apply V c t (ix2 k q))

/-- WHAT POINT `t` WRITES BACK into the affine layer's array is block `t` of the affine layer of the whole arrays. -/
theorem flushed0_4 (c : Dev nD) (t : Fin cfg0.N) :
    (dat0 V c).flushed 4 t = ((cfg0.win 4).blk t).view.read (Elt Ideal)
      (Cert.Gin.affine (Cert.Gin.addMat (V c main_arg0) (V c main_v9)) (V c main_arg3) (V c main_v10)) := by
  show (cfg0.win 4).cut (grid0.coords t) ((dat0 V c).after 4 t) = _
  rw [after0_4]
  unfold out0_4
  rw [View.canon_unit_zero hz]
  simp only [View.ld_unit_zero (S := S5000x32) hz, View.ld_unit_zero (S := S32x128) hz, View.ld_unit_zero (S := S1x128) hz]
  obtain ⟨-, -, -, -, -, -, -, -, e0, e1, -⟩ := idx_facts0 t
  funext j
  obtain ⟨p, q, rfl⟩ : ∃ (p : Fin 5000) (q : Fin 128), j = ix2 p q := ⟨j 0, j 1, eq_ix2 j⟩
  have hN : cfg0.N = 20 := N_0
  have ht : t.val < 20 := hN ▸ t.isLt
  refine (tile0 V c t p q ⟨5000 * t.val + p.val, by have := p.isLt; omega⟩ rfl).trans ?_
  show _ = Cert.Gin.affine _ _ _ (((cfg0.win 4).blk t).view.emb (ix2 p q))
  congr 1
  funext a
  apply Fin.ext
  match a with
  | ⟨0, _⟩ => show 5000 * t.val + p.val = win0_4.index t (0 : Fin 2) * 5000 + 1 * p.val; rw [e0]; omega
  | ⟨1, _⟩ => show q.val = win0_4.index t (1 : Fin 2) * 128 + 1 * q.val; rw [e1]; omega

/-- An index of the affine layer's array is in point `t`'s block iff each coordinate is in the block's range. -/
theorem mem_blk0_4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v11_0).slice (win0_4.rect t)).set ↔ _
  rw [View.set_slice_whole, Rect.mem_set_unit]
  exact Iff.rfl

/-- Row `r` is in the block of point `r / 5000`. -/
theorem covered0_4 (i : S100000x128.Idx) : ∃ t : Fin cfg0.N, (cfg0.win 4).flush t = true ∧ i ∈ ((cfg0.win 4).blk t).view.set := by
  have hi0 : (i 0).val < 100000 := idx2_lt0 i
  have hi1 : (i 1).val < 128 := idx2_lt1 i
  have hN : cfg0.N = 20 := N_0
  have ht : (i 0).val / 5000 < cfg0.N := by rw [hN]; omega
  obtain ⟨-, -, -, -, -, -, -, -, e0, e1, -⟩ := idx_facts0 ⟨(i 0).val / 5000, ht⟩
  refine ⟨⟨(i 0).val / 5000, ht⟩, flush0_4 _, ?_⟩
  rw [mem_blk0_4]
  intro a
  match a with
  | ⟨0, _⟩ => show win0_4.index ⟨(i 0).val / 5000, ht⟩ (0 : Fin 2) * 5000 ≤ (i 0).val ∧ (i 0).val < win0_4.index ⟨(i 0).val / 5000, ht⟩ (0 : Fin 2) * 5000 + 5000; rw [e0]; show (i 0).val / 5000 * 5000 ≤ (i 0).val ∧ (i 0).val < (i 0).val / 5000 * 5000 + 5000; omega
  | ⟨1, _⟩ => show win0_4.index ⟨(i 0).val / 5000, ht⟩ (1 : Fin 2) * 128 ≤ (i 1).val ∧ (i 1).val < win0_4.index ⟨(i 0).val / 5000, ht⟩ (1 : Fin 2) * 128 + 128; rw [e1]; omega

/-- THE AFFINE LAYER'S ARRAY after the first region: the affine layer of the whole input arrays. -/
theorem final0_4 (c : Dev nD) : (dat0 V c).arrAt 4 cfg0.N
    = Cert.Gin.affine (Cert.Gin.addMat (V c main_arg0) (V c main_v9)) (V c main_arg3) (V c main_v10) :=
  (dat0 V c).arrAt_eq_of_cover 4 _ (fun t _ => flushed0_4 V c t) covered0_4

/-- The per-tile column sums at row `8 t + r` of the 160-row array: the sum over tile `t`'s 5000 rows when `r = 0`,
    zero on the other seven rows of the group. -/
private theorem tileSums_at (f : Cert.Gin.Mat 100000 128) (i : Fin 160) (q : Fin 128) (t : Nat) (ht : t < 20) (r : Fin 8)
    (hi : i.val = 8 * t + r.val) :
    Cert.Gin.tileSums f (ix2 i q)
      = if r = 0 then ∑ p : Fin 5000, f (ix2 (⟨5000 * t + p.val, by have := p.isLt; omega⟩ : Fin 100000) q) else 0 := by
  have hr : r.val < 8 := r.isLt
  have h8 : i.val / 8 = t := by omega
  show (if i.val % 8 = 0 then ∑ p : Fin 5000, f (ix2 (⟨5000 * (i.val / 8) + p.val, _⟩ : Fin 100000) q) else 0) = _
  by_cases h : r = 0
  · have hm : i.val % 8 = 0 := by have : r.val = 0 := congrArg Fin.val h; omega
    rw [if_pos hm, if_pos h]
    exact Finset.sum_congr rfl fun p _ => congrArg (fun i' : Fin 100000 => f (ix2 i' q)) (Fin.ext (by show 5000 * (i.val / 8) + p.val = 5000 * t + p.val; rw [h8]))
  · have hm : ¬ i.val % 8 = 0 := by have : r.val ≠ 0 := fun e => h (Fin.ext e); omega
    rw [if_neg hm, if_neg h]

/-- Entry `(r, q)` of point `t`'s block of a 160-row array is entry `(8 t + r, q)` of the array. -/
theorem emb0_5 (t : Fin cfg0.N) (r : Fin 8) (q : Fin 128) (i : Fin 160) (hi : i.val = 8 * t.val + r.val) :
    ((cfg0.win 5).blk t).view.emb (ix2 r q) = ix2 i q := by
  obtain ⟨-, -, -, -, -, -, -, -, -, -, e0, e1, -⟩ := idx_facts0 t
  funext a
  apply Fin.ext
  match a with
  | ⟨0, _⟩ => show win0_5.index t (0 : Fin 2) * 8 + 1 * r.val = i.val; rw [e0, hi]; omega
  | ⟨1, _⟩ => show win0_5.index t (1 : Fin 2) * 128 + 1 * q.val = q.val; rw [e1]; omega

/-- The same for the sum-of-squares array's blocks. -/
theorem emb0_6 (t : Fin cfg0.N) (r : Fin 8) (q : Fin 128) (i : Fin 160) (hi : i.val = 8 * t.val + r.val) :
    ((cfg0.win 6).blk t).view.emb (ix2 r q) = ix2 i q := by
  obtain ⟨-, -, -, -, -, -, -, -, -, -, -, -, e0, e1⟩ := idx_facts0 t
  funext a
  apply Fin.ext
  match a with
  | ⟨0, _⟩ => show win0_6.index t (0 : Fin 2) * 8 + 1 * r.val = i.val; rw [e0, hi]; omega
  | ⟨1, _⟩ => show win0_6.index t (1 : Fin 2) * 128 + 1 * q.val = q.val; rw [e1]; omega

/-- WHAT POINT `t` WRITES BACK into the column-sum array is block `t` of the per-tile column sums of the affine layer. -/
theorem flushed0_5 (c : Dev nD) (t : Fin cfg0.N) :
    (dat0 V c).flushed 5 t = ((cfg0.win 5).blk t).view.read (Elt Ideal)
      (Cert.Gin.tileSums (Cert.Gin.affine (Cert.Gin.addMat (V c main_arg0) (V c main_v9)) (V c main_arg3) (V c main_v10))) := by
  show (cfg0.win 5).cut (grid0.coords t) ((dat0 V c).after 5 t) = _
  rw [after0_5]
  unfold out0_5
  rw [View.canon_unit_zero hz]
  simp only [View.ld_unit_zero (S := S5000x32) hz, View.ld_unit_zero (S := S32x128) hz, View.ld_unit_zero (S := S1x128) hz]
  funext j
  obtain ⟨r, q, rfl⟩ : ∃ (r : Fin 8) (q : Fin 128), j = ix2 r q := ⟨j 0, j 1, eq_ix2 j⟩
  have hN : cfg0.N = 20 := N_0
  have ht : t.val < 20 := hN ▸ t.isLt
  have hr : r.val < 8 := r.isLt
  refine (Cert.Gin.Payload.k0_pay2_apply (iblk0 V c 0 t) (iblk0 V c 1 t) (iblk0 V c 2 t) (iblk0 V c 3 t) r q).trans ?_
  show _ = Cert.Gin.tileSums _ (((cfg0.win 5).blk t).view.emb (ix2 r q))
  rw [emb0_5 t r q ⟨8 * t.val + r.val, by omega⟩ rfl, tileSums_at _ _ q t.val ht r rfl]
  by_cases h : r = 0
  · rw [if_pos h, if_pos h]
    exact Finset.sum_congr rfl fun p _ => tile0 V c t p q _ rfl
  · rw [if_neg h, if_neg h]

/-- The same for the column sums of squares. -/
theorem flushed0_6 (c : Dev nD) (t : Fin cfg0.N) :
    (dat0 V c).flushed 6 t = ((cfg0.win 6).blk t).view.read (Elt Ideal)
      (Cert.Gin.tileSums (Cert.Gin.sqMat (Cert.Gin.affine (Cert.Gin.addMat (V c main_arg0) (V c main_v9)) (V c main_arg3) (V c main_v10)))) := by
  show (cfg0.win 6).cut (grid0.coords t) ((dat0 V c).after 6 t) = _
  rw [after0_6]
  unfold out0_6
  rw [View.canon_unit_zero hz]
  simp only [View.ld_unit_zero (S := S5000x32) hz, View.ld_unit_zero (S := S32x128) hz, View.ld_unit_zero (S := S1x128) hz]
  funext j
  obtain ⟨r, q, rfl⟩ : ∃ (r : Fin 8) (q : Fin 128), j = ix2 r q := ⟨j 0, j 1, eq_ix2 j⟩
  have hN : cfg0.N = 20 := N_0
  have ht : t.val < 20 := hN ▸ t.isLt
  have hr : r.val < 8 := r.isLt
  refine (Cert.Gin.Payload.k0_pay3_apply (iblk0 V c 0 t) (iblk0 V c 1 t) (iblk0 V c 2 t) (iblk0 V c 3 t) r q).trans ?_
  show _ = Cert.Gin.tileSums _ (((cfg0.win 6).blk t).view.emb (ix2 r q))
  rw [emb0_6 t r q ⟨8 * t.val + r.val, by omega⟩ rfl, tileSums_at _ _ q t.val ht r rfl]
  by_cases h : r = 0
  · rw [if_pos h, if_pos h]
    exact Finset.sum_congr rfl fun p _ => congrArg₂ (· * ·) (tile0 V c t p q _ rfl) (tile0 V c t p q _ rfl)
  · rw [if_neg h, if_neg h]

/-- An index of the column-sum array is in point `t`'s block iff each coordinate is in the block's range. -/
theorem mem_blk0_5 (t : Fin cfg0.N) (i : S160x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v11_1).slice (win0_5.rect t)).set ↔ _
  rw [View.set_slice_whole, Rect.mem_set_unit]
  exact Iff.rfl

/-- The same for the sum-of-squares array. -/
theorem mem_blk0_6 (t : Fin cfg0.N) (i : S160x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v11_2).slice (win0_6.rect t)).set ↔ _
  rw [View.set_slice_whole, Rect.mem_set_unit]
  exact Iff.rfl

/-- Row `r` of a 160-row array is in the block of point `r / 8`. -/
theorem covered0_5 (i : S160x128.Idx) : ∃ t : Fin cfg0.N, (cfg0.win 5).flush t = true ∧ i ∈ ((cfg0.win 5).blk t).view.set := by
  have hi0 : (i 0).val < 160 := idx2_lt0 i
  have hi1 : (i 1).val < 128 := idx2_lt1 i
  have hN : cfg0.N = 20 := N_0
  have ht : (i 0).val / 8 < cfg0.N := by rw [hN]; omega
  obtain ⟨-, -, -, -, -, -, -, -, -, -, e0, e1, -⟩ := idx_facts0 ⟨(i 0).val / 8, ht⟩
  refine ⟨⟨(i 0).val / 8, ht⟩, flush0_5 _, ?_⟩
  rw [mem_blk0_5]
  intro a
  match a with
  | ⟨0, _⟩ => show win0_5.index ⟨(i 0).val / 8, ht⟩ (0 : Fin 2) * 8 ≤ (i 0).val ∧ (i 0).val < win0_5.index ⟨(i 0).val / 8, ht⟩ (0 : Fin 2) * 8 + 8; rw [e0]; show (i 0).val / 8 * 8 ≤ (i 0).val ∧ (i 0).val < (i 0).val / 8 * 8 + 8; omega
  | ⟨1, _⟩ => show win0_5.index ⟨(i 0).val / 8, ht⟩ (1 : Fin 2) * 128 ≤ (i 1).val ∧ (i 1).val < win0_5.index ⟨(i 0).val / 8, ht⟩ (1 : Fin 2) * 128 + 128; rw [e1]; omega

/-- The same for the sum-of-squares array. -/
theorem covered0_6 (i : S160x128.Idx) : ∃ t : Fin cfg0.N, (cfg0.win 6).flush t = true ∧ i ∈ ((cfg0.win 6).blk t).view.set := by
  have hi0 : (i 0).val < 160 := idx2_lt0 i
  have hi1 : (i 1).val < 128 := idx2_lt1 i
  have hN : cfg0.N = 20 := N_0
  have ht : (i 0).val / 8 < cfg0.N := by rw [hN]; omega
  obtain ⟨-, -, -, -, -, -, -, -, -, -, -, -, e0, e1⟩ := idx_facts0 ⟨(i 0).val / 8, ht⟩
  refine ⟨⟨(i 0).val / 8, ht⟩, flush0_6 _, ?_⟩
  rw [mem_blk0_6]
  intro a
  match a with
  | ⟨0, _⟩ => show win0_6.index ⟨(i 0).val / 8, ht⟩ (0 : Fin 2) * 8 ≤ (i 0).val ∧ (i 0).val < win0_6.index ⟨(i 0).val / 8, ht⟩ (0 : Fin 2) * 8 + 8; rw [e0]; show (i 0).val / 8 * 8 ≤ (i 0).val ∧ (i 0).val < (i 0).val / 8 * 8 + 8; omega
  | ⟨1, _⟩ => show win0_6.index ⟨(i 0).val / 8, ht⟩ (1 : Fin 2) * 128 ≤ (i 1).val ∧ (i 1).val < win0_6.index ⟨(i 0).val / 8, ht⟩ (1 : Fin 2) * 128 + 128; rw [e1]; omega

/-- THE COLUMN-SUM ARRAY after the first region: the per-tile column sums of the affine layer. -/
theorem final0_5 (c : Dev nD) : (dat0 V c).arrAt 5 cfg0.N
    = Cert.Gin.tileSums (Cert.Gin.affine (Cert.Gin.addMat (V c main_arg0) (V c main_v9)) (V c main_arg3) (V c main_v10)) :=
  (dat0 V c).arrAt_eq_of_cover 5 _ (fun t _ => flushed0_5 V c t) covered0_5

/-- THE SUM-OF-SQUARES ARRAY after the first region: the per-tile column sums of the affine layer's squares. -/
theorem final0_6 (c : Dev nD) : (dat0 V c).arrAt 6 cfg0.N
    = Cert.Gin.tileSums (Cert.Gin.sqMat (Cert.Gin.affine (Cert.Gin.addMat (V c main_arg0) (V c main_v9)) (V c main_arg3) (V c main_v10))) :=
  (dat0 V c).arrAt_eq_of_cover 6 _ (fun t _ => flushed0_6 V c t) covered0_6

/-! # The second region -/

/-- The printed index maps of the second region, decided over its 20 grid points: the row-tiled windows sit at block
    row `t`, block column 0; the statistics rows, the scale and shift rows, the weight matrix and the bias row are block
    (0, 0) at every point. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- Block `t` of the first affine layer is its rows `5000 t … 5000 t + 4999`. -/
theorem iblk1_0_apply (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_v11_0 : S100000x128.Idx → EReal) i := by
  obtain ⟨e0, e1, -⟩ := idx_facts1 t
  unfold iblk1
  rw [View.read_apply]
  show V c main_v11_0 _ = V c main_v11_0 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The row of column means is whole at every point. -/
theorem iblk1_1_apply (c : Dev nD) (t : Fin cfg1.N) (y : S1x128.Idx) :
    (iblk1 V c 1 t : Vec Ideal S1x128 .f32) y = (V c main_v22 : S1x128.Idx → EReal) y := by
  obtain ⟨-, -, e0, e1, -⟩ := idx_facts1 t
  unfold iblk1
  rw [View.read_apply]
  show V c main_v22 _ = V c main_v22 _
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- The row of column variances is whole at every point. -/
theorem iblk1_2_apply (c : Dev nD) (t : Fin cfg1.N) (y : S1x128.Idx) :
    (iblk1 V c 2 t : Vec Ideal S1x128 .f32) y = (V c main_v23 : S1x128.Idx → EReal) y := by
  obtain ⟨-, -, -, -, e0, e1, -⟩ := idx_facts1 t
  unfold iblk1
  rw [View.read_apply]
  show V c main_v23 _ = V c main_v23 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The scale row is whole at every point. -/
theorem iblk1_3_apply (c : Dev nD) (t : Fin cfg1.N) (y : S1x128.Idx) :
    (iblk1 V c 3 t : Vec Ideal S1x128 .f32) y = (V c main_v24 : S1x128.Idx → EReal) y := by
  obtain ⟨-, -, -, -, -, -, e0, e1, -⟩ := idx_facts1 t
  unfold iblk1
  rw [View.read_apply]
  show V c main_v24 _ = V c main_v24 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The shift row is whole at every point. -/
theorem iblk1_4_apply (c : Dev nD) (t : Fin cfg1.N) (y : S1x128.Idx) :
    (iblk1 V c 4 t : Vec Ideal S1x128 .f32) y = (V c main_v25 : S1x128.Idx → EReal) y := by
  obtain ⟨-, -, -, -, -, -, -, -, e0, e1, -⟩ := idx_facts1 t
  unfold iblk1
  rw [View.read_apply]
  show V c main_v25 _ = V c main_v25 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The second weight matrix is whole at every point. -/
theorem iblk1_5_apply (c : Dev nD) (t : Fin cfg1.N) (y : S128x128.Idx) :
    (iblk1 V c 5 t : Vec Ideal S128x128 .f32) y = (V c main_arg7 : S128x128.Idx → EReal) y := by
  obtain ⟨-, -, -, -, -, -, -, -, -, -, e0, e1, -⟩ := idx_facts1 t
  unfold iblk1
  rw [View.read_apply]
  show V c main_arg7 _ = V c main_arg7 _
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- The second bias row is whole at every point. -/
theorem iblk1_6_apply (c : Dev nD) (t : Fin cfg1.N) (y : S1x128.Idx) :
    (iblk1 V c 6 t : Vec Ideal S1x128 .f32) y = (V c main_v26 : S1x128.Idx → EReal) y := by
  obtain ⟨-, -, -, -, -, -, -, -, -, -, -, -, e0, e1, -⟩ := idx_facts1 t
  unfold iblk1
  rw [View.read_apply]
  show V c main_v26 _ = V c main_v26 _
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- The affine layer of a normalised and clamped matrix, at an entry given by its coordinates. -/
private theorem affine_normClamp_at (z : Cert.Gin.Mat 100000 128) (mn vr g be : Cert.Gin.Mat 1 128) (w : Cert.Gin.Mat 128 128) (b : Cert.Gin.Mat 1 128) (i : Fin 100000) (q : Fin 128) :
    Cert.Gin.affine (Cert.Gin.normClamp z mn vr g be) w b (ix2 i q)
      = (∑ k : Fin 128, max (g (ix2 0 k) * (z (ix2 i k) - mn (ix2 0 k)) * Ideal.rsqrt (vr (ix2 0 k) + Ideal.ofBits .f32 0x3727C5AC#32) + be (ix2 0 k)) 0 * w (ix2 k q)) + b (ix2 0 q) := rfl

/-- THE SECOND AFFINE TILE: entry `(p, q)` of what the second region computes at point `t` is entry `(5000 t + p, q)` of the
    affine layer of the normalised, clamped first layer. -/
theorem tile1 (c : Dev nD) (t : Fin cfg1.N) (p : Fin 5000) (q : Fin 128) (i : Fin 100000) (hi : i.val = 5000 * t.val + p.val) :
    k1_pay3 (iblk1 V c 0 t) (iblk1 V c 1 t) (iblk1 V c 2 t) (iblk1 V c 3 t) (iblk1 V c 4 t) (iblk1 V c 5 t) (iblk1 V c 6 t) (ix2 p q) = (Cert.Gin.affine (Cert.Gin.normClamp (V c main_v11_0) (V c main_v22) (V c main_v23) (V c main_v24) (V c main_v25)) (V c main_arg7) (V c main_v26)) (ix2 i q) := by
  refine (Cert.Gin.Payload.k1_pay3_apply (iblk1 V c 0 t) (iblk1 V c 1 t) (iblk1 V c 2 t) (iblk1 V c 3 t) (iblk1 V c 4 t) (iblk1 V c 5 t) (iblk1 V c 6 t) p q).trans ?_
  refine Eq.trans ?_ (affine_normClamp_at (V c main_v11_0) (V c main_v22) (V c main_v23) (V c main_v24) (V c main_v25) (V c main_arg7) (V c main_v26) i q).symm
  refine congrArg₂ (· + ·) (Finset.sum_congr rfl fun k _ => ?_) (iblk1_6_apply V c t (ix2 0 q))
  rw [iblk1_0_apply V c t (ix2 p k) (ix2 i k) hi rfl, iblk1_1_apply V c t (ix2 0 k), iblk1_2_apply V c t (ix2 0 k),
    iblk1_3_apply V c t (ix2 0 k), iblk1_4_apply V c t (ix2 0 k), iblk1_5_apply V c t (ix2 k q)]

/-- WHAT POINT `t` WRITES BACK into the second affine layer's array is block `t` of that layer of the whole arrays. -/
theorem flushed1_7 (c : Dev nD) (t : Fin cfg1.N) :
    (dat1 V c).flushed 7 t = ((cfg1.win 7).blk t).view.read (Elt Ideal) (Cert.Gin.affine (Cert.Gin.normClamp (V c main_v11_0) (V c main_v22) (V c main_v23) (V c main_v24) (V c main_v25)) (V c main_arg7) (V c main_v26)) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  obtain ⟨-, -, -, -, -, -, -, -, -, -, -, -, -, -, e0, e1, -⟩ := idx_facts1 t
  funext j
  obtain ⟨p, q, rfl⟩ : ∃ (p : Fin 5000) (q : Fin 128), j = ix2 p q := ⟨j 0, j 1, eq_ix2 j⟩
  have hN : cfg1.N = 20 := N_1
  have ht : t.val < 20 := hN ▸ t.isLt
  refine (tile1 V c t p q ⟨5000 * t.val + p.val, by have := p.isLt; omega⟩ rfl).trans ?_
  show _ = Cert.Gin.affine _ _ _ (((cfg1.win 7).blk t).view.emb (ix2 p q))
  congr 1
  funext a
  apply Fin.ext
  match a with
  | ⟨0, _⟩ => show 5000 * t.val + p.val = win1_7.index t (0 : Fin 2) * 5000 + 1 * p.val; rw [e0]; omega
  | ⟨1, _⟩ => show q.val = win1_7.index t (1 : Fin 2) * 128 + 1 * q.val; rw [e1]; omega

/-- An index of the second affine layer's array is in point `t`'s block iff each coordinate is in the block's range. -/
theorem mem_blk1_7 (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v27_0).slice (win1_7.rect t)).set ↔ _
  rw [View.set_slice_whole, Rect.mem_set_unit]
  exact Iff.rfl

/-- Row `r` is in the block of point `r / 5000`. -/
theorem covered1_7 (i : S100000x128.Idx) : ∃ t : Fin cfg1.N, (cfg1.win 7).flush t = true ∧ i ∈ ((cfg1.win 7).blk t).view.set := by
  have hi0 : (i 0).val < 100000 := idx2_lt0 i
  have hi1 : (i 1).val < 128 := idx2_lt1 i
  have hN : cfg1.N = 20 := N_1
  have ht : (i 0).val / 5000 < cfg1.N := by rw [hN]; omega
  obtain ⟨-, -, -, -, -, -, -, -, -, -, -, -, -, -, e0, e1, -⟩ := idx_facts1 ⟨(i 0).val / 5000, ht⟩
  refine ⟨⟨(i 0).val / 5000, ht⟩, flush1_7 _, ?_⟩
  rw [mem_blk1_7]
  intro a
  match a with
  | ⟨0, _⟩ => show win1_7.index ⟨(i 0).val / 5000, ht⟩ (0 : Fin 2) * 5000 ≤ (i 0).val ∧ (i 0).val < win1_7.index ⟨(i 0).val / 5000, ht⟩ (0 : Fin 2) * 5000 + 5000; rw [e0]; show (i 0).val / 5000 * 5000 ≤ (i 0).val ∧ (i 0).val < (i 0).val / 5000 * 5000 + 5000; omega
  | ⟨1, _⟩ => show win1_7.index ⟨(i 0).val / 5000, ht⟩ (1 : Fin 2) * 128 ≤ (i 1).val ∧ (i 1).val < win1_7.index ⟨(i 0).val / 5000, ht⟩ (1 : Fin 2) * 128 + 128; rw [e1]; omega

/-- THE SECOND AFFINE LAYER'S ARRAY after the second region. -/
theorem final1_7 (c : Dev nD) : (dat1 V c).arrAt 7 cfg1.N = (Cert.Gin.affine (Cert.Gin.normClamp (V c main_v11_0) (V c main_v22) (V c main_v23) (V c main_v24) (V c main_v25)) (V c main_arg7) (V c main_v26)) :=
  (dat1 V c).arrAt_eq_of_cover 7 _ (fun t _ => flushed1_7 V c t) covered1_7

/-- Entry `(r, q)` of point `t`'s block of the 160-row array is entry `(8 t + r, q)` of the array. -/
theorem emb1_8 (t : Fin cfg1.N) (r : Fin 8) (q : Fin 128) (i : Fin 160) (hi : i.val = 8 * t.val + r.val) :
    ((cfg1.win 8).blk t).view.emb (ix2 r q) = ix2 i q := by
  obtain ⟨-, -, -, -, -, -, -, -, -, -, -, -, -, -, -, -, e0, e1, -⟩ := idx_facts1 t
  funext a
  apply Fin.ext
  match a with
  | ⟨0, _⟩ => show win1_8.index t (0 : Fin 2) * 8 + 1 * r.val = i.val; rw [e0, hi]; omega
  | ⟨1, _⟩ => show win1_8.index t (1 : Fin 2) * 128 + 1 * q.val = q.val; rw [e1]; omega

/-- WHAT POINT `t` WRITES BACK into the column-sum array is block `t` of the per-tile column sums of the second affine layer. -/
theorem flushed1_8 (c : Dev nD) (t : Fin cfg1.N) :
    (dat1 V c).flushed 8 t = ((cfg1.win 8).blk t).view.read (Elt Ideal) (Cert.Gin.tileSums (Cert.Gin.affine (Cert.Gin.normClamp (V c main_v11_0) (V c main_v22) (V c main_v23) (V c main_v24) (V c main_v25)) (V c main_arg7) (V c main_v26))) := by
  show (cfg1.win 8).cut (grid1.coords t) ((dat1 V c).after 8 t) = _
  rw [after1_8]
  unfold out1_8
  rw [View.canon_unit_zero hz]
  simp only [View.ld_unit_zero (S := S5000x128) hz, View.ld_unit_zero (S := S128x128) hz, View.ld_unit_zero (S := S1x128) hz]
  funext j
  obtain ⟨r, q, rfl⟩ : ∃ (r : Fin 8) (q : Fin 128), j = ix2 r q := ⟨j 0, j 1, eq_ix2 j⟩
  have hN : cfg1.N = 20 := N_1
  have ht : t.val < 20 := hN ▸ t.isLt
  have hr : r.val < 8 := r.isLt
  refine (Cert.Gin.Payload.k1_pay1_pay4_apply (iblk1 V c 0 t) (iblk1 V c 1 t) (iblk1 V c 2 t) (iblk1 V c 3 t) (iblk1 V c 4 t) (iblk1 V c 5 t) (iblk1 V c 6 t) r q).trans ?_
  show _ = Cert.Gin.tileSums _ (((cfg1.win 8).blk t).view.emb (ix2 r q))
  rw [emb1_8 t r q ⟨8 * t.val + r.val, by omega⟩ rfl, tileSums_at _ _ q t.val ht r rfl]
  by_cases h : r = 0
  · rw [if_pos h, if_pos h]
    exact Finset.sum_congr rfl fun p _ => tile1 V c t p q _ rfl
  · rw [if_neg h, if_neg h]

/-- An index of the 160-row array is in point `t`'s block iff each coordinate is in the block's range. -/
theorem mem_blk1_8 (t : Fin cfg1.N) (i : S160x128.Idx) :
    i ∈ ((cfg1.win 8).blk t).view.set ↔ ∀ a : Fin 2, win1_8.index t a * S8x128.size a ≤ (i a).val ∧ (i a).val < win1_8.index t a * S8x128.size a + S8x128.size a := by
  show i ∈ ((View.whole main_v27_1).slice (win1_8.rect t)).set ↔ _
  rw [View.set_slice_whole, Rect.mem_set_unit]
  exact Iff.rfl

/-- Row `r` of the 160-row array is in the block of point `r / 8`. -/
theorem covered1_8 (i : S160x128.Idx) : ∃ t : Fin cfg1.N, (cfg1.win 8).flush t = true ∧ i ∈ ((cfg1.win 8).blk t).view.set := by
  have hi0 : (i 0).val < 160 := idx2_lt0 i
  have hi1 : (i 1).val < 128 := idx2_lt1 i
  have hN : cfg1.N = 20 := N_1
  have ht : (i 0).val / 8 < cfg1.N := by rw [hN]; omega
  obtain ⟨-, -, -, -, -, -, -, -, -, -, -, -, -, -, -, -, e0, e1, -⟩ := idx_facts1 ⟨(i 0).val / 8, ht⟩
  refine ⟨⟨(i 0).val / 8, ht⟩, flush1_8 _, ?_⟩
  rw [mem_blk1_8]
  intro a
  match a with
  | ⟨0, _⟩ => show win1_8.index ⟨(i 0).val / 8, ht⟩ (0 : Fin 2) * 8 ≤ (i 0).val ∧ (i 0).val < win1_8.index ⟨(i 0).val / 8, ht⟩ (0 : Fin 2) * 8 + 8; rw [e0]; show (i 0).val / 8 * 8 ≤ (i 0).val ∧ (i 0).val < (i 0).val / 8 * 8 + 8; omega
  | ⟨1, _⟩ => show win1_8.index ⟨(i 0).val / 8, ht⟩ (1 : Fin 2) * 128 ≤ (i 1).val ∧ (i 1).val < win1_8.index ⟨(i 0).val / 8, ht⟩ (1 : Fin 2) * 128 + 128; rw [e1]; omega

/-- THE COLUMN-SUM ARRAY after the second region. -/
theorem final1_8 (c : Dev nD) : (dat1 V c).arrAt 8 cfg1.N = (Cert.Gin.tileSums (Cert.Gin.affine (Cert.Gin.normClamp (V c main_v11_0) (V c main_v22) (V c main_v23) (V c main_v24) (V c main_v25)) (V c main_arg7) (V c main_v26))) :=
  (dat1 V c).arrAt_eq_of_cover 8 _ (fun t _ => flushed1_8 V c t) covered1_8

/-- Entry `(r, q)` of point `t`'s block of the 160-row array is entry `(8 t + r, q)` of the array. -/
theorem emb1_9 (t : Fin cfg1.N) (r : Fin 8) (q : Fin 128) (i : Fin 160) (hi : i.val = 8 * t.val + r.val) :
    ((cfg1.win 9).blk t).view.emb (ix2 r q) = ix2 i q := by
  obtain ⟨-, -, -, -, -, -, -, -, -, -, -, -, -, -, -, -, -, -, e0, e1⟩ := idx_facts1 t
  funext a
  apply Fin.ext
  match a with
  | ⟨0, _⟩ => show win1_9.index t (0 : Fin 2) * 8 + 1 * r.val = i.val; rw [e0, hi]; omega
  | ⟨1, _⟩ => show win1_9.index t (1 : Fin 2) * 128 + 1 * q.val = q.val; rw [e1]; omega

/-- WHAT POINT `t` WRITES BACK into the sum-of-squares array is block `t` of the per-tile column sums of the second affine layer's squares. -/
theorem flushed1_9 (c : Dev nD) (t : Fin cfg1.N) :
    (dat1 V c).flushed 9 t = ((cfg1.win 9).blk t).view.read (Elt Ideal) (Cert.Gin.tileSums (Cert.Gin.sqMat (Cert.Gin.affine (Cert.Gin.normClamp (V c main_v11_0) (V c main_v22) (V c main_v23) (V c main_v24) (V c main_v25)) (V c main_arg7) (V c main_v26)))) := by
  show (cfg1.win 9).cut (grid1.coords t) ((dat1 V c).after 9 t) = _
  rw [after1_9]
  unfold out1_9
  rw [View.canon_unit_zero hz]
  simp only [View.ld_unit_zero (S := S5000x128) hz, View.ld_unit_zero (S := S128x128) hz, View.ld_unit_zero (S := S1x128) hz]
  funext j
  obtain ⟨r, q, rfl⟩ : ∃ (r : Fin 8) (q : Fin 128), j = ix2 r q := ⟨j 0, j 1, eq_ix2 j⟩
  have hN : cfg1.N = 20 := N_1
  have ht : t.val < 20 := hN ▸ t.isLt
  have hr : r.val < 8 := r.isLt
  refine (Cert.Gin.Payload.k1_pay2_pay5_apply (iblk1 V c 0 t) (iblk1 V c 1 t) (iblk1 V c 2 t) (iblk1 V c 3 t) (iblk1 V c 4 t) (iblk1 V c 5 t) (iblk1 V c 6 t) r q).trans ?_
  show _ = Cert.Gin.tileSums _ (((cfg1.win 9).blk t).view.emb (ix2 r q))
  rw [emb1_9 t r q ⟨8 * t.val + r.val, by omega⟩ rfl, tileSums_at _ _ q t.val ht r rfl]
  by_cases h : r = 0
  · rw [if_pos h, if_pos h]
    exact Finset.sum_congr rfl fun p _ => congrArg₂ (· * ·) (tile1 V c t p q _ rfl) (tile1 V c t p q _ rfl)
  · rw [if_neg h, if_neg h]

/-- An index of the 160-row array is in point `t`'s block iff each coordinate is in the block's range. -/
theorem mem_blk1_9 (t : Fin cfg1.N) (i : S160x128.Idx) :
    i ∈ ((cfg1.win 9).blk t).view.set ↔ ∀ a : Fin 2, win1_9.index t a * S8x128.size a ≤ (i a).val ∧ (i a).val < win1_9.index t a * S8x128.size a + S8x128.size a := by
  show i ∈ ((View.whole main_v27_2).slice (win1_9.rect t)).set ↔ _
  rw [View.set_slice_whole, Rect.mem_set_unit]
  exact Iff.rfl

/-- Row `r` of the 160-row array is in the block of point `r / 8`. -/
theorem covered1_9 (i : S160x128.Idx) : ∃ t : Fin cfg1.N, (cfg1.win 9).flush t = true ∧ i ∈ ((cfg1.win 9).blk t).view.set := by
  have hi0 : (i 0).val < 160 := idx2_lt0 i
  have hi1 : (i 1).val < 128 := idx2_lt1 i
  have hN : cfg1.N = 20 := N_1
  have ht : (i 0).val / 8 < cfg1.N := by rw [hN]; omega
  obtain ⟨-, -, -, -, -, -, -, -, -, -, -, -, -, -, -, -, -, -, e0, e1⟩ := idx_facts1 ⟨(i 0).val / 8, ht⟩
  refine ⟨⟨(i 0).val / 8, ht⟩, flush1_9 _, ?_⟩
  rw [mem_blk1_9]
  intro a
  match a with
  | ⟨0, _⟩ => show win1_9.index ⟨(i 0).val / 8, ht⟩ (0 : Fin 2) * 8 ≤ (i 0).val ∧ (i 0).val < win1_9.index ⟨(i 0).val / 8, ht⟩ (0 : Fin 2) * 8 + 8; rw [e0]; show (i 0).val / 8 * 8 ≤ (i 0).val ∧ (i 0).val < (i 0).val / 8 * 8 + 8; omega
  | ⟨1, _⟩ => show win1_9.index ⟨(i 0).val / 8, ht⟩ (1 : Fin 2) * 128 ≤ (i 1).val ∧ (i 1).val < win1_9.index ⟨(i 0).val / 8, ht⟩ (1 : Fin 2) * 128 + 128; rw [e1]; omega

/-- THE SUM-OF-SQUARES ARRAY after the second region. -/
theorem final1_9 (c : Dev nD) : (dat1 V c).arrAt 9 cfg1.N = (Cert.Gin.tileSums (Cert.Gin.sqMat (Cert.Gin.affine (Cert.Gin.normClamp (V c main_v11_0) (V c main_v22) (V c main_v23) (V c main_v24) (V c main_v25)) (V c main_arg7) (V c main_v26)))) :=
  (dat1 V c).arrAt_eq_of_cover 9 _ (fun t _ => flushed1_9 V c t) covered1_9

end Cert.Gin.Blocks

end
-- ==== Proof.GinBlocksC.lean ====
/-
  From blocks to arrays, for the third kernel region, over the extended reals.

  The region runs its body once per tile of 5000 rows (20 tiles). The block of the row-tiled matrix at tile t is its
  rows 5000 t … 5000 t + 4999; each of the four statistics rows (mean, variance, scale, shift) is whole at every
  tile; each of the two partial-sum arrays of 160 rows is written in groups of 8 rows, group t by tile t. What a tile
  writes back is therefore the restriction to its group of rows of ONE function of the whole input arrays, and the
  groups cover every row, so after the region the two output arrays are the per-tile column sums of the normalised,
  clamped matrix and of its squares.
-/
import proofs.«166857_j49581102465153_2_alg».proof.Proof.Gen.KernelIdeal.Frame
import proofs.«166857_j49581102465153_2_alg».proof.Proof.GinArrays
import proofs.«166857_j49581102465153_2_alg».proof.Proof.GinPayloads2
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.Gin.BlocksC

open Cert.KernelIdeal Cert.KernelIdeal.Gen

variable (V : (c : Dev nD) → (b : Ref sig .tc) → Buf (Elt Ideal) ((c : Thread nD τ).loc b))

/-- The zero offset of a rank-2 rectangle, as a constant function. -/
private theorem hz : (![0, 0] : Fin 2 → Nat) = fun _ => 0 := funext fun a => by fin_cases a <;> rfl

/-- The per-tile column sums at row `8 t + r` of the 160-row array: the sum over tile `t`'s 5000 rows when `r = 0`,
    zero on the other seven rows of the group. -/
private theorem tileSums_at (f : Cert.Gin.Mat 100000 128) (i : Fin 160) (q : Fin 128) (t : Nat) (ht : t < 20) (r : Fin 8)
    (hi : i.val = 8 * t + r.val) :
    Cert.Gin.tileSums f (ix2 i q)
      = if r = 0 then ∑ p : Fin 5000, f (ix2 (⟨5000 * t + p.val, by have := p.isLt; omega⟩ : Fin 100000) q) else 0 := by
  have hr : r.val < 8 := r.isLt
  have h8 : i.val / 8 = t := by omega
  show (if i.val % 8 = 0 then ∑ p : Fin 5000, f (ix2 (⟨5000 * (i.val / 8) + p.val, _⟩ : Fin 100000) q) else 0) = _
  by_cases h : r = 0
  · have hm : i.val % 8 = 0 := by have : r.val = 0 := congrArg Fin.val h; omega
    rw [if_pos hm, if_pos h]
    exact Finset.sum_congr rfl fun p _ => congrArg (fun i' : Fin 100000 => f (ix2 i' q)) (Fin.ext (by show 5000 * (i.val / 8) + p.val = 5000 * t + p.val; rw [h8]))
  · have hm : ¬ i.val % 8 = 0 := by have : r.val ≠ 0 := fun e => h (Fin.ext e); omega
    rw [if_neg hm, if_neg h]

/-- The printed index maps of the region, decided over its 20 grid points: the row-tiled matrix and the two partial-sum
    arrays sit at block row `t`, block column 0; the four statistics rows are block (0, 0) at every point. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Block `t` of the row-tiled matrix is its rows `5000 t … 5000 t + 4999`. -/
theorem iblk2_0_apply (c : Dev nD) (t : Fin cfg2.N) (y : S5000x128.Idx) (i : S100000x128.Idx)
    (h0 : (i 0).val = 5000 * t.val + (y 0).val) (h1 : (i 1).val = (y 1).val) :
    (iblk2 V c 0 t : Vec Ideal S5000x128 .f32) y = (V c main_v27_0 : S100000x128.Idx → EReal) i := by
  obtain ⟨e0, e1, -⟩ := idx_facts2 t
  unfold iblk2
  rw [View.read_apply]
  show V c main_v27_0 _ = V c main_v27_0 _
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The row of column means is whole at every point. -/
theorem iblk2_1_apply (c : Dev nD) (t : Fin cfg2.N) (y : S1x128.Idx) :
    (iblk2 V c 1 t : Vec Ideal S1x128 .f32) y = (V c main_v38 : S1x128.Idx → EReal) y := by
  obtain ⟨-, -, e0, e1, -⟩ := idx_facts2 t
  unfold iblk2
  rw [View.read_apply]
  show V c main_v38 _ = V c main_v38 _
  congr 1
  funext a
  apply Fin.ext
  match a with
  | ⟨0, _⟩ => show win2_1.index t (0 : Fin 2) * 1 + 1 * (y 0).val = (y 0).val; rw [e0]; omega
  | ⟨1, _⟩ => show win2_1.index t (1 : Fin 2) * 128 + 1 * (y 1).val = (y 1).val; rw [e1]; omega

/-- The row of column variances is whole at every point. -/
theorem iblk2_2_apply (c : Dev nD) (t : Fin cfg2.N) (y : S1x128.Idx) :
    (iblk2 V c 2 t : Vec Ideal S1x128 .f32) y = (V c main_v39 : S1x128.Idx → EReal) y := by
  obtain ⟨-, -, -, -, e0, e1, -⟩ := idx_facts2 t
  unfold iblk2
  rw [View.read_apply]
  show V c main_v39 _ = V c main_v39 _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- The row of scales is whole at every point. -/
theorem iblk2_3_apply (c : Dev nD) (t : Fin cfg2.N) (y : S1x128.Idx) :
    (iblk2 V c 3 t : Vec Ideal S1x128 .f32) y = (V c main_v40 : S1x128.Idx → EReal) y := by
  obtain ⟨-, -, -, -, -, -, e0, e1, -⟩ := idx_facts2 t
  unfold iblk2
  rw [View.read_apply]
  show V c main_v40 _ = V c main_v40 _
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- The row of shifts is whole at every point. -/
theorem iblk2_4_apply (c : Dev nD) (t : Fin cfg2.N) (y : S1x128.Idx) :
    (iblk2 V c 4 t : Vec Ideal S1x128 .f32) y = (V c main_v41 : S1x128.Idx → EReal) y := by
  obtain ⟨-, -, -, -, -, -, -, -, e0, e1, -⟩ := idx_facts2 t
  unfold iblk2
  rw [View.read_apply]
  show V c main_v41 _ = V c main_v41 _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- The normalised and clamped matrix at an entry given by its coordinates. -/
private theorem normClamp_at (z : Cert.Gin.Mat 100000 128) (mn vr g be : Cert.Gin.Mat 1 128) (i : Fin 100000) (q : Fin 128) :
    Cert.Gin.normClamp z mn vr g be (ix2 i q)
      = max (g (ix2 0 q) * (z (ix2 i q) - mn (ix2 0 q)) * Ideal.rsqrt (vr (ix2 0 q) + Ideal.ofBits .f32 0x3727C5AC#32) + be (ix2 0 q)) 0 := rfl

/-- THE NORMALISED TILE: entry `(p, q)` of what the region normalises at point `t` is entry `(5000 t + p, q)` of the
    normalised, clamped whole matrix. -/
theorem tile2 (c : Dev nD) (t : Fin cfg2.N) (p : Fin 5000) (q : Fin 128) (i : Fin 100000) (hi : i.val = 5000 * t.val + p.val) :
    k2_pay2 (F := Ideal) (iblk2 V c 0 t) (iblk2 V c 1 t) (iblk2 V c 2 t) (iblk2 V c 3 t) (iblk2 V c 4 t) (ix2 p q) = (Cert.Gin.normClamp (V c main_v27_0) (V c main_v38) (V c main_v39) (V c main_v40) (V c main_v41)) (ix2 i q) := by
  refine (Cert.Gin.Payload.k2_pay2_apply (iblk2 V c 0 t) (iblk2 V c 1 t) (iblk2 V c 2 t) (iblk2 V c 3 t) (iblk2 V c 4 t) p q).trans ?_
  refine Eq.trans ?_ (normClamp_at (V c main_v27_0) (V c main_v38) (V c main_v39) (V c main_v40) (V c main_v41) i q).symm
  rw [iblk2_0_apply V c t (ix2 p q) (ix2 i q) hi rfl, iblk2_1_apply V c t (ix2 0 q), iblk2_2_apply V c t (ix2 0 q),
    iblk2_3_apply V c t (ix2 0 q), iblk2_4_apply V c t (ix2 0 q)]

/-! # The column-sum array -/

/-- Entry `(r, q)` of point `t`'s block of the 160-row array is entry `(8 t + r, q)` of the array. -/
theorem emb2_5 (t : Fin cfg2.N) (r : Fin 8) (q : Fin 128) (i : Fin 160) (hi : i.val = 8 * t.val + r.val) :
    ((cfg2.win 5).blk t).view.emb (ix2 r q) = ix2 i q := by
  obtain ⟨-, -, -, -, -, -, -, -, -, -, e0, e1, -⟩ := idx_facts2 t
  funext a
  apply Fin.ext
  match a with
  | ⟨0, _⟩ => show win2_5.index t (0 : Fin 2) * 8 + 1 * r.val = i.val; rw [e0, hi]; omega
  | ⟨1, _⟩ => show win2_5.index t (1 : Fin 2) * 128 + 1 * q.val = q.val; rw [e1]; omega

/-- WHAT POINT `t` WRITES BACK into the column sum array is block `t` of the per-tile column sums of the normalised, clamped matrix. -/
theorem flushed2_5 (c : Dev nD) (t : Fin cfg2.N) :
    (dat2 V c).flushed 5 t = ((cfg2.win 5).blk t).view.read (Elt Ideal) (Cert.Gin.tileSums (Cert.Gin.normClamp (V c main_v27_0) (V c main_v38) (V c main_v39) (V c main_v40) (V c main_v41))) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  funext j
  obtain ⟨r, q, rfl⟩ : ∃ (r : Fin 8) (q : Fin 128), j = ix2 r q := ⟨j 0, j 1, eq_ix2 j⟩
  have hN : cfg2.N = 20 := N_2
  have ht : t.val < 20 := hN ▸ t.isLt
  have hr : r.val < 8 := r.isLt
  refine (Cert.Gin.Payload.k2_pay4_apply (iblk2 V c 0 t) (iblk2 V c 1 t) (iblk2 V c 2 t) (iblk2 V c 3 t) (iblk2 V c 4 t) r q).trans ?_
  show _ = Cert.Gin.tileSums _ (((cfg2.win 5).blk t).view.emb (ix2 r q))
  rw [emb2_5 t r q ⟨8 * t.val + r.val, by omega⟩ rfl, tileSums_at _ _ q t.val ht r rfl]
  by_cases h : r = 0
  · rw [if_pos h, if_pos h]
    exact Finset.sum_congr rfl fun p _ => tile2 V c t p q _ rfl
  · rw [if_neg h, if_neg h]

/-- An index of the 160-row array is in point `t`'s block iff each coordinate is in the block's range. -/
theorem mem_blk2_5 (t : Fin cfg2.N) (i : S160x128.Idx) :
    i ∈ ((cfg2.win 5).blk t).view.set ↔ ∀ a : Fin 2, win2_5.index t a * S8x128.size a ≤ (i a).val ∧ (i a).val < win2_5.index t a * S8x128.size a + S8x128.size a := by
  show i ∈ ((View.whole main_v42_0).slice (win2_5.rect t)).set ↔ _
  rw [View.set_slice_whole, Rect.mem_set_unit]
  exact Iff.rfl

/-- Row `r` of the 160-row array is in the block of point `r / 8`. -/
theorem covered2_5 (i : S160x128.Idx) : ∃ t : Fin cfg2.N, (cfg2.win 5).flush t = true ∧ i ∈ ((cfg2.win 5).blk t).view.set := by
  have hi0 : (i 0).val < 160 := idx2_lt0 i
  have hi1 : (i 1).val < 128 := idx2_lt1 i
  have hN : cfg2.N = 20 := N_2
  have ht : (i 0).val / 8 < cfg2.N := by rw [hN]; omega
  obtain ⟨-, -, -, -, -, -, -, -, -, -, e0, e1, -⟩ := idx_facts2 ⟨(i 0).val / 8, ht⟩
  refine ⟨⟨(i 0).val / 8, ht⟩, flush2_5 _, ?_⟩
  rw [mem_blk2_5]
  intro a
  match a with
  | ⟨0, _⟩ => show win2_5.index ⟨(i 0).val / 8, ht⟩ (0 : Fin 2) * 8 ≤ (i 0).val ∧ (i 0).val < win2_5.index ⟨(i 0).val / 8, ht⟩ (0 : Fin 2) * 8 + 8; rw [e0]; show (i 0).val / 8 * 8 ≤ (i 0).val ∧ (i 0).val < (i 0).val / 8 * 8 + 8; omega
  | ⟨1, _⟩ => show win2_5.index ⟨(i 0).val / 8, ht⟩ (1 : Fin 2) * 128 ≤ (i 1).val ∧ (i 1).val < win2_5.index ⟨(i 0).val / 8, ht⟩ (1 : Fin 2) * 128 + 128; rw [e1]; omega

/-- THE COLUMN-SUM ARRAY after the region. -/
theorem final2_5 (c : Dev nD) : (dat2 V c).arrAt 5 cfg2.N = Cert.Gin.tileSums (Cert.Gin.normClamp (V c main_v27_0) (V c main_v38) (V c main_v39) (V c main_v40) (V c main_v41)) :=
  (dat2 V c).arrAt_eq_of_cover 5 _ (fun t _ => flushed2_5 V c t) covered2_5

/-! # The sum-of-squares array -/

/-- Entry `(r, q)` of point `t`'s block of the 160-row array is entry `(8 t + r, q)` of the array. -/
theorem emb2_6 (t : Fin cfg2.N) (r : Fin 8) (q : Fin 128) (i : Fin 160) (hi : i.val = 8 * t.val + r.val) :
    ((cfg2.win 6).blk t).view.emb (ix2 r q) = ix2 i q := by
  obtain ⟨-, -, -, -, -, -, -, -, -, -, -, -, e0, e1⟩ := idx_facts2 t
  funext a
  apply Fin.ext
  match a with
  | ⟨0, _⟩ => show win2_6.index t (0 : Fin 2) * 8 + 1 * r.val = i.val; rw [e0, hi]; omega
  | ⟨1, _⟩ => show win2_6.index t (1 : Fin 2) * 128 + 1 * q.val = q.val; rw [e1]; omega

/-- WHAT POINT `t` WRITES BACK into the column sum of squares array is block `t` of the per-tile column sum of squaress of the normalised, clamped matrix. -/
theorem flushed2_6 (c : Dev nD) (t : Fin cfg2.N) :
    (dat2 V c).flushed 6 t = ((cfg2.win 6).blk t).view.read (Elt Ideal) (Cert.Gin.tileSums (Cert.Gin.sqMat (Cert.Gin.normClamp (V c main_v27_0) (V c main_v38) (V c main_v39) (V c main_v40) (V c main_v41)))) := by
  show (cfg2.win 6).cut (grid2.coords t) ((dat2 V c).after 6 t) = _
  rw [after2_6]
  unfold out2_6
  rw [View.canon_unit_zero hz]
  simp only [View.ld_unit_zero (S := S5000x128) hz, View.ld_unit_zero (S := S1x128) hz]
  funext j
  obtain ⟨r, q, rfl⟩ : ∃ (r : Fin 8) (q : Fin 128), j = ix2 r q := ⟨j 0, j 1, eq_ix2 j⟩
  have hN : cfg2.N = 20 := N_2
  have ht : t.val < 20 := hN ▸ t.isLt
  have hr : r.val < 8 := r.isLt
  refine (Cert.Gin.Payload.k2_pay1_pay3_apply (iblk2 V c 0 t) (iblk2 V c 1 t) (iblk2 V c 2 t) (iblk2 V c 3 t) (iblk2 V c 4 t) r q).trans ?_
  show _ = Cert.Gin.tileSums _ (((cfg2.win 6).blk t).view.emb (ix2 r q))
  rw [emb2_6 t r q ⟨8 * t.val + r.val, by omega⟩ rfl, tileSums_at _ _ q t.val ht r rfl]
  by_cases h : r = 0
  · rw [if_pos h, if_pos h]
    exact Finset.sum_congr rfl fun p _ => congrArg₂ (· * ·) (tile2 V c t p q _ rfl) (tile2 V c t p q _ rfl)
  · rw [if_neg h, if_neg h]

/-- An index of the 160-row array is in point `t`'s block iff each coordinate is in the block's range. -/
theorem mem_blk2_6 (t : Fin cfg2.N) (i : S160x128.Idx) :
    i ∈ ((cfg2.win 6).blk t).view.set ↔ ∀ a : Fin 2, win2_6.index t a * S8x128.size a ≤ (i a).val ∧ (i a).val < win2_6.index t a * S8x128.size a + S8x128.size a := by
  show i ∈ ((View.whole main_v42_1).slice (win2_6.rect t)).set ↔ _
  rw [View.set_slice_whole, Rect.mem_set_unit]
  exact Iff.rfl

/-- Row `r` of the 160-row array is in the block of point `r / 8`. -/
theorem covered2_6 (i : S160x128.Idx) : ∃ t : Fin cfg2.N, (cfg2.win 6).flush t = true ∧ i ∈ ((cfg2.win 6).blk t).view.set := by
  have hi0 : (i 0).val < 160 := idx2_lt0 i
  have hi1 : (i 1).val < 128 := idx2_lt1 i
  have hN : cfg2.N = 20 := N_2
  have ht : (i 0).val / 8 < cfg2.N := by rw [hN]; omega
  obtain ⟨-, -, -, -, -, -, -, -, -, -, -, -, e0, e1⟩ := idx_facts2 ⟨(i 0).val / 8, ht⟩
  refine ⟨⟨(i 0).val / 8, ht⟩, flush2_6 _, ?_⟩
  rw [mem_blk2_6]
  intro a
  match a with
  | ⟨0, _⟩ => show win2_6.index ⟨(i 0).val / 8, ht⟩ (0 : Fin 2) * 8 ≤ (i 0).val ∧ (i 0).val < win2_6.index ⟨(i 0).val / 8, ht⟩ (0 : Fin 2) * 8 + 8; rw [e0]; show (i 0).val / 8 * 8 ≤ (i 0).val ∧ (i 0).val < (i 0).val / 8 * 8 + 8; omega
  | ⟨1, _⟩ => show win2_6.index ⟨(i 0).val / 8, ht⟩ (1 : Fin 2) * 128 ≤ (i 1).val ∧ (i 1).val < win2_6.index ⟨(i 0).val / 8, ht⟩ (1 : Fin 2) * 128 + 128; rw [e1]; omega

/-- THE SUM-OF-SQUARES ARRAY after the region. -/
theorem final2_6 (c : Dev nD) : (dat2 V c).arrAt 6 cfg2.N = Cert.Gin.tileSums (Cert.Gin.sqMat (Cert.Gin.normClamp (V c main_v27_0) (V c main_v38) (V c main_v39) (V c main_v40) (V c main_v41))) :=
  (dat2 V c).arrAt_eq_of_cover 6 _ (fun t _ => flushed2_6 V c t) covered2_6

end Cert.Gin.BlocksC

end
-- ==== Proof.GinBlocksD.lean ====
/-
  From blocks to the array, for the fourth kernel region, over the extended reals.

  The region runs its body once per tile of 5000 rows (20 tiles). The second affine layer's block at tile t is its rows
  5000 t … 5000 t + 4999; each of the eight rows of column statistics, scales and shifts is whole at every tile. What a
  tile writes back is therefore the restriction to the tile's rows of ONE function of the whole input arrays — normalise
  with the first set of statistics and clamp at zero, then normalise with the second set and clamp again — and the
  tiles' row ranges cover every row, so after the region the output array is that function.
-/
import proofs.«166857_j49581102465153_2_alg».proof.Proof.Gen.KernelIdeal.Frame
import proofs.«166857_j49581102465153_2_alg».proof.Proof.GinArrays
import proofs.«166857_j49581102465153_2_alg».proof.Proof.GinPayloads2
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.Gin.BlocksD

open Cert.KernelIdeal Cert.KernelIdeal.Gen

variable (V : (c : Dev nD) → (b : Ref sig .tc) → Buf (Elt Ideal) ((c : Thread nD τ).loc b))

/-- The zero offset of a rank-2 rectangle, as a constant function. -/
private theorem hz : (![0, 0] : Fin 2 → Nat) = fun _ => 0 := funext fun a => by fin_cases a <;> rfl

/-- The printed index maps of the fourth region, decided over its 20 grid points: the two row-tiled windows sit at
    block row `t`, block column 0; the eight statistics, scale and shift rows are block (0, 0) at every point. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

/-- Block `t` of the second affine layer is its rows `5000 t … 5000 t + 4999`. -/
theorem iblk3_0_apply (c : Dev nD) (t : Fin cfg3.N) (y : S5000x128.Idx) (i : S100000x128.Idx)
    (h0 : (i 0).val = 5000 * t.val + (y 0).val) (h1 : (i 1).val = (y 1).val) :
    (iblk3 V c 0 t : Vec Ideal S5000x128 .f32) y = (V c main_v27_0 : S100000x128.Idx → EReal) i := by
  obtain ⟨e0, e1, -⟩ := idx_facts3 t
  unfold iblk3
  rw [View.read_apply]
  show V c main_v27_0 _ = V c main_v27_0 _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 128 + 1 * (y 1).val = (i 1).val; rw [e1, h1]; omega

/-- The row of the second layer's column means is whole at every point. -/
theorem iblk3_1_apply (c : Dev nD) (t : Fin cfg3.N) (y : S1x128.Idx) :
    (iblk3 V c 1 t : Vec Ideal S1x128 .f32) y = (V c main_v38 : S1x128.Idx → EReal) y := by
  obtain ⟨-, -, e0, e1, -⟩ := idx_facts3 t
  unfold iblk3
  rw [View.read_apply]
  show V c main_v38 _ = V c main_v38 _
  congr 1
  funext a
  apply Fin.ext
  match a with
  | ⟨0, _⟩ => show win3_1.index t (0 : Fin 2) * 1 + 1 * (y 0).val = (y 0).val; rw [e0]; omega
  | ⟨1, _⟩ => show win3_1.index t (1 : Fin 2) * 128 + 1 * (y 1).val = (y 1).val; rw [e1]; omega

/-- The row of the second layer's column variances is whole at every point. -/
theorem iblk3_2_apply (c : Dev nD) (t : Fin cfg3.N) (y : S1x128.Idx) :
    (iblk3 V c 2 t : Vec Ideal S1x128 .f32) y = (V c main_v39 : S1x128.Idx → EReal) y := by
  obtain ⟨-, -, -, -, e0, e1, -⟩ := idx_facts3 t
  unfold iblk3
  rw [View.read_apply]
  show V c main_v39 _ = V c main_v39 _
  congr 1
  funext a
  apply Fin.ext
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

/-- The second scale row is whole at every point. -/
theorem iblk3_3_apply (c : Dev nD) (t : Fin cfg3.N) (y : S1x128.Idx) :
    (iblk3 V c 3 t : Vec Ideal S1x128 .f32) y = (V c main_v55 : S1x128.Idx → EReal) y := by
  obtain ⟨-, -, -, -, -, -, e0, e1, -⟩ := idx_facts3 t
  unfold iblk3
  rw [View.read_apply]
  show V c main_v55 _ = V c main_v55 _
  congr 1
  funext a
  apply Fin.ext
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

/-- The second shift row is whole at every point. -/
theorem iblk3_4_apply (c : Dev nD) (t : Fin cfg3.N) (y : S1x128.Idx) :
    (iblk3 V c 4 t : Vec Ideal S1x128 .f32) y = (V c main_v56 : S1x128.Idx → EReal) y := by
  obtain ⟨-, -, -, -, -, -, -, -, e0, e1, -⟩ := idx_facts3 t
  unfold iblk3
  rw [View.read_apply]
  show V c main_v56 _ = V c main_v56 _
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

/-- The row of the third normalisation's column means is whole at every point. -/
theorem iblk3_5_apply (c : Dev nD) (t : Fin cfg3.N) (y : S1x128.Idx) :
    (iblk3 V c 5 t : Vec Ideal S1x128 .f32) y = (V c main_v53 : S1x128.Idx → EReal) y := by
  obtain ⟨-, -, -, -, -, -, -, -, -, -, e0, e1, -⟩ := idx_facts3 t
  unfold iblk3
  rw [View.read_apply]
  show V c main_v53 _ = V c main_v53 _
  congr 1
  funext a
  apply Fin.ext
  match a with
  | ⟨0, _⟩ => show win3_5.index t (0 : Fin 2) * 1 + 1 * (y 0).val = (y 0).val; rw [e0]; omega
  | ⟨1, _⟩ => show win3_5.index t (1 : Fin 2) * 128 + 1 * (y 1).val = (y 1).val; rw [e1]; omega

/-- The row of the third normalisation's column variances is whole at every point. -/
theorem iblk3_6_apply (c : Dev nD) (t : Fin cfg3.N) (y : S1x128.Idx) :
    (iblk3 V c 6 t : Vec Ideal S1x128 .f32) y = (V c main_v54 : S1x128.Idx → EReal) y := by
  obtain ⟨-, -, -, -, -, -, -, -, -, -, -, -, e0, e1, -⟩ := idx_facts3 t
  unfold iblk3
  rw [View.read_apply]
  show V c main_v54 _ = V c main_v54 _
  congr 1
  funext a
  apply Fin.ext
  match a with
  | ⟨0, _⟩ => show win3_6.index t (0 : Fin 2) * 1 + 1 * (y 0).val = (y 0).val; rw [e0]; omega
  | ⟨1, _⟩ => show win3_6.index t (1 : Fin 2) * 128 + 1 * (y 1).val = (y 1).val; rw [e1]; omega

/-- The third scale row is whole at every point. -/
theorem iblk3_7_apply (c : Dev nD) (t : Fin cfg3.N) (y : S1x128.Idx) :
    (iblk3 V c 7 t : Vec Ideal S1x128 .f32) y = (V c main_v57 : S1x128.Idx → EReal) y := by
  obtain ⟨-, -, -, -, -, -, -, -, -, -, -, -, -, -, e0, e1, -⟩ := idx_facts3 t
  unfold iblk3
  rw [View.read_apply]
  show V c main_v57 _ = V c main_v57 _
  congr 1
  funext a
  apply Fin.ext
  match a with
  | ⟨0, _⟩ => show win3_7.index t (0 : Fin 2) * 1 + 1 * (y 0).val = (y 0).val; rw [e0]; omega
  | ⟨1, _⟩ => show win3_7.index t (1 : Fin 2) * 128 + 1 * (y 1).val = (y 1).val; rw [e1]; omega

/-- The third shift row is whole at every point. -/
theorem iblk3_8_apply (c : Dev nD) (t : Fin cfg3.N) (y : S1x128.Idx) :
    (iblk3 V c 8 t : Vec Ideal S1x128 .f32) y = (V c main_v58 : S1x128.Idx → EReal) y := by
  obtain ⟨-, -, -, -, -, -, -, -, -, -, -, -, -, -, -, -, e0, e1, -⟩ := idx_facts3 t
  unfold iblk3
  rw [View.read_apply]
  show V c main_v58 _ = V c main_v58 _
  congr 1
  funext a
  apply Fin.ext
  match a with
  | ⟨0, _⟩ => show win3_8.index t (0 : Fin 2) * 1 + 1 * (y 0).val = (y 0).val; rw [e0]; omega
  | ⟨1, _⟩ => show win3_8.index t (1 : Fin 2) * 128 + 1 * (y 1).val = (y 1).val; rw [e1]; omega

/-- Two normalisations and clamps in a row, at an entry given by its coordinates. -/
private theorem normClamp2_at (z : Cert.Gin.Mat 100000 128) (mn2 vr2 g2 be2 mn3 vr3 g3 be3 : Cert.Gin.Mat 1 128) (i : Fin 100000) (q : Fin 128) :
    Cert.Gin.normClamp (Cert.Gin.normClamp z mn2 vr2 g2 be2) mn3 vr3 g3 be3 (ix2 i q)
      = max (g3 (ix2 0 q)
            * (max (g2 (ix2 0 q) * (z (ix2 i q) - mn2 (ix2 0 q)) * Ideal.rsqrt (vr2 (ix2 0 q) + Ideal.ofBits .f32 0x3727C5AC#32)
                + be2 (ix2 0 q)) 0 - mn3 (ix2 0 q))
            * Ideal.rsqrt (vr3 (ix2 0 q) + Ideal.ofBits .f32 0x3727C5AC#32) + be3 (ix2 0 q)) 0 := rfl

/-- THE TILE: entry `(p, q)` of what the fourth region computes at point `t` is entry `(5000 t + p, q)` of the twice
    normalised, twice clamped second affine layer. -/
theorem tile3 (c : Dev nD) (t : Fin cfg3.N) (p : Fin 5000) (q : Fin 128) (i : Fin 100000) (hi : i.val = 5000 * t.val + p.val) :
    k3_pay1 (k3_pay2 (iblk3 V c 8 t)) (k3_pay3 (iblk3 V c 6 t)) (k3_pay4 (iblk3 V c 0 t) (iblk3 V c 1 t) (iblk3 V c 2 t) (iblk3 V c 3 t) (iblk3 V c 4 t) (iblk3 V c 5 t) (iblk3 V c 7 t)) (ix2 p q) = (Cert.Gin.normClamp (Cert.Gin.normClamp (V c main_v27_0) (V c main_v38) (V c main_v39) (V c main_v55) (V c main_v56)) (V c main_v53) (V c main_v54) (V c main_v57) (V c main_v58)) (ix2 i q) := by
  refine (Cert.Gin.Payload.k3_pay1_apply (iblk3 V c 0 t) (iblk3 V c 1 t) (iblk3 V c 2 t) (iblk3 V c 3 t) (iblk3 V c 4 t) (iblk3 V c 5 t) (iblk3 V c 7 t) (iblk3 V c 6 t) (iblk3 V c 8 t) p q).trans ?_
  refine Eq.trans ?_ (normClamp2_at (V c main_v27_0) (V c main_v38) (V c main_v39) (V c main_v55) (V c main_v56) (V c main_v53) (V c main_v54) (V c main_v57) (V c main_v58) i q).symm
  rw [iblk3_0_apply V c t (ix2 p q) (ix2 i q) hi rfl, iblk3_1_apply V c t (ix2 0 q), iblk3_2_apply V c t (ix2 0 q),
    iblk3_3_apply V c t (ix2 0 q), iblk3_4_apply V c t (ix2 0 q), iblk3_5_apply V c t (ix2 0 q), iblk3_6_apply V c t (ix2 0 q),
    iblk3_7_apply V c t (ix2 0 q), iblk3_8_apply V c t (ix2 0 q)]

/-- WHAT POINT `t` WRITES BACK into the output array is block `t` of the twice normalised, twice clamped layer. -/
theorem flushed3_9 (c : Dev nD) (t : Fin cfg3.N) :
    (dat3 V c).flushed 9 t = ((cfg3.win 9).blk t).view.read (Elt Ideal) (Cert.Gin.normClamp (Cert.Gin.normClamp (V c main_v27_0) (V c main_v38) (V c main_v39) (V c main_v55) (V c main_v56)) (V c main_v53) (V c main_v54) (V c main_v57) (V c main_v58)) := by
  show (cfg3.win 9).cut (grid3.coords t) ((dat3 V c).after 9 t) = _
  rw [after3_9]
  unfold out3_9
  rw [View.canon_unit_zero hz]
  simp only [View.ld_unit_zero (S := S5000x128) hz, View.ld_unit_zero (S := S1x128) hz]
  obtain ⟨-, -, -, -, -, -, -, -, -, -, -, -, -, -, -, -, -, -, e0, e1⟩ := idx_facts3 t
  funext j
  obtain ⟨p, q, rfl⟩ : ∃ (p : Fin 5000) (q : Fin 128), j = ix2 p q := ⟨j 0, j 1, eq_ix2 j⟩
  have hN : cfg3.N = 20 := N_3
  have ht : t.val < 20 := hN ▸ t.isLt
  refine (tile3 V c t p q ⟨5000 * t.val + p.val, by have := p.isLt; omega⟩ rfl).trans ?_
  show _ = Cert.Gin.normClamp _ _ _ _ _ (((cfg3.win 9).blk t).view.emb (ix2 p q))
  congr 1
  funext a
  apply Fin.ext
  match a with
  | ⟨0, _⟩ => show 5000 * t.val + p.val = win3_9.index t (0 : Fin 2) * 5000 + 1 * p.val; rw [e0]; omega
  | ⟨1, _⟩ => show q.val = win3_9.index t (1 : Fin 2) * 128 + 1 * q.val; rw [e1]; omega

/-- An index of the output array is in point `t`'s block iff each coordinate is in the block's range. -/
theorem mem_blk3_9 (t : Fin cfg3.N) (i : S100000x128.Idx) :
    i ∈ ((cfg3.win 9).blk t).view.set ↔ ∀ a : Fin 2, win3_9.index t a * S5000x128.size a ≤ (i a).val ∧ (i a).val < win3_9.index t a * S5000x128.size a + S5000x128.size a := by
  show i ∈ ((View.whole main_v59).slice (win3_9.rect t)).set ↔ _
  rw [View.set_slice_whole, Rect.mem_set_unit]
  exact Iff.rfl

/-- Row `r` is in the block of point `r / 5000`. -/
theorem covered3_9 (i : S100000x128.Idx) : ∃ t : Fin cfg3.N, (cfg3.win 9).flush t = true ∧ i ∈ ((cfg3.win 9).blk t).view.set := by
  have hi0 : (i 0).val < 100000 := idx2_lt0 i
  have hi1 : (i 1).val < 128 := idx2_lt1 i
  have hN : cfg3.N = 20 := N_3
  have ht : (i 0).val / 5000 < cfg3.N := by rw [hN]; omega
  obtain ⟨-, -, -, -, -, -, -, -, -, -, -, -, -, -, -, -, -, -, e0, e1⟩ := idx_facts3 ⟨(i 0).val / 5000, ht⟩
  refine ⟨⟨(i 0).val / 5000, ht⟩, flush3_9 _, ?_⟩
  rw [mem_blk3_9]
  intro a
  match a with
  | ⟨0, _⟩ => show win3_9.index ⟨(i 0).val / 5000, ht⟩ (0 : Fin 2) * 5000 ≤ (i 0).val ∧ (i 0).val < win3_9.index ⟨(i 0).val / 5000, ht⟩ (0 : Fin 2) * 5000 + 5000; rw [e0]; show (i 0).val / 5000 * 5000 ≤ (i 0).val ∧ (i 0).val < (i 0).val / 5000 * 5000 + 5000; omega
  | ⟨1, _⟩ => show win3_9.index ⟨(i 0).val / 5000, ht⟩ (1 : Fin 2) * 128 ≤ (i 1).val ∧ (i 1).val < win3_9.index ⟨(i 0).val / 5000, ht⟩ (1 : Fin 2) * 128 + 128; rw [e1]; omega

/-- THE OUTPUT ARRAY after the fourth region: the second affine layer, normalised and clamped twice. -/
theorem final3_9 (c : Dev nD) : (dat3 V c).arrAt 9 cfg3.N = (Cert.Gin.normClamp (Cert.Gin.normClamp (V c main_v27_0) (V c main_v38) (V c main_v39) (V c main_v55) (V c main_v56)) (V c main_v53) (V c main_v54) (V c main_v57) (V c main_v58)) :=
  (dat3 V c).arrAt_eq_of_cover 9 _ (fun t _ => flushed3_9 V c t) covered3_9

end Cert.Gin.BlocksD

end
-- ==== Proof.GinKernelValue.lean ====
/-
  The idealized kernel program's result array, as one function of the argument arrays.

  The result array is what the last region leaves; each region's output array is a whole-array function of its
  input arrays (the blocks-to-array closed forms), and each input array is an argument, a reshaped argument, an
  earlier region's output, or a statistics row the preceding host stretch computed from an earlier region's
  partial sums (the entry equations). Substituting region by region from the launch gives the composed network of
  the kernel's closed forms, which is the specification's network with one-pass variances.
-/
import proofs.«166857_j49581102465153_2_alg».proof.Proof.GinKernelFold
import proofs.«166857_j49581102465153_2_alg».proof.Proof.GinKernelAlgebra
import proofs.«166857_j49581102465153_2_alg».proof.Proof.GinBlocksAB
import proofs.«166857_j49581102465153_2_alg».proof.Proof.GinBlocksC
import proofs.«166857_j49581102465153_2_alg».proof.Proof.GinBlocksD

set_option maxRecDepth 16384

noncomputable section

namespace Cert.Gin.KernelValue

open Idealize.ShloMosaic Idealize.ShloMosaic.TcCoe Idealize.ShloMosaic.ValueIdx
open Idealize.SL.Sem
open Cert.KernelIdeal Cert.KernelIdeal.Gen Cert.Gin.Fold Cert.Gin.KernelNet

variable (m : (ℓ : Loc nD τ sig) → Buf (Elt Ideal) ℓ) (ρ : Dev nD → PrngReg)

/-- The first affine layer of the launch memory's arguments. -/
def layer1 (c : Dev nD) : Mat 100000 128 :=
  affine (addMat (m ((c : Thread nD τ).loc main_arg0)) (aggKer (F := Ideal) (m ((c : Thread nD τ).loc main_arg0)) (m ((c : Thread nD τ).loc main_arg1)) (m ((c : Thread nD τ).loc main_arg2)))) (m ((c : Thread nD τ).loc main_arg3)) (rowOf (F := Ideal) (m ((c : Thread nD τ).loc main_arg4)))

/-- The second affine layer: the first, normalised with its own tile statistics and clamped, through the second
    weight matrix. -/
def layer2 (c : Dev nD) : Mat 100000 128 :=
  affine (bnTiles (layer1 m c) (m ((c : Thread nD τ).loc main_arg5)) (m ((c : Thread nD τ).loc main_arg6))) (m ((c : Thread nD τ).loc main_arg7)) (rowOf (F := Ideal) (m ((c : Thread nD τ).loc main_arg8)))

/-- The second layer normalised with its own tile statistics and clamped. -/
def hidden2 (c : Dev nD) : Mat 100000 128 :=
  bnTiles (layer2 m c) (m ((c : Thread nD τ).loc main_arg9)) (m ((c : Thread nD τ).loc main_arg10))

/-! ## Region A's outputs -/

theorem regionA_z (c : Dev nD) : (dat0 (V1 m ρ) c).arrAt 4 cfg0.N = layer1 m c := by
  rw [Cert.Gin.Blocks.final0_4 (V1 m ρ) c, entryA_x m ρ c, entryA_agg m ρ c, entryA_w m ρ c, entryA_b m ρ c]
  rfl

theorem regionA_sums (c : Dev nD) : (dat0 (V1 m ρ) c).arrAt 5 cfg0.N = tileSums (layer1 m c) := by
  rw [Cert.Gin.Blocks.final0_5 (V1 m ρ) c, entryA_x m ρ c, entryA_agg m ρ c, entryA_w m ρ c, entryA_b m ρ c]
  rfl

theorem regionA_squares (c : Dev nD) : (dat0 (V1 m ρ) c).arrAt 6 cfg0.N = tileSums (sqMat (layer1 m c)) := by
  rw [Cert.Gin.Blocks.final0_6 (V1 m ρ) c, entryA_x m ρ c, entryA_agg m ρ c, entryA_w m ρ c, entryA_b m ρ c]
  rfl

/-! ## Region B's outputs -/

theorem entryB_z' (c : Dev nD) : V3 m ρ c main_v11_0 = layer1 m c := (entryB_z m ρ c).trans (regionA_z m ρ c)
theorem entryB_mean' (c : Dev nD) : V3 m ρ c main_v22 = rowOf (F := Ideal) (meanVec (F := Ideal) (tileSums (layer1 m c))) :=
  (entryB_mean m ρ c).trans (congrArg (fun a => rowOf (F := Ideal) (meanVec (F := Ideal) a)) (regionA_sums m ρ c))
theorem entryB_var' (c : Dev nD) : V3 m ρ c main_v23
    = rowOf (F := Ideal) (varVec (F := Ideal) (tileSums (layer1 m c)) (tileSums (sqMat (layer1 m c)))) :=
  (entryB_var m ρ c).trans (congrArg₂ (fun a b => rowOf (F := Ideal) (varVec (F := Ideal) a b)) (regionA_sums m ρ c) (regionA_squares m ρ c))

theorem regionB_z (c : Dev nD) : (dat1 (V3 m ρ) c).arrAt 7 cfg1.N = layer2 m c := by
  rw [Cert.Gin.Blocks.final1_7 (V3 m ρ) c, entryB_z' m ρ c, entryB_mean' m ρ c, entryB_var' m ρ c, entryB_g m ρ c, entryB_be m ρ c,
    entryB_w m ρ c, entryB_b m ρ c]
  rfl

theorem regionB_sums (c : Dev nD) : (dat1 (V3 m ρ) c).arrAt 8 cfg1.N = tileSums (layer2 m c) := by
  rw [Cert.Gin.Blocks.final1_8 (V3 m ρ) c, entryB_z' m ρ c, entryB_mean' m ρ c, entryB_var' m ρ c, entryB_g m ρ c, entryB_be m ρ c,
    entryB_w m ρ c, entryB_b m ρ c]
  rfl

theorem regionB_squares (c : Dev nD) : (dat1 (V3 m ρ) c).arrAt 9 cfg1.N = tileSums (sqMat (layer2 m c)) := by
  rw [Cert.Gin.Blocks.final1_9 (V3 m ρ) c, entryB_z' m ρ c, entryB_mean' m ρ c, entryB_var' m ρ c, entryB_g m ρ c, entryB_be m ρ c,
    entryB_w m ρ c, entryB_b m ρ c]
  rfl

/-! ## Region C's outputs -/

theorem entryC_z' (c : Dev nD) : V5 m ρ c main_v27_0 = layer2 m c := (entryC_z m ρ c).trans (regionB_z m ρ c)
theorem entryC_mean' (c : Dev nD) : V5 m ρ c main_v38 = rowOf (F := Ideal) (meanVec (F := Ideal) (tileSums (layer2 m c))) :=
  (entryC_mean m ρ c).trans (congrArg (fun a => rowOf (F := Ideal) (meanVec (F := Ideal) a)) (regionB_sums m ρ c))
theorem entryC_var' (c : Dev nD) : V5 m ρ c main_v39
    = rowOf (F := Ideal) (varVec (F := Ideal) (tileSums (layer2 m c)) (tileSums (sqMat (layer2 m c)))) :=
  (entryC_var m ρ c).trans (congrArg₂ (fun a b => rowOf (F := Ideal) (varVec (F := Ideal) a b)) (regionB_sums m ρ c) (regionB_squares m ρ c))

theorem regionC_sums (c : Dev nD) : (dat2 (V5 m ρ) c).arrAt 5 cfg2.N = tileSums (hidden2 m c) := by
  rw [Cert.Gin.BlocksC.final2_5 (V5 m ρ) c, entryC_z' m ρ c, entryC_mean' m ρ c, entryC_var' m ρ c, entryC_g m ρ c, entryC_be m ρ c]
  rfl

theorem regionC_squares (c : Dev nD) : (dat2 (V5 m ρ) c).arrAt 6 cfg2.N = tileSums (sqMat (hidden2 m c)) := by
  rw [Cert.Gin.BlocksC.final2_6 (V5 m ρ) c, entryC_z' m ρ c, entryC_mean' m ρ c, entryC_var' m ρ c, entryC_g m ρ c, entryC_be m ρ c]
  rfl

/-! ## The result array -/

theorem entryD_z' (c : Dev nD) : V7 m ρ c main_v27_0 = layer2 m c := (entryD_z m ρ c).trans (regionB_z m ρ c)
theorem entryD_mean2' (c : Dev nD) : V7 m ρ c main_v38 = rowOf (F := Ideal) (meanVec (F := Ideal) (tileSums (layer2 m c))) :=
  (entryD_mean2 m ρ c).trans (congrArg (fun a => rowOf (F := Ideal) (meanVec (F := Ideal) a)) (regionB_sums m ρ c))
theorem entryD_var2' (c : Dev nD) : V7 m ρ c main_v39
    = rowOf (F := Ideal) (varVec (F := Ideal) (tileSums (layer2 m c)) (tileSums (sqMat (layer2 m c)))) :=
  (entryD_var2 m ρ c).trans (congrArg₂ (fun a b => rowOf (F := Ideal) (varVec (F := Ideal) a b)) (regionB_sums m ρ c) (regionB_squares m ρ c))
theorem entryD_mean3' (c : Dev nD) : V7 m ρ c main_v53 = rowOf (F := Ideal) (meanVec (F := Ideal) (tileSums (hidden2 m c))) :=
  (entryD_mean3 m ρ c).trans (congrArg (fun a => rowOf (F := Ideal) (meanVec (F := Ideal) a)) (regionC_sums m ρ c))
theorem entryD_var3' (c : Dev nD) : V7 m ρ c main_v54
    = rowOf (F := Ideal) (varVec (F := Ideal) (tileSums (hidden2 m c)) (tileSums (sqMat (hidden2 m c)))) :=
  (entryD_var3 m ρ c).trans (congrArg₂ (fun a b => rowOf (F := Ideal) (varVec (F := Ideal) a b)) (regionC_sums m ρ c) (regionC_squares m ρ c))

/-- The last boundary's contents at the result array: the second hidden layer normalised with its own tile
    statistics and clamped. -/
theorem result_layers (c : Dev nD) : W8 m ρ c (Proc.devRef .tc main_v59) = bnTiles (hidden2 m c) (m ((c : Thread nD τ).loc main_arg11)) (m ((c : Thread nD τ).loc main_arg12)) := by
  rw [result_array m ρ c, Cert.Gin.BlocksD.final3_9 (V7 m ρ) c, entryD_z' m ρ c, entryD_mean2' m ρ c, entryD_var2' m ρ c, entryD_g2 m ρ c, entryD_be2 m ρ c,
    entryD_mean3' m ρ c, entryD_var3' m ρ c, entryD_g3 m ρ c, entryD_be3 m ρ c]
  unfold hidden2 bnTiles
  rfl

/-- The same, as the kernel's composed network of the launch memory's argument arrays. -/
theorem result_value (c : Dev nD) : W8 m ρ c (Proc.devRef .tc main_v59)
    = kernelNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (result_layers m ρ c).trans (kernelNet_stages _ _ _ _ _ _ _ _ _ _ _ _ _).symm

/-- The same, as the specification's network with one-pass variances. -/
theorem result_onePass (c : Dev nD) : W8 m ρ c (Proc.devRef .tc main_v59)
    = fun idx => Cert.Gin.ginOnePass (fun i k => (m ((c : Thread nD τ).loc main_arg0)) (ix2 i k)) (fun i k => aggKer (F := Ideal) (m ((c : Thread nD τ).loc main_arg0)) (m ((c : Thread nD τ).loc main_arg1)) (m ((c : Thread nD τ).loc main_arg2)) (ix2 i k)) (fun k j => (m ((c : Thread nD τ).loc main_arg3)) (ix2 k j)) (fun j => (m ((c : Thread nD τ).loc main_arg4)) (ix1 j)) (fun j => (m ((c : Thread nD τ).loc main_arg5)) (ix1 j)) (fun j => (m ((c : Thread nD τ).loc main_arg6)) (ix1 j)) (fun k j => (m ((c : Thread nD τ).loc main_arg7)) (ix2 k j)) (fun j => (m ((c : Thread nD τ).loc main_arg8)) (ix1 j)) (fun j => (m ((c : Thread nD τ).loc main_arg9)) (ix1 j)) (fun j => (m ((c : Thread nD τ).loc main_arg10)) (ix1 j)) (fun j => (m ((c : Thread nD τ).loc main_arg11)) (ix1 j)) (fun j => (m ((c : Thread nD τ).loc main_arg12)) (ix1 j)) (idx 0) (idx 1) :=
  (result_value m ρ c).trans (kernelNet_eq _ _ _ _ _ _ _ _ _ _ _ _ _)

end Cert.Gin.KernelValue

end
-- ==== Proof.GinReference.lean ====
/-
  The reference program's result, read index by index, is the network of `GinSpec` applied to the argument arrays
  (variances as mean squared deviations).
-/
import proofs.«166857_j49581102465153_2_alg».proof.Defs
import proofs.«166857_j49581102465153_2_alg».proof.Proof.Gen.ReferenceIdeal.Read
import proofs.«166857_j49581102465153_2_alg».proof.Proof.GinSpec
import Idealize.ShloMosaic.Lib.ValueIdx
import Idealize.ShloMosaic.PureOps.Ideal.Laws

noncomputable section

namespace Cert.Gin.Reference

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- A 100000 × 32 array of extended reals. -/
abbrev A32 := (⟨S100000x32, .f32⟩ : BufTy).Contents (Elt Ideal)
/-- A 100000 × 128 array of extended reals. -/
abbrev A128 := (⟨S100000x128, .f32⟩ : BufTy).Contents (Elt Ideal)
/-- A vector of 128 extended reals. -/
abbrev V128 := (⟨S128, .f32⟩ : BufTy).Contents (Elt Ideal)
/-- A vector of 1600000 integers (edge endpoints). -/
abbrev E := (⟨S1600000, .i32⟩ : BufTy).Contents (Elt Ideal)

/-- The neighbourhood sums as the reference computes them: every edge `e` adds row `src e` of `x` (a negative
    `src e` counted from the end) into row `dst e` of an array of zeros. Kept as the reference's own term. -/
def aggRef (a0 : A32) (a1 a2 : E) : A32 :=
  Host.scatterAdd (F := Ideal) scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 a2)
    (Host.gather gather_S100000x32_S1600000x1_S1600000x32_1_0_n_n_0_1_132 a0
      (broadcastInDim S1600000x1 ![0] bcast_S1600000_S1600000x1_0
        (select (cmpi .slt a1 (broadcastInDim S1600000 ![] bcast_S_S1600000 (constantI S_ 32 0#32)))
          (addi a1 (broadcastInDim S1600000 ![] bcast_S_S1600000 (constantI S_ 32 100000#32))) a1)))

/-- `aggRef` is the stage the generated reading names `val_main_v9`. -/
theorem aggRef_eq (a0 : A32) (a1 a2 : E) : aggRef a0 a1 a2 = val_main_v9 (F := Ideal) a0 a1 a2 := rfl

/-! ### The first affine layer -/

/-- The first layer's affine map of `x + agg`. -/
theorem v14_at (a0 : A32) (a1 : E) (a2 : E) (a3 : (⟨S32x128, .f32⟩ : BufTy).Contents (Elt Ideal)) (a4 : V128) (i : Fin 100000) (j : Fin 128) :
    val_main_v14 (F := Ideal) a0 a1 a2 a3 a4 (ix2 i j)
      = linear (fun i k => a0 (ix2 i k) + aggRef a0 a1 a2 (ix2 i k)) (fun k j => a3 (ix2 k j)) (fun j => a4 (ix1 j)) i j := by
  have e1 : ∀ k : Fin 32, lidx_main_v11 (ix2 i j) k = ix2 i k := fun k => funext fun a => Fin.ext (by match a with | ⟨0, _⟩ => rfl | ⟨1, _⟩ => rfl)
  have e2 : ∀ k : Fin 32, ridx_main_v11 (ix2 i j) k = ix2 k j := fun k => funext fun a => Fin.ext (by match a with | ⟨0, _⟩ => rfl | ⟨1, _⟩ => rfl)
  have e3 : idx_main_v12 (idx_main_v13 (ix2 i j)) = ix1 j := funext fun a => Fin.ext (by match a with | ⟨0, _⟩ => rfl)
  simp only [val_main_v14_apply, val_main_v11_apply, val_main_v13_apply, val_main_v12_apply, val_main_v10_apply,
    Ideal.addf_def, e1, e2, e3, aggRef_eq]
  rfl

theorem v14_fn (a0 : A32) (a1 : E) (a2 : E) (a3 : (⟨S32x128, .f32⟩ : BufTy).Contents (Elt Ideal)) (a4 : V128) :
    (fun i j => val_main_v14 (F := Ideal) a0 a1 a2 a3 a4 (ix2 i j))
      = linear (fun i k => a0 (ix2 i k) + aggRef a0 a1 a2 (ix2 i k)) (fun k j => a3 (ix2 k j)) (fun j => a4 (ix1 j)) :=
  funext fun i => funext fun j => v14_at a0 a1 a2 a3 a4 i j

/-! ### Batch normalisation of the first layer's affine output -/

/-- The column means of the first layer's affine output. -/
theorem v17_at (a0 : A32) (a1 : E) (a2 : E) (a3 : (⟨S32x128, .f32⟩ : BufTy).Contents (Elt Ideal)) (a4 : V128) (j : Fin 128) :
    val_main_v17 (F := Ideal) a0 a1 a2 a3 a4 (ix1 j) = colMean (fun i j => val_main_v14 (F := Ideal) a0 a1 a2 a3 a4 (ix2 i j)) j := by
  have e : ∀ k : Fin 100000, idx_main_v15 (ix1 j) k = ix2 k j := fun k => funext fun a => Fin.ext (by match a with | ⟨0, _⟩ => rfl | ⟨1, _⟩ => rfl)
  simp only [val_main_v17_apply, val_main_v15_apply, val_main_v16_apply, val_main_cst_1_apply, val_main_cst_2_apply,
    Ideal.hostDivf_def, Ideal.ofBits_def, Ideal.ofBits_zero_f32, zero_add, e]
  rfl

/-- The column variances of the first layer's affine output, as mean squared deviations. -/
theorem v24_at (a0 : A32) (a1 : E) (a2 : E) (a3 : (⟨S32x128, .f32⟩ : BufTy).Contents (Elt Ideal)) (a4 : V128) (j : Fin 128) :
    val_main_v24 (F := Ideal) a0 a1 a2 a3 a4 (ix1 j) = colVar (fun i j => val_main_v14 (F := Ideal) a0 a1 a2 a3 a4 (ix2 i j)) j := by
  have e : ∀ k : Fin 100000, idx_main_v22 (ix1 j) k = ix2 k j := fun k => funext fun a => Fin.ext (by match a with | ⟨0, _⟩ => rfl | ⟨1, _⟩ => rfl)
  have e' : ∀ k : Fin 100000, idx_main_v18 (idx_main_v19 (ix2 k j)) = ix1 j := fun k => funext fun a => Fin.ext (by match a with | ⟨0, _⟩ => rfl)
  simp only [val_main_v24_apply, val_main_v22_apply, val_main_v23_apply, val_main_cst_3_apply, val_main_cst_4_apply,
    val_main_v21_apply, val_main_v20_apply, val_main_v19_apply, val_main_v18_apply,
    Ideal.hostDivf_def, Ideal.ofBits_def, Ideal.ofBits_zero_f32, zero_add, Ideal.mulf_def, Ideal.subf_def, e, e', v17_at]
  rfl

/-- The first layer's affine output, normalised, scaled, shifted and clamped at zero. -/
theorem v40_at (a0 : A32) (a1 : E) (a2 : E) (a3 : (⟨S32x128, .f32⟩ : BufTy).Contents (Elt Ideal)) (a4 : V128) (a5 : V128) (a6 : V128) (i : Fin 100000) (j : Fin 128) :
    val_main_v40 (F := Ideal) a0 a1 a2 a3 a4 a5 a6 (ix2 i j) = bnRelu (fun j => a5 (ix1 j)) (fun j => a6 (ix1 j)) (fun i j => val_main_v14 (F := Ideal) a0 a1 a2 a3 a4 (ix2 i j)) i j := by
  have e1 : idx_main_v28 (idx_main_v29 (ix2 i j)) = ix1 j := funext fun a => Fin.ext (by match a with | ⟨0, _⟩ => rfl)
  have e2 : idx_main_v25 (idx_main_v26 (ix2 i j)) = ix1 j := funext fun a => Fin.ext (by match a with | ⟨0, _⟩ => rfl)
  have e3 : idx_main_v34 (idx_main_v35 (ix2 i j)) = ix1 j := funext fun a => Fin.ext (by match a with | ⟨0, _⟩ => rfl)
  have e4 : idx_main_v37 (idx_main_v38 (ix2 i j)) = ix1 j := funext fun a => Fin.ext (by match a with | ⟨0, _⟩ => rfl)
  simp only [val_main_v40_apply, val_main_v39_apply, val_main_v36_apply, val_main_v30_apply, val_main_v29_apply,
    val_main_v28_apply, val_main_v27_apply, val_main_v26_apply, val_main_v25_apply, val_main_v35_apply,
    val_main_v34_apply, val_main_v33_apply, val_main_v32_apply, val_main_v31_apply, val_main_cst_5_apply,
    val_main_v38_apply, val_main_v37_apply, val_main_call0_v0_apply, val_main_call0_cst_apply,
    Ideal.maximumf_def, Ideal.addf_def, Ideal.mulf_def, Ideal.subf_def, Ideal.hostUnary_rsqrt_def, Ideal.ofBits_def,
    Ideal.ofBits_zero_f32, e1, e2, e3, e4, v17_at, v24_at]
  rfl

theorem v40_fn (a0 : A32) (a1 : E) (a2 : E) (a3 : (⟨S32x128, .f32⟩ : BufTy).Contents (Elt Ideal)) (a4 : V128) (a5 : V128) (a6 : V128) :
    (fun i j => val_main_v40 (F := Ideal) a0 a1 a2 a3 a4 a5 a6 (ix2 i j)) = bnRelu (fun j => a5 (ix1 j)) (fun j => a6 (ix1 j)) (fun i j => val_main_v14 (F := Ideal) a0 a1 a2 a3 a4 (ix2 i j)) :=
  funext fun i => funext fun j => v40_at a0 a1 a2 a3 a4 a5 a6 i j

/-! ### The second affine layer -/

/-- The second layer's affine map of the first layer's output. -/
theorem v44_at (a0 : A32) (a1 : E) (a2 : E) (a3 : (⟨S32x128, .f32⟩ : BufTy).Contents (Elt Ideal)) (a4 : V128) (a5 : V128) (a6 : V128) (a7 : (⟨S128x128, .f32⟩ : BufTy).Contents (Elt Ideal)) (a8 : V128) (i : Fin 100000) (j : Fin 128) :
    val_main_v44 (F := Ideal) a0 a1 a2 a3 a4 a5 a6 a7 a8 (ix2 i j)
      = linear (fun i k => val_main_v40 (F := Ideal) a0 a1 a2 a3 a4 a5 a6 (ix2 i k)) (fun k j => a7 (ix2 k j)) (fun j => a8 (ix1 j)) i j := by
  have e1 : ∀ k : Fin 128, lidx_main_v41 (ix2 i j) k = ix2 i k := fun k => funext fun a => Fin.ext (by match a with | ⟨0, _⟩ => rfl | ⟨1, _⟩ => rfl)
  have e2 : ∀ k : Fin 128, ridx_main_v41 (ix2 i j) k = ix2 k j := fun k => funext fun a => Fin.ext (by match a with | ⟨0, _⟩ => rfl | ⟨1, _⟩ => rfl)
  have e3 : idx_main_v42 (idx_main_v43 (ix2 i j)) = ix1 j := funext fun a => Fin.ext (by match a with | ⟨0, _⟩ => rfl)
  simp only [val_main_v44_apply, val_main_v41_apply, val_main_v43_apply, val_main_v42_apply,
    Ideal.addf_def, e1, e2, e3]
  rfl

theorem v44_fn (a0 : A32) (a1 : E) (a2 : E) (a3 : (⟨S32x128, .f32⟩ : BufTy).Contents (Elt Ideal)) (a4 : V128) (a5 : V128) (a6 : V128) (a7 : (⟨S128x128, .f32⟩ : BufTy).Contents (Elt Ideal)) (a8 : V128) :
    (fun i j => val_main_v44 (F := Ideal) a0 a1 a2 a3 a4 a5 a6 a7 a8 (ix2 i j))
      = linear (fun i k => val_main_v40 (F := Ideal) a0 a1 a2 a3 a4 a5 a6 (ix2 i k)) (fun k j => a7 (ix2 k j)) (fun j => a8 (ix1 j)) :=
  funext fun i => funext fun j => v44_at a0 a1 a2 a3 a4 a5 a6 a7 a8 i j

/-! ### Batch normalisation of the second layer's affine output -/

/-- The column means of the second layer's affine output. -/
theorem v47_at (a0 : A32) (a1 : E) (a2 : E) (a3 : (⟨S32x128, .f32⟩ : BufTy).Contents (Elt Ideal)) (a4 : V128) (a5 : V128) (a6 : V128) (a7 : (⟨S128x128, .f32⟩ : BufTy).Contents (Elt Ideal)) (a8 : V128) (j : Fin 128) :
    val_main_v47 (F := Ideal) a0 a1 a2 a3 a4 a5 a6 a7 a8 (ix1 j) = colMean (fun i j => val_main_v44 (F := Ideal) a0 a1 a2 a3 a4 a5 a6 a7 a8 (ix2 i j)) j := by
  have e : ∀ k : Fin 100000, idx_main_v45 (ix1 j) k = ix2 k j := fun k => funext fun a => Fin.ext (by match a with | ⟨0, _⟩ => rfl | ⟨1, _⟩ => rfl)
  simp only [val_main_v47_apply, val_main_v45_apply, val_main_v46_apply, val_main_cst_6_apply, val_main_cst_7_apply,
    Ideal.hostDivf_def, Ideal.ofBits_def, Ideal.ofBits_zero_f32, zero_add, e]
  rfl

/-- The column variances of the second layer's affine output, as mean squared deviations. -/
theorem v54_at (a0 : A32) (a1 : E) (a2 : E) (a3 : (⟨S32x128, .f32⟩ : BufTy).Contents (Elt Ideal)) (a4 : V128) (a5 : V128) (a6 : V128) (a7 : (⟨S128x128, .f32⟩ : BufTy).Contents (Elt Ideal)) (a8 : V128) (j : Fin 128) :
    val_main_v54 (F := Ideal) a0 a1 a2 a3 a4 a5 a6 a7 a8 (ix1 j) = colVar (fun i j => val_main_v44 (F := Ideal) a0 a1 a2 a3 a4 a5 a6 a7 a8 (ix2 i j)) j := by
  have e : ∀ k : Fin 100000, idx_main_v52 (ix1 j) k = ix2 k j := fun k => funext fun a => Fin.ext (by match a with | ⟨0, _⟩ => rfl | ⟨1, _⟩ => rfl)
  have e' : ∀ k : Fin 100000, idx_main_v48 (idx_main_v49 (ix2 k j)) = ix1 j := fun k => funext fun a => Fin.ext (by match a with | ⟨0, _⟩ => rfl)
  simp only [val_main_v54_apply, val_main_v52_apply, val_main_v53_apply, val_main_cst_8_apply, val_main_cst_9_apply,
    val_main_v51_apply, val_main_v50_apply, val_main_v49_apply, val_main_v48_apply,
    Ideal.hostDivf_def, Ideal.ofBits_def, Ideal.ofBits_zero_f32, zero_add, Ideal.mulf_def, Ideal.subf_def, e, e', v47_at]
  rfl

/-- The second layer's affine output, normalised, scaled, shifted and clamped at zero. -/
theorem v70_at (a0 : A32) (a1 : E) (a2 : E) (a3 : (⟨S32x128, .f32⟩ : BufTy).Contents (Elt Ideal)) (a4 : V128) (a5 : V128) (a6 : V128) (a7 : (⟨S128x128, .f32⟩ : BufTy).Contents (Elt Ideal)) (a8 : V128) (a9 : V128) (a10 : V128) (i : Fin 100000) (j : Fin 128) :
    val_main_v70 (F := Ideal) a0 a1 a2 a3 a4 a5 a6 a7 a8 a9 a10 (ix2 i j) = bnRelu (fun j => a9 (ix1 j)) (fun j => a10 (ix1 j)) (fun i j => val_main_v44 (F := Ideal) a0 a1 a2 a3 a4 a5 a6 a7 a8 (ix2 i j)) i j := by
  have e1 : idx_main_v58 (idx_main_v59 (ix2 i j)) = ix1 j := funext fun a => Fin.ext (by match a with | ⟨0, _⟩ => rfl)
  have e2 : idx_main_v55 (idx_main_v56 (ix2 i j)) = ix1 j := funext fun a => Fin.ext (by match a with | ⟨0, _⟩ => rfl)
  have e3 : idx_main_v64 (idx_main_v65 (ix2 i j)) = ix1 j := funext fun a => Fin.ext (by match a with | ⟨0, _⟩ => rfl)
  have e4 : idx_main_v67 (idx_main_v68 (ix2 i j)) = ix1 j := funext fun a => Fin.ext (by match a with | ⟨0, _⟩ => rfl)
  simp only [val_main_v70_apply, val_main_v69_apply, val_main_v66_apply, val_main_v60_apply, val_main_v59_apply,
    val_main_v58_apply, val_main_v57_apply, val_main_v56_apply, val_main_v55_apply, val_main_v65_apply,
    val_main_v64_apply, val_main_v63_apply, val_main_v62_apply, val_main_v61_apply, val_main_cst_10_apply,
    val_main_v68_apply, val_main_v67_apply, val_main_call1_v0_apply, val_main_call1_cst_apply,
    Ideal.maximumf_def, Ideal.addf_def, Ideal.mulf_def, Ideal.subf_def, Ideal.hostUnary_rsqrt_def, Ideal.ofBits_def,
    Ideal.ofBits_zero_f32, e1, e2, e3, e4, v47_at, v54_at]
  rfl

theorem v70_fn (a0 : A32) (a1 : E) (a2 : E) (a3 : (⟨S32x128, .f32⟩ : BufTy).Contents (Elt Ideal)) (a4 : V128) (a5 : V128) (a6 : V128) (a7 : (⟨S128x128, .f32⟩ : BufTy).Contents (Elt Ideal)) (a8 : V128) (a9 : V128) (a10 : V128) :
    (fun i j => val_main_v70 (F := Ideal) a0 a1 a2 a3 a4 a5 a6 a7 a8 a9 a10 (ix2 i j)) = bnRelu (fun j => a9 (ix1 j)) (fun j => a10 (ix1 j)) (fun i j => val_main_v44 (F := Ideal) a0 a1 a2 a3 a4 a5 a6 a7 a8 (ix2 i j)) :=
  funext fun i => funext fun j => v70_at a0 a1 a2 a3 a4 a5 a6 a7 a8 a9 a10 i j

/-! ### Batch normalisation of the second layer's output -/

/-- The column means of the second layer's output. -/
theorem v73_at (a0 : A32) (a1 : E) (a2 : E) (a3 : (⟨S32x128, .f32⟩ : BufTy).Contents (Elt Ideal)) (a4 : V128) (a5 : V128) (a6 : V128) (a7 : (⟨S128x128, .f32⟩ : BufTy).Contents (Elt Ideal)) (a8 : V128) (a9 : V128) (a10 : V128) (j : Fin 128) :
    val_main_v73 (F := Ideal) a0 a1 a2 a3 a4 a5 a6 a7 a8 a9 a10 (ix1 j) = colMean (fun i j => val_main_v70 (F := Ideal) a0 a1 a2 a3 a4 a5 a6 a7 a8 a9 a10 (ix2 i j)) j := by
  have e : ∀ k : Fin 100000, idx_main_v71 (ix1 j) k = ix2 k j := fun k => funext fun a => Fin.ext (by match a with | ⟨0, _⟩ => rfl | ⟨1, _⟩ => rfl)
  simp only [val_main_v73_apply, val_main_v71_apply, val_main_v72_apply, val_main_cst_11_apply, val_main_cst_12_apply,
    Ideal.hostDivf_def, Ideal.ofBits_def, Ideal.ofBits_zero_f32, zero_add, e]
  rfl

/-- The column variances of the second layer's output, as mean squared deviations. -/
theorem v80_at (a0 : A32) (a1 : E) (a2 : E) (a3 : (⟨S32x128, .f32⟩ : BufTy).Contents (Elt Ideal)) (a4 : V128) (a5 : V128) (a6 : V128) (a7 : (⟨S128x128, .f32⟩ : BufTy).Contents (Elt Ideal)) (a8 : V128) (a9 : V128) (a10 : V128) (j : Fin 128) :
    val_main_v80 (F := Ideal) a0 a1 a2 a3 a4 a5 a6 a7 a8 a9 a10 (ix1 j) = colVar (fun i j => val_main_v70 (F := Ideal) a0 a1 a2 a3 a4 a5 a6 a7 a8 a9 a10 (ix2 i j)) j := by
  have e : ∀ k : Fin 100000, idx_main_v78 (ix1 j) k = ix2 k j := fun k => funext fun a => Fin.ext (by match a with | ⟨0, _⟩ => rfl | ⟨1, _⟩ => rfl)
  have e' : ∀ k : Fin 100000, idx_main_v74 (idx_main_v75 (ix2 k j)) = ix1 j := fun k => funext fun a => Fin.ext (by match a with | ⟨0, _⟩ => rfl)
  simp only [val_main_v80_apply, val_main_v78_apply, val_main_v79_apply, val_main_cst_13_apply, val_main_cst_14_apply,
    val_main_v77_apply, val_main_v76_apply, val_main_v75_apply, val_main_v74_apply,
    Ideal.hostDivf_def, Ideal.ofBits_def, Ideal.ofBits_zero_f32, zero_add, Ideal.mulf_def, Ideal.subf_def, e, e', v73_at]
  rfl

/-- The second layer's output, normalised, scaled, shifted and clamped at zero. -/
theorem v96_at (a0 : A32) (a1 : E) (a2 : E) (a3 : (⟨S32x128, .f32⟩ : BufTy).Contents (Elt Ideal)) (a4 : V128) (a5 : V128) (a6 : V128) (a7 : (⟨S128x128, .f32⟩ : BufTy).Contents (Elt Ideal)) (a8 : V128) (a9 : V128) (a10 : V128) (a11 : V128) (a12 : V128) (i : Fin 100000) (j : Fin 128) :
    val_main_v96 (F := Ideal) a0 a1 a2 a3 a4 a5 a6 a7 a8 a9 a10 a11 a12 (ix2 i j) = bnRelu (fun j => a11 (ix1 j)) (fun j => a12 (ix1 j)) (fun i j => val_main_v70 (F := Ideal) a0 a1 a2 a3 a4 a5 a6 a7 a8 a9 a10 (ix2 i j)) i j := by
  have e1 : idx_main_v84 (idx_main_v85 (ix2 i j)) = ix1 j := funext fun a => Fin.ext (by match a with | ⟨0, _⟩ => rfl)
  have e2 : idx_main_v81 (idx_main_v82 (ix2 i j)) = ix1 j := funext fun a => Fin.ext (by match a with | ⟨0, _⟩ => rfl)
  have e3 : idx_main_v90 (idx_main_v91 (ix2 i j)) = ix1 j := funext fun a => Fin.ext (by match a with | ⟨0, _⟩ => rfl)
  have e4 : idx_main_v93 (idx_main_v94 (ix2 i j)) = ix1 j := funext fun a => Fin.ext (by match a with | ⟨0, _⟩ => rfl)
  simp only [val_main_v96_apply, val_main_v95_apply, val_main_v92_apply, val_main_v86_apply, val_main_v85_apply,
    val_main_v84_apply, val_main_v83_apply, val_main_v82_apply, val_main_v81_apply, val_main_v91_apply,
    val_main_v90_apply, val_main_v89_apply, val_main_v88_apply, val_main_v87_apply, val_main_cst_15_apply,
    val_main_v94_apply, val_main_v93_apply, val_main_call2_v0_apply, val_main_call2_cst_apply,
    Ideal.maximumf_def, Ideal.addf_def, Ideal.mulf_def, Ideal.subf_def, Ideal.hostUnary_rsqrt_def, Ideal.ofBits_def,
    Ideal.ofBits_zero_f32, e1, e2, e3, e4, v73_at, v80_at]
  rfl

theorem v96_fn (a0 : A32) (a1 : E) (a2 : E) (a3 : (⟨S32x128, .f32⟩ : BufTy).Contents (Elt Ideal)) (a4 : V128) (a5 : V128) (a6 : V128) (a7 : (⟨S128x128, .f32⟩ : BufTy).Contents (Elt Ideal)) (a8 : V128) (a9 : V128) (a10 : V128) (a11 : V128) (a12 : V128) :
    (fun i j => val_main_v96 (F := Ideal) a0 a1 a2 a3 a4 a5 a6 a7 a8 a9 a10 a11 a12 (ix2 i j)) = bnRelu (fun j => a11 (ix1 j)) (fun j => a12 (ix1 j)) (fun i j => val_main_v70 (F := Ideal) a0 a1 a2 a3 a4 a5 a6 a7 a8 a9 a10 (ix2 i j)) :=
  funext fun i => funext fun j => v96_at a0 a1 a2 a3 a4 a5 a6 a7 a8 a9 a10 a11 a12 i j

/-- The reference's result array is the network of the argument arrays, index by index. -/
theorem result_eq (a0 : A32) (a1 : E) (a2 : E) (a3 : (⟨S32x128, .f32⟩ : BufTy).Contents (Elt Ideal)) (a4 : V128) (a5 : V128) (a6 : V128) (a7 : (⟨S128x128, .f32⟩ : BufTy).Contents (Elt Ideal)) (a8 : V128) (a9 : V128) (a10 : V128) (a11 : V128) (a12 : V128) :
    val_main_v96 (F := Ideal) a0 a1 a2 a3 a4 a5 a6 a7 a8 a9 a10 a11 a12
      = fun idx => Cert.Gin.gin (fun i k => a0 (ix2 i k)) (fun i k => aggRef a0 a1 a2 (ix2 i k))
          (fun k j => a3 (ix2 k j)) (fun j => a4 (ix1 j)) (fun j => a5 (ix1 j)) (fun j => a6 (ix1 j))
          (fun k j => a7 (ix2 k j)) (fun j => a8 (ix1 j)) (fun j => a9 (ix1 j)) (fun j => a10 (ix1 j))
          (fun j => a11 (ix1 j)) (fun j => a12 (ix1 j)) (idx 0) (idx 1) := by
  funext idx
  obtain ⟨i, j, rfl⟩ : ∃ i j, idx = ix2 i j := ⟨idx 0, idx 1, eq_ix2 idx⟩
  rw [v96_at, v70_fn a0 a1 a2 a3 a4 a5 a6 a7 a8 a9 a10, v44_fn a0 a1 a2 a3 a4 a5 a6 a7 a8, v40_fn a0 a1 a2 a3 a4 a5 a6, v14_fn a0 a1 a2 a3 a4]
  rfl

/-- Every weakly fair execution of the reference ends with its result array at the network of its argument
    arrays and the arguments unchanged. -/
theorem run_gin (m' : (ℓ : Loc nD τ sig) → Buf (Elt Ideal) ℓ) (ρ' : Dev nD → PrngReg) :
    θ_run (Cert.ReferenceIdeal.defs (F := Ideal)) (onTc (τ := τ) (main (F := Ideal))) ⟨m', fun _ => 0, ρ'⟩ fun r => ∀ c : Dev nD,
      r.2.mem ((c.tc : Thread nD τ).loc main_v96)
        = (fun idx => Cert.Gin.gin
            (fun i k => m' ((c.tc : Thread nD τ).loc main_arg0) (ix2 i k))
            (fun i k => aggRef (m' ((c.tc : Thread nD τ).loc main_arg0)) (m' ((c.tc : Thread nD τ).loc main_arg1)) (m' ((c.tc : Thread nD τ).loc main_arg2)) (ix2 i k))
            (fun k j => m' ((c.tc : Thread nD τ).loc main_arg3) (ix2 k j))
            (fun j => m' ((c.tc : Thread nD τ).loc main_arg4) (ix1 j))
            (fun j => m' ((c.tc : Thread nD τ).loc main_arg5) (ix1 j))
            (fun j => m' ((c.tc : Thread nD τ).loc main_arg6) (ix1 j))
            (fun k j => m' ((c.tc : Thread nD τ).loc main_arg7) (ix2 k j))
            (fun j => m' ((c.tc : Thread nD τ).loc main_arg8) (ix1 j))
            (fun j => m' ((c.tc : Thread nD τ).loc main_arg9) (ix1 j))
            (fun j => m' ((c.tc : Thread nD τ).loc main_arg10) (ix1 j))
            (fun j => m' ((c.tc : Thread nD τ).loc main_arg11) (ix1 j))
            (fun j => m' ((c.tc : Thread nD τ).loc main_arg12) (ix1 j)) (idx 0) (idx 1))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12) :=
  (θ_run Cert.ReferenceIdeal.defs _ _).mono
    (fun _ h c => ⟨(h c).1.trans ((val_main_v96_eq (F := Ideal) m' c).trans (result_eq _ _ _ _ _ _ _ _ _ _ _ _ _)), (h c).2⟩)
    (Cert.ReferenceIdeal.Value.run (F := Ideal) m' ρ')

end Cert.Gin.Reference

end
-- ==== Proof.GinStats.lean ====
/-
  The two forms of the network are one function on real arguments.

  The row count both programs divide by is the real number 100000 and the constant added to a variance is a
  positive real. For a matrix of real entries every column mean is a real, every column variance (as the mean of
  the squared deviations) is a nonnegative real, and the one-pass form of the variance — the mean of the squares
  minus the square of the mean, clamped at zero — is the same number (the variance law of `LibRealSums`).
  A variance plus the positive constant is a positive real, so its reciprocal square root is a real; hence a
  normalisation layer maps real entries to real entries, and so does an affine layer. Layer by layer the
  one-pass network therefore equals the two-pass network when all argument arrays have real entries.
-/
import proofs.«166857_j49581102465153_2_alg».proof.Proof.GinSpec
import proofs.«166857_j49581102465153_2_alg».proof.Proof.LibRealSums

noncomputable section

namespace Cert.Gin

open Idealize.ShloMosaic Cert.RealSums

/-- The row count is the real number 100000. -/
theorem nodeCount_eq : nodeCount = ((100000 : ℝ) : EReal) := by
  unfold nodeCount
  simp [Ideal.ofBits, Ideal.ieee, -EReal.coe_mul]; norm_num

/-- The constant added to a variance is a positive real. -/
theorem varEps_pos : ∃ e : ℝ, 0 < e ∧ varEps = (e : EReal) := by
  unfold varEps
  simp [Ideal.ofBits, Ideal.ieee, -EReal.coe_mul]

/-- There are 100000 rows. -/
theorem card_rows : ((Fintype.card (Fin 100000) : ℕ) : ℝ) = (100000 : ℝ) := by
  simp

/-- The mean of a column of reals is a real. -/
theorem isReal_colMean (z : Fin 100000 → Fin 128 → EReal) (hz : ∀ i j, IsReal (z i j)) (j : Fin 128) :
    IsReal (colMean z j) := by
  unfold colMean
  rw [nodeCount_eq]
  exact isReal_div (isReal_sum _ (fun i => hz i j)) (by norm_num)

/-- The variance of a column of reals is a nonnegative real. -/
theorem colVar_nonneg (z : Fin 100000 → Fin 128 → EReal) (hz : ∀ i j, IsReal (z i j)) (j : Fin 128) :
    ∃ v : ℝ, 0 ≤ v ∧ colVar z j = (v : EReal) := by
  unfold colVar colMean
  rw [nodeCount_eq]
  exact var_isReal_nonneg (fun i => z i j) (fun i => hz i j) 100000 (by norm_num)

/-- On a matrix of reals the one-pass form of the column variance is the mean squared deviation. -/
theorem colVarOnePass_eq_colVar (z : Fin 100000 → Fin 128 → EReal) (hz : ∀ i j, IsReal (z i j)) :
    colVarOnePass z = colVar z := by
  funext j
  unfold colVarOnePass colVar colMean
  rw [nodeCount_eq]
  exact var_law (fun i => z i j) (fun i => hz i j) 100000 card_rows (by norm_num)

/-- An affine layer maps real entries, weights and biases to real entries. -/
theorem isReal_linear {K : Nat} (h : Fin 100000 → Fin K → EReal) (W : Fin K → Fin 128 → EReal) (b : Fin 128 → EReal)
    (hh : ∀ i k, IsReal (h i k)) (hW : ∀ k j, IsReal (W k j)) (hb : ∀ j, IsReal (b j))
    (i : Fin 100000) (j : Fin 128) : IsReal (linear h W b i j) := by
  unfold linear
  exact isReal_add (isReal_sum _ (fun k => isReal_mul (hh i k) (hW k j))) (hb j)

/-- Normalising with a real mean and a nonnegative real variance maps real entries to real entries. -/
theorem isReal_normRelu (mean var g be : Fin 128 → EReal) (z : Fin 100000 → Fin 128 → EReal)
    (hmean : ∀ j, IsReal (mean j)) (hvar : ∀ j, ∃ v : ℝ, 0 ≤ v ∧ var j = (v : EReal))
    (hg : ∀ j, IsReal (g j)) (hbe : ∀ j, IsReal (be j)) (hz : ∀ i j, IsReal (z i j))
    (i : Fin 100000) (j : Fin 128) : IsReal (normRelu mean var g be z i j) := by
  unfold normRelu
  obtain ⟨v, hv, hvj⟩ := hvar j
  obtain ⟨e, he, hee⟩ := varEps_pos
  have hr : IsReal (Ideal.rsqrt (var j + varEps)) :=
    isReal_rsqrt ⟨v + e, by positivity, by rw [hvj, hee, EReal.coe_add]⟩
  exact isReal_max (isReal_add (isReal_mul (isReal_mul (hg j) (isReal_sub (hz i j) (hmean j))) hr) (hbe j))
    isReal_zero

/-- A normalisation layer maps real entries, scales and shifts to real entries. -/
theorem isReal_bnRelu (g be : Fin 128 → EReal) (z : Fin 100000 → Fin 128 → EReal)
    (hg : ∀ j, IsReal (g j)) (hbe : ∀ j, IsReal (be j)) (hz : ∀ i j, IsReal (z i j))
    (i : Fin 100000) (j : Fin 128) : IsReal (bnRelu g be z i j) := by
  unfold bnRelu
  exact isReal_normRelu _ _ g be z (isReal_colMean z hz) (colVar_nonneg z hz) hg hbe hz i j

/-- On a matrix of reals the one-pass normalisation layer is the two-pass one. -/
theorem bnReluOnePass_eq_bnRelu (g be : Fin 128 → EReal) (z : Fin 100000 → Fin 128 → EReal)
    (hz : ∀ i j, IsReal (z i j)) : bnReluOnePass g be z = bnRelu g be z := by
  unfold bnReluOnePass bnRelu
  rw [colVarOnePass_eq_colVar z hz]

/-- On real argument arrays the one-pass network is the two-pass network. -/
theorem ginOnePass_eq_gin
    (x agg : Fin 100000 → Fin 32 → EReal) (W1 : Fin 32 → Fin 128 → EReal) (b1 g1 be1 : Fin 128 → EReal)
    (W2 : Fin 128 → Fin 128 → EReal) (b2 g2 be2 g3 be3 : Fin 128 → EReal)
    (hx : ∀ i k, IsReal (x i k)) (hagg : ∀ i k, IsReal (agg i k))
    (hW1 : ∀ k j, IsReal (W1 k j)) (hb1 : ∀ j, IsReal (b1 j)) (hg1 : ∀ j, IsReal (g1 j)) (hbe1 : ∀ j, IsReal (be1 j))
    (hW2 : ∀ k j, IsReal (W2 k j)) (hb2 : ∀ j, IsReal (b2 j)) (hg2 : ∀ j, IsReal (g2 j)) (hbe2 : ∀ j, IsReal (be2 j))
    (_hg3 : ∀ j, IsReal (g3 j)) (_hbe3 : ∀ j, IsReal (be3 j)) :
    ginOnePass x agg W1 b1 g1 be1 W2 b2 g2 be2 g3 be3 = gin x agg W1 b1 g1 be1 W2 b2 g2 be2 g3 be3 := by
  unfold ginOnePass gin
  have h0 : ∀ i k, IsReal ((fun i k => x i k + agg i k) i k) := fun i k => isReal_add (hx i k) (hagg i k)
  have hl1 := isReal_linear _ W1 b1 h0 hW1 hb1
  rw [bnReluOnePass_eq_bnRelu g1 be1 _ hl1]
  have hr1 := isReal_bnRelu g1 be1 _ hg1 hbe1 hl1
  have hl2 := isReal_linear _ W2 b2 hr1 hW2 hb2
  rw [bnReluOnePass_eq_bnRelu g2 be2 _ hl2]
  have hr2 := isReal_bnRelu g2 be2 _ hg2 hbe2 hl2
  rw [bnReluOnePass_eq_bnRelu g3 be3 _ hr2]

end Cert.Gin

end
-- ==== Proof.GinFinite.lean ====
/-
  Finiteness from the precondition.

  The precondition of the claim says, of each floating-point argument array, that every entry has absolute value
  strictly below plus infinity, and takes the conjunction of these statements over the arrays. Over the extended
  reals an entry whose absolute value is below plus infinity is neither infinity, so it is a real number. This
  module reads that back: from "the predicate is one" to "every entry of every floating-point argument is a real".
-/
import proofs.«166857_j49581102465153_2_alg».proof.Pre_finite_inputs
import proofs.«166857_j49581102465153_2_alg».proof.Proof.GinSpec
import Idealize.ShloMosaic.Lib.ReduceAll
import Idealize.ShloMosaic.Lib.ValueIdx

noncomputable section

namespace Cert.Gin

open Idealize.ShloMosaic

/-- The shape of a scalar has exactly one index. -/
instance subsingleton_scalarIdx : Subsingleton (⟨0, ![]⟩ : Shape).Idx := ⟨fun a b => funext fun d => d.elim0⟩

/-- The single-precision pattern of plus infinity denotes the top element. -/
theorem ofBits_inf_f32 : Ideal.ofBits .f32 0x7F800000#32 = ⊤ := by simp [Ideal.ofBits, Ideal.ieee]

/-- An extended real whose absolute value is strictly below plus infinity is a real number. -/
theorem isReal_of_abs_lt_inf (x : EReal)
    (h : Ideal.cmp .olt (max x (-x)) (Ideal.ofBits .f32 0x7F800000#32) = 1#1) : IsReal x := by
  rw [ofBits_inf_f32] at h
  unfold Ideal.cmp at h
  induction x using EReal.rec with
  | bot => simp at h
  | coe r => exact ⟨r, rfl⟩
  | top => simp at h

/-- If the conjunction over all entries of "absolute value below plus infinity" holds of an array, every entry is real. -/
theorem isReal_of_all_abs_lt_inf {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (e : Host.reduce IntOp.andi
          (cmpf .olt (Host.absf x) (broadcastInDim s ![] hb (constant (F := Ideal) ⟨0, ![]⟩ .f32 0x7F800000#32)))
          (constantI ⟨0, ![]⟩ 1 1#1) hr hu j = 1#1) :
    ∀ i, IsReal (x i) := by
  intro i
  have hi := Host.reduce_andi_all _ _ hr hu j e i
  exact isReal_of_abs_lt_inf (x i) hi

section Precondition

open Cert.Pre_finite_inputs

variable [Cert.Pre_finite_inputs.Facts]

/-- The precondition read back: if the printed predicate of the thirteen argument arrays is one, every entry of each
    of the eleven floating-point arrays is a real number (the second and third arguments are integer index arrays). -/
theorem isReal_of_pre
    (a0 : FVec Ideal S100000x32 .f32) (a1 a2 : IVec S1600000 32) (a3 : FVec Ideal S32x128 .f32)
    (a4 a5 a6 : FVec Ideal S128 .f32) (a7 : FVec Ideal S128x128 .f32) (a8 a9 a10 a11 a12 : FVec Ideal S128 .f32)
    (h : Cert.Pre_finite_inputs.fn (F := Ideal) a0 a1 a2 a3 a4 a5 a6 a7 a8 a9 a10 a11 a12 = fun _ => 1#1) :
    (∀ i, IsReal (a0 i)) ∧ (∀ i, IsReal (a3 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i))
      ∧ (∀ i, IsReal (a11 i)) ∧ (∀ i, IsReal (a12 i)) := by
  have h0 := congrFun h ValueIdx.ix0
  dsimp only [Cert.Pre_finite_inputs.fn, Cert.Pre_finite_inputs.fn_part1, Cert.Pre_finite_inputs.fn_part2,
    Cert.Pre_finite_inputs.fn_part3] at h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  exact ⟨isReal_of_all_abs_lt_inf a0 _ _ _ _ h0, isReal_of_all_abs_lt_inf a3 _ _ _ _ h3,
    isReal_of_all_abs_lt_inf a4 _ _ _ _ h4, isReal_of_all_abs_lt_inf a5 _ _ _ _ h5,
    isReal_of_all_abs_lt_inf a6 _ _ _ _ h6, isReal_of_all_abs_lt_inf a7 _ _ _ _ h7,
    isReal_of_all_abs_lt_inf a8 _ _ _ _ h8, isReal_of_all_abs_lt_inf a9 _ _ _ _ h9,
    isReal_of_all_abs_lt_inf a10 _ _ _ _ h10, isReal_of_all_abs_lt_inf a11 _ _ _ _ h11,
    isReal_of_all_abs_lt_inf a12 _ _ _ _ h12⟩

end Precondition

end Cert.Gin

end
-- ==== Proof.GinFiniteAgg.lean ====
/-
  The neighbourhood sum of real features is real.

  The neighbourhood sum is built in two steps: a pick of rows of the feature matrix by one index array, and an
  accumulation of the picked rows into a zero matrix at the positions a second index array names. Over the extended
  reals the accumulation is, at each position, the starting entry plus the finite sum of the picked entries that land
  there. A pick of a real entry is real, zero is real, and a finite sum of reals is real; so every entry of the
  neighbourhood sum is real, whatever the two index arrays and the dimension numbers of the two operations are.
-/
import proofs.«166857_j49581102465153_2_alg».proof.Proof.GinSpec
import Idealize.ShloMosaic.PureOps

noncomputable section

namespace Cert.Gin

open Idealize.ShloMosaic

/-- Zero is a real number. -/
theorem isReal_zero : IsReal 0 := ⟨0, rfl⟩

/-- The sum of two reals is a real. -/
theorem IsReal.add {a b : EReal} (ha : IsReal a) (hb : IsReal b) : IsReal (a + b) := by
  obtain ⟨r, rfl⟩ := ha
  obtain ⟨t, rfl⟩ := hb
  exact ⟨r + t, (EReal.coe_add r t).symm⟩

/-- A finite sum of reals is a real. -/
theorem isReal_sum {ι : Type*} (S : Finset ι) (f : ι → EReal) (h : ∀ i ∈ S, IsReal (f i)) : IsReal (∑ i ∈ S, f i) := by
  classical
  induction S using Finset.induction_on with
  | empty => simpa using isReal_zero
  | insert a S ha ih =>
    rw [Finset.sum_insert ha]
    exact (h a (Finset.mem_insert_self a S)).add (ih fun i hi => h i (Finset.mem_insert_of_mem hi))

/-- A pick of entries of an array of reals is an array of reals. -/
theorem isReal_gather {s si t : Shape} {w : Nat} (g : GatherDims s si t) (x : s.Idx → EReal)
    (hx : ∀ i, IsReal (x i)) (idx : IVec si w) : ∀ j, IsReal (Host.gather g x idx j) :=
  fun j => hx (g.operandIdx j idx)

/-- Accumulating an array of reals into an array of reals gives an array of reals. -/
theorem isReal_scatterAdd {s si su : Shape} {w : Nat} (d : ScatterDims s si su) (x : FVec Ideal s .f32)
    (hx : ∀ i, IsReal (x i)) (idx : IVec si w) (upd : FVec Ideal su .f32) (hupd : ∀ j, IsReal (upd j)) :
    ∀ i, IsReal (Host.scatterAdd (F := Ideal) d x idx upd i) := by
  intro i
  show IsReal (x i + ∑ j ∈ Finset.univ.filter (fun j => d.resultIdx? j idx = some i), upd j)
  exact (hx i).add (isReal_sum _ _ fun j _ => hupd j)

/-- Every entry of the zero matrix the accumulation starts from is zero. -/
theorem zeros_apply {s : Shape} (hb : (⟨0, ![]⟩ : Shape).BroadcastsInDim s (![] : Fin 0 → Fin s.rank)) (i : s.Idx) :
    broadcastInDim s ![] hb (constant (F := Ideal) ⟨0, ![]⟩ .f32 0x00000000#32) i = 0 := by
  show Ideal.ofBits .f32 0x00000000#32 = 0
  simp [Ideal.ofBits, Ideal.ieee]

/-- The neighbourhood sum of an array of reals: picked entries accumulated into the zero matrix, all reals. -/
theorem isReal_agg {s sx si sj su : Shape} {w w' : Nat} (d : ScatterDims s si su) (g : GatherDims sx sj su)
    (hb : (⟨0, ![]⟩ : Shape).BroadcastsInDim s (![] : Fin 0 → Fin s.rank))
    (x : FVec Ideal sx .f32) (hx : ∀ i, IsReal (x i)) (iS : IVec sj w') (iD : IVec si w) :
    ∀ i, IsReal (Host.scatterAdd (F := Ideal) d
      (broadcastInDim s ![] hb (constant (F := Ideal) ⟨0, ![]⟩ .f32 0x00000000#32)) iD (Host.gather g x iS) i) :=
  isReal_scatterAdd d _ (fun i => by rw [zeros_apply]; exact isReal_zero) iD _ (isReal_gather g x hx iS)

/-- The neighbourhood sum at a position, written out: the sum of the picked entries that land there. -/
theorem agg_apply {s sx si sj su : Shape} {w w' : Nat} (d : ScatterDims s si su) (g : GatherDims sx sj su)
    (hb : (⟨0, ![]⟩ : Shape).BroadcastsInDim s (![] : Fin 0 → Fin s.rank))
    (x : FVec Ideal sx .f32) (iS : IVec sj w') (iD : IVec si w) (i : s.Idx) :
    Host.scatterAdd (F := Ideal) d
      (broadcastInDim s ![] hb (constant (F := Ideal) ⟨0, ![]⟩ .f32 0x00000000#32)) iD (Host.gather g x iS) i
      = ∑ j ∈ Finset.univ.filter (fun j => d.resultIdx? j iD = some i), x (g.operandIdx j iS) := by
  show broadcastInDim s ![] hb (constant (F := Ideal) ⟨0, ![]⟩ .f32 0x00000000#32) i
      + ∑ j ∈ Finset.univ.filter (fun j => d.resultIdx? j iD = some i), x (g.operandIdx j iS) = _
  rw [zeros_apply, zero_add]

end Cert.Gin

end
-- ==== Proof.GinAgree.lean ====
/-
  The two programs compute one neighbourhood sum.

  Each program builds the neighbourhood sum by the same two operations, a pick of rows by the source indices and an
  accumulation into a zero matrix at the destination indices, with dimension numbers and shapes that are stated
  separately for each program but have equal entries. So the two terms are one function of the argument arrays.
  With the real-valuedness of that sum for real features, this gives the kernel program's neighbourhood sum real.
-/
import proofs.«166857_j49581102465153_2_alg».proof.Proof.GinKernelFold
import proofs.«166857_j49581102465153_2_alg».proof.Proof.GinReference
import proofs.«166857_j49581102465153_2_alg».proof.Proof.GinFiniteAgg

noncomputable section

namespace Cert.Gin.Agree

open Idealize.ShloMosaic Idealize.SL.Sem

/-- The kernel program's neighbourhood sum and the reference's are the same function of the argument arrays:
    the two programs' dimension numbers and shapes have equal entries. -/
theorem aggKer_eq_aggRef (a0 : (⟨Cert.KernelIdeal.S100000x32, .f32⟩ : BufTy).Contents (Elt Ideal))
    (a1 a2 : (⟨Cert.KernelIdeal.S1600000, .i32⟩ : BufTy).Contents (Elt Ideal)) :
    Cert.Gin.Fold.aggKer (F := Ideal) a0 a1 a2 = Cert.Gin.Reference.aggRef a0 a1 a2 := rfl

/-- The kernel program's neighbourhood sum of real features is real at every position, whatever the index arrays. -/
theorem isReal_aggKer (a0 : (⟨Cert.KernelIdeal.S100000x32, .f32⟩ : BufTy).Contents (Elt Ideal))
    (h0 : ∀ i, IsReal (a0 i)) (a1 a2 : (⟨Cert.KernelIdeal.S1600000, .i32⟩ : BufTy).Contents (Elt Ideal)) :
    ∀ i, IsReal (Cert.Gin.Fold.aggKer (F := Ideal) a0 a1 a2 i) :=
  isReal_agg _ _ _ a0 h0 _ _

/-- The reference's neighbourhood sum of real features is real at every position. -/
theorem isReal_aggRef (a0 : Cert.Gin.Reference.A32) (h0 : ∀ i, IsReal (a0 i)) (a1 a2 : Cert.Gin.Reference.E) :
    ∀ i, IsReal (Cert.Gin.Reference.aggRef a0 a1 a2 i) :=
  isReal_agg _ _ _ a0 h0 _ _

end Cert.Gin.Agree

end
-- ==== Proof.lean ====
/-
  The certificate's five claims.

  The three frames: the two kernel programs by their generated frames, the reference by its run with the result
  dropped. Nothing was rewritten between the kernel and its idealization. The value claim: at the ideal instance
  the kernel program ends with its result array at the network of `GinSpec` with one-pass variances
  (`E[z²] − E[z]²`, clamped at zero) of the argument arrays, the reference with the same network with two-pass
  variances (the mean squared deviation); under the precondition every argument entry is a real number, so are the
  neighbourhood sums and every layer, and on real columns the two variances are one number. The two programs'
  neighbourhood sums are the same term, and the memories agree on the arguments.
-/
import proofs.«166857_j49581102465153_2_alg».proof.Defs
import proofs.«166857_j49581102465153_2_alg».proof.Proof.Gen.Kernel
import proofs.«166857_j49581102465153_2_alg».proof.Proof.Gen.Kernel.Frame
import proofs.«166857_j49581102465153_2_alg».proof.Proof.Gen.KernelIdeal
import proofs.«166857_j49581102465153_2_alg».proof.Proof.Gen.KernelIdeal.Frame
import proofs.«166857_j49581102465153_2_alg».proof.Proof.Gen.ReferenceIdeal
import proofs.«166857_j49581102465153_2_alg».proof.Proof.Gen.Pre_finite_inputs
import proofs.«166857_j49581102465153_2_alg».proof.Proof.GinKernelRun
import proofs.«166857_j49581102465153_2_alg».proof.Proof.GinKernelValue
import proofs.«166857_j49581102465153_2_alg».proof.Proof.GinReference
import proofs.«166857_j49581102465153_2_alg».proof.Proof.GinStats
import proofs.«166857_j49581102465153_2_alg».proof.Proof.GinFinite
import proofs.«166857_j49581102465153_2_alg».proof.Proof.GinAgree
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.Gin.Reference.run_gin m ρ)

theorem preserves : Cert.preserves_Kernel_KernelIdeal := trivial

/-- Both programs end with the two-pass network of the (kernel memory's) argument arrays in their result array. -/
theorem algebraic : Cert.algebraic_KernelIdeal_ReferenceIdeal := by
  intro m ρ m' ρ' hpre hagree
  refine ⟨fun c => (fun idx => Cert.Gin.gin (fun i k => (m ((c.tc : Thread Cert.KernelIdeal.nD Cert.KernelIdeal.τ).loc Cert.KernelIdeal.main_arg0)) (ix2 i k)) (fun i k => Cert.Gin.Reference.aggRef (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (ix2 i k)) (fun k j => (m ((c.tc : Thread Cert.KernelIdeal.nD Cert.KernelIdeal.τ).loc Cert.KernelIdeal.main_arg3)) (ix2 k j)) (fun j => (m ((c.tc : Thread Cert.KernelIdeal.nD Cert.KernelIdeal.τ).loc Cert.KernelIdeal.main_arg4)) (ix1 j)) (fun j => (m ((c.tc : Thread Cert.KernelIdeal.nD Cert.KernelIdeal.τ).loc Cert.KernelIdeal.main_arg5)) (ix1 j)) (fun j => (m ((c.tc : Thread Cert.KernelIdeal.nD Cert.KernelIdeal.τ).loc Cert.KernelIdeal.main_arg6)) (ix1 j)) (fun k j => (m ((c.tc : Thread Cert.KernelIdeal.nD Cert.KernelIdeal.τ).loc Cert.KernelIdeal.main_arg7)) (ix2 k j)) (fun j => (m ((c.tc : Thread Cert.KernelIdeal.nD Cert.KernelIdeal.τ).loc Cert.KernelIdeal.main_arg8)) (ix1 j)) (fun j => (m ((c.tc : Thread Cert.KernelIdeal.nD Cert.KernelIdeal.τ).loc Cert.KernelIdeal.main_arg9)) (ix1 j)) (fun j => (m ((c.tc : Thread Cert.KernelIdeal.nD Cert.KernelIdeal.τ).loc Cert.KernelIdeal.main_arg10)) (ix1 j)) (fun j => (m ((c.tc : Thread Cert.KernelIdeal.nD Cert.KernelIdeal.τ).loc Cert.KernelIdeal.main_arg11)) (ix1 j)) (fun j => (m ((c.tc : Thread Cert.KernelIdeal.nD Cert.KernelIdeal.τ).loc Cert.KernelIdeal.main_arg12)) (ix1 j)) (idx 0) (idx 1)), ?_, ?_⟩
  · -- the kernel: one-pass variances, equal to the two-pass ones on real columns
    refine (θ_run Cert.KernelIdeal.defs _ _).mono (fun r h c => ⟨(h c).1.trans ?_, (h c).2⟩) (Cert.Gin.KernelRun.run_result (F := Ideal) m ρ)
    obtain ⟨h0, h3, h4, h5, h6, h7, h8, h9, h10, h11, h12⟩ := Cert.Gin.isReal_of_pre _ _ _ _ _ _ _ _ _ _ _ _ _ (hpre c)
    rw [Cert.Gin.KernelValue.result_onePass m ρ c]
    funext idx
    refine (congrFun (congrFun (Cert.Gin.ginOnePass_eq_gin _ _ _ _ _ _ _ _ _ _ _ _ (fun i k => h0 _) (fun i k => Cert.Gin.Agree.isReal_aggKer _ h0 _ _ _) (fun k j => h3 _) (fun j => h4 _) (fun j => h5 _) (fun j => h6 _)
      (fun k j => h7 _) (fun j => h8 _) (fun j => h9 _) (fun j => h10 _) (fun j => h11 _) (fun j => h12 _)) (idx 0)) (idx 1)).trans ?_
    rw [Cert.Gin.Agree.aggKer_eq_aggRef]
  · -- the reference: the same network of its own arguments, which are the kernel's
    refine (θ_run Cert.ReferenceIdeal.defs _ _).mono (fun r h c => ⟨(h c).1.trans ?_, (h c).2⟩) (Cert.Gin.Reference.run_gin m' ρ')
    rw [(hagree c).1, (hagree c).2.1, (hagree c).2.2.1, (hagree c).2.2.2.1, (hagree c).2.2.2.2.1, (hagree c).2.2.2.2.2.1, (hagree c).2.2.2.2.2.2.1,
      (hagree c).2.2.2.2.2.2.2.1, (hagree c).2.2.2.2.2.2.2.2.1, (hagree c).2.2.2.2.2.2.2.2.2.1, (hagree c).2.2.2.2.2.2.2.2.2.2.1,
      (hagree c).2.2.2.2.2.2.2.2.2.2.2.1, (hagree c).2.2.2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
